-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_sqrt_dk" .f32 0x3D3504F3#32 ((524288 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x512 : Shape := ⟨3, ![4, 4096, 512]⟩
abbrev S512x512 : Shape := ⟨2, ![512, 512]⟩
abbrev S512 : Shape := ⟨1, ![512]⟩
abbrev S_ : Shape := ⟨0, ![]⟩

class Facts : Prop where
  bcast_S_S4x4096x512 : S_.BroadcastsInDim S4x4096x512 (![] : Fin 0 → Fin S4x4096x512.rank)
  reducesTo_S4x4096x512_S_d0_1_2 : S4x4096x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S4x4096x512 .f32) (main_arg1 : FVec F S512x512 .f32) (main_arg2 : FVec F S512 .f32) : IVec S_ 1 :=
  let main_v0 : FVec F S4x4096x512 .f32 := Host.absf main_arg0
  let main_cst : FVec F S_ .f32 := constant S_ .f32 0x7F800000#32
  let main_v1 : FVec F S4x4096x512 .f32 := broadcastInDim S4x4096x512 ![] bcast_S_S4x4096x512 main_cst
  let main_v2 : IVec S4x4096x512 1 := cmpf .olt main_v0 main_v1
  let main_c : IVec S_ 1 := constantI S_ 1 1#1
  let main_v3 : IVec S_ 1 := (fun x v => Host.reduce IntOp.andi x v reducesTo_S4x4096x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S4x4096x512 : Shape := ⟨3, ![4, 4096, 512]⟩
abbrev S512x512 : Shape := ⟨2, ![512, 512]⟩
abbrev S512 : Shape := ⟨1, ![512]⟩
abbrev S16384x512 : Shape := ⟨2, ![16384, 512]⟩
abbrev S1024x512 : Shape := ⟨2, ![1024, 512]⟩
abbrev S1x512 : Shape := ⟨2, ![1, 512]⟩
abbrev S1x1024x512 : Shape := ⟨3, ![1, 1024, 512]⟩
abbrev S1024x1 : Shape := ⟨2, ![1024, 1]⟩
abbrev S512x1024 : Shape := ⟨2, ![512, 1024]⟩
abbrev S1024x1024 : Shape := ⟨2, ![1024, 1024]⟩
abbrev S1024 : Shape := ⟨1, ![1024]⟩
abbrev S4x4096x1024 : Shape := ⟨3, ![4, 4096, 1024]⟩

abbrev nBuf : Space → Nat
  | .hbm => 9
  | .vmem => 17
  | .smem => 0
  | _ => 0

abbrev bufTy : (tb : Table) → Fin (tcTables nBuf tb) → BufTy
  | .hbm, ⟨0, _⟩ => ⟨S4x4096x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S16384x512, .f32⟩
  | .hbm, ⟨5, _⟩ => ⟨S16384x512, .f32⟩
  | .hbm, ⟨6, _⟩ => ⟨S4x4096x512, .f32⟩
  | .hbm, ⟨7, _⟩ => ⟨S4x4096x512, .f32⟩
  | .hbm, ⟨8, _⟩ => ⟨S4x4096x1024, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S512, .f32⟩
  | .local _ .vmem, ⟨4, _⟩ => ⟨S1024x512, .f32⟩
  | .local _ .vmem, ⟨5, _⟩ => ⟨S1024x512, .f32⟩
  | .local _ .vmem, ⟨6, _⟩ => ⟨S1x1024x512, .f32⟩
  | .local _ .vmem, ⟨7, _⟩ => ⟨S1x1024x512, .f32⟩
  | .local _ .vmem, ⟨8, _⟩ => ⟨S1x1024x512, .f32⟩
  | .local _ .vmem, ⟨9, _⟩ => ⟨S1x1024x512, .f32⟩
  | .local _ .vmem, ⟨10, _⟩ => ⟨S1x1024x512, .f32⟩
  | .local _ .vmem, ⟨11, _⟩ => ⟨S1x1024x512, .f32⟩
  | .local _ .vmem, ⟨12, _⟩ => ⟨S1x1024x512, .f32⟩
  | .local _ .vmem, ⟨13, _⟩ => ⟨S1x1024x512, .f32⟩
  | .local _ .vmem, ⟨14, _⟩ => ⟨S1024x1, .f32⟩
  | .local _ .vmem, ⟨15, _⟩ => ⟨S1024x1, .f32⟩
  | .local _ .vmem, ⟨16, _⟩ => ⟨S1024x512, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc1_scratch1 : Ref sig .tc := ⟨.vmem, 15, rfl⟩
abbrev cc1_scratch2 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![4, 4, 4], ![false, false, false]⟩

def k1_cond2 (i : grid1.Coords) : BitVec 1 :=
  let arg2 : BitVec 32 := BitVec.ofNat 32 (i 2).val
  let c3_i32 : BitVec 32 := 3#32
  let v46 : BitVec 1 := Scalar.cmpi .eq arg2 c3_i32
  let v47 : BitVec 32 := Scalar.extui v46
  let c0_i32_27 : BitVec 32 := 0#32
  let v48 : BitVec 1 := Scalar.cmpi .ne v47 c0_i32_27
  v48

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  transposes_S512x512_S512x512_1_0 : S512x512.Transposes [1, 0] S512x512
  shapeCasts_S4x4096x512_S16384x512 : S4x4096x512.ShapeCasts S16384x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  shapeCasts_S16384x512_S4x4096x512 : S16384x512.ShapeCasts S4x4096x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  transposes_S1024x512_p1_0_S512x1024 : S1024x512.Transposes [1, 0] S512x1024
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x512 : S1024x1.Broadcasts S1024x512
  shapeCasts_S1024x512_S1x1024x512 : S1024x512.ShapeCasts S1x1024x512
  concatenates_S4x4096x512_S4x4096x512_S4x4096x1024_d2 : Shape.Concatenates [S4x4096x512, S4x4096x512] S4x4096x1024 2
  dot_S1024x512_S512x512_S1024x512_1_0_0_1_n_n_wf : DotDims.WF S1024x512 S512x512 S1024x512 [1] [0] [0] [1] [] []
  dot_S1024x512_S512x1024_S1024x1024_1_0_0_1_n_n_wf : DotDims.WF S1024x512 S512x1024 S1024x1024 [1] [0] [0] [1] [] []
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S16384x512.size a
  hwx0_3 : ∀ i : grid0.Coords, EltTy.bits .f32 = 32 ∨ (Rect.block (s := S16384x512) S1024x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x512.size a ≤ S4x4096x512.size a
  hwx1_0 : ∀ i : grid1.Coords, EltTy.bits .f32 = 32 ∨ (Rect.block (s := S4x4096x512) S1x1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x512.size a ≤ S4x4096x512.size a
  hwx1_1 : ∀ i : grid1.Coords, EltTy.bits .f32 = 32 ∨ (Rect.block (s := S4x4096x512) S1x1024x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x512.size a ≤ S4x4096x512.size a
  hwx1_2 : ∀ i : grid1.Coords, EltTy.bits .f32 = 32 ∨ (Rect.block (s := S4x4096x512) S1x1024x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x512.size a ≤ S4x4096x512.size a
  hwx1_3 : ∀ i : grid1.Coords, EltTy.bits .f32 = 32 ∨ (Rect.block (s := S4x4096x512) S1x1024x512.size (cc1_transform_3 i) (hinb1_3 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_v1) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v3) S1x1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S1x1024x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x4096x512 : Shape := ⟨3, ![4, 4096, 512]⟩
abbrev S512x512 : Shape := ⟨2, ![512, 512]⟩
abbrev S512 : Shape := ⟨1, ![512]⟩
abbrev S1x1x512 : Shape := ⟨3, ![1, 1, 512]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩
abbrev S4x4096x1024 : Shape := ⟨3, ![4, 4096, 1024]⟩

abbrev nBuf : Space → Nat
  | .hbm => 27
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S512x512, .f32⟩
  | .hbm, ⟨2, _⟩ => ⟨S512, .f32⟩
  | .hbm, ⟨3, _⟩ => ⟨S4x4096x512, .f32⟩
  | .hbm, ⟨4, _⟩ => ⟨S1x1x512, .f32⟩
  | .hbm, ⟨5, _⟩ => ⟨S4x4096x512, .f32⟩
  | .hbm, ⟨6, _⟩ => ⟨S4x4096x512, .f32⟩
  | .hbm, ⟨7, _⟩ => ⟨S4x4096x4096, .f32⟩
  | .hbm, ⟨8, _⟩ => ⟨S_, .f32⟩
  | .hbm, ⟨9, _⟩ => ⟨S4x4096x4096, .f32⟩
  | .hbm, ⟨10, _⟩ => ⟨S4x4096x4096, .f32⟩
  | .hbm, ⟨11, _⟩ => ⟨S_, .f32⟩
  | .hbm, ⟨12, _⟩ => ⟨S4x4096, .f32⟩
  | .hbm, ⟨13, _⟩ => ⟨S_, .f32⟩
  | .hbm, ⟨14, _⟩ => ⟨S4x4096, .f32⟩
  | .hbm, ⟨15, _⟩ => ⟨S4x4096, .f32⟩
  | .hbm, ⟨16, _⟩ => ⟨S4x4096x1, .f32⟩
  | .hbm, ⟨17, _⟩ => ⟨S4x4096x4096, .f32⟩
  | .hbm, ⟨18, _⟩ => ⟨S4x4096x4096, .f32⟩
  | .hbm, ⟨19, _⟩ => ⟨S4x4096x4096, .f32⟩
  | .hbm, ⟨20, _⟩ => ⟨S_, .f32⟩
  | .hbm, ⟨21, _⟩ => ⟨S4x4096, .f32⟩
  | .hbm, ⟨22, _⟩ => ⟨S4x4096x1, .f32⟩
  | .hbm, ⟨23, _⟩ => ⟨S4x4096x4096, .f32⟩
  | .hbm, ⟨24, _⟩ => ⟨S4x4096x4096, .f32⟩
  | .hbm, ⟨25, _⟩ => ⟨S4x4096x512, .f32⟩
  | .hbm, ⟨26, _⟩ => ⟨S4x4096x1024, .f32⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S4x4096x512_0_1_2 : S1x1x512.BroadcastsInDim S4x4096x512 (![0, 1, 2] : Fin 3 → Fin S4x4096x512.rank)
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  concatenates_S4x4096x512_S4x4096x512_S4x4096x1024_d2 : Shape.Concatenates [S4x4096x512, S4x4096x512] S4x4096x1024 2
  dot_S4x4096x512_S512x512_S4x4096x512_2_1_01_0_n_n_wf : DotDims.WF S4x4096x512 S512x512 S4x4096x512 [2] [1] [0, 1] [0] [] []
  dot_S4x4096x512_S4x4096x512_S4x4096x4096_2_2_1_1_0_0_wf : DotDims.WF S4x4096x512 S4x4096x512 S4x4096x4096 [2] [2] [1] [1] [0] [0]
  dot_S4x4096x4096_S4x4096x512_S4x4096x512_2_1_1_2_0_0_wf : DotDims.WF S4x4096x4096 S4x4096x512 S4x4096x512 [2] [1] [1] [2] [0] [0]

variable [Facts₀]

def dot_S4x4096x512_S512x512_S4x4096x512_2_1_01_0_n_n : DotDims S4x4096x512 S512x512 S4x4096x512 where
  lhsContracting := [2]
  rhsContracting := [1]
  lhsNonContracting := [0, 1]
  rhsNonContracting := [0]
  lhsBatch := []
  rhsBatch := []
  wf := dot_S4x4096x512_S512x512_S4x4096x512_2_1_01_0_n_n_wf
def dot_S4x4096x512_S4x4096x512_S4x4096x4096_2_2_1_1_0_0 : DotDims S4x4096x512 S4x4096x512 S4x4096x4096 where
  lhsContracting := [2]
  rhsContracting := [2]
  lhsNonContracting := [1]
  rhsNonContracting := [1]
  lhsBatch := [0]
  rhsBatch := [0]
  wf := dot_S4x4096x512_S4x4096x512_S4x4096x4096_2_2_1_1_0_0_wf
def dot_S4x4096x4096_S4x4096x512_S4x4096x512_2_1_1_2_0_0 : DotDims S4x4096x4096 S4x4096x512 S4x4096x512 where
  lhsContracting := [2]
  rhsContracting := [1]
  lhsNonContracting := [1]
  rhsNonContracting := [2]
  lhsBatch := [0]
  rhsBatch := [0]
  wf := dot_S4x4096x4096_S4x4096x512_S4x4096x512_2_1_1_2_0_0_wf

class Facts : Prop extends Facts₀ where

variable [Facts]
-- ==== Proof.Easy.lean ====
/-
  The two conjuncts that need no kernel run.

  * The reference is a straight-line host program: every weakly fair execution of it terminates with each result at the
    composed term of its operations, the arguments untouched; dropping the result leaves the frame claim.
  * The idealization rewrote one constant: the scale the kernel multiplies the scores by, the f32 word `0x3D3504F3`, is
    read at the extended reals as the rational `524288 / 11863283` — the reciprocal of the word `0x41B504F3`
    (`11863283 / 524288`) by which the reference divides its scores.
-/
import proofs.«131597_j62620623175753_2_alg».proof.Defs
import proofs.«131597_j62620623175753_2_alg».proof.Proof.Gen.ReferenceIdeal.Run
import proofs.«131597_j62620623175753_2_alg».proof.Proof.Gen.ReferenceIdeal.Read
import proofs.«131597_j62620623175753_2_alg».proof.Proof.Gen.ReferenceIdeal
import proofs.«131597_j62620623175753_2_alg».proof.Proof.Gen.Pre_finite_inputs

noncomputable section

open Idealize.ShloMosaic Idealize.ShloMosaic.TcCoe Idealize.SL.Sem

namespace Cert.Proof.Easy

/-- The reference runs to the end and leaves its three arguments as launched. -/
theorem frame_ri : Cert.frame_ReferenceIdeal := fun m ρ _ =>
  (θ_run Cert.ReferenceIdeal.defs _ _).mono (fun _ h c => (h c).2) (Cert.ReferenceIdeal.Value.run (F := Ideal) m ρ)

/-- The named scale denotes `524288 / 11863283` at the extended reals, by the certificate's table. -/
theorem preserves : Cert.preserves_Kernel_KernelIdeal :=
  IdealRules.named_const.statement Cert.KernelIdeal.κ "inv_sqrt_dk" .f32 0x3D3504F3#32 ((524288 / 11863283 : ℝ) : EReal) rfl

end Cert.Proof.Easy

end
-- ==== Proof.Attn.Common.lean ====
/-
  The attention kernel's grid is (batch, query block, key block), the key block innermost: point `t` works on key block
  `t % 4` of its query block.  The body resets its three running buffers (row maximum, row sum, weighted accumulator) when
  the key block is the first, folds the current key block into them at every point, and divides the accumulator by the row
  sum into the output block when the key block is the last.  This module names the two conditions, decides them over the
  grid, and names the memrefs the body is called with.
-/
import proofs.«131597_j62620623175753_2_alg».proof.Proof.Gen.KernelIdeal.Launch
import proofs.«131597_j62620623175753_2_alg».proof.Proof.Gen.KernelIdeal.Skeleton
import proofs.«131597_j62620623175753_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The key block is the first of its query block: the running buffers are reset. -/
abbrev firstKv (i : grid1.Coords) : Prop :=
  (Scalar.cmpi .ne (Scalar.extui (Scalar.cmpi .eq (BitVec.ofNat 32 (i 2).val) 0#32)) 0#32) = 1#1
/-- The key block is the last of its query block: the output block is stored. -/
abbrev lastKv (i : grid1.Coords) : Prop := k1_cond2 i = 1#1

theorem firstKv_iff : ∀ t : Fin cfg1.N, firstKv (grid1.coords t) ↔ t.val % 4 = 0 :=
  (by decide +kernel : ∀ t : Fin grid1.N, firstKv (grid1.coords t) ↔ t.val % 4 = 0)
theorem lastKv_iff : ∀ t : Fin cfg1.N, lastKv (grid1.coords t) ↔ t.val % 4 = 3 :=
  (by decide +kernel : ∀ t : Fin grid1.N, lastKv (grid1.coords t) ↔ t.val % 4 = 3)

/-- The three inputs are never idle; the output is idle exactly when the key block is not the last, and is written back
    exactly when it is. -/
theorem live_in : ∀ t : Fin cfg1.N, cfg1.idle 0 (grid1.coords t) = false ∧ cfg1.idle 1 (grid1.coords t) = false ∧ cfg1.idle 2 (grid1.coords t) = false := by decide +kernel
theorem idle_out : ∀ t : Fin cfg1.N, ¬lastKv (grid1.coords t) → cfg1.idle 3 (grid1.coords t) = true := by decide +kernel
theorem noFlush_out : ∀ t : Fin cfg1.N, ¬lastKv (grid1.coords t) → (cfg1.win 3).flush t = false := by decide +kernel
theorem live_out : ∀ t : Fin cfg1.N, lastKv (grid1.coords t) → cfg1.idle 3 (grid1.coords t) = false := by decide +kernel

/-- The staging memrefs the body is called with at point `t` (queries, keys, values, output), and their wholeness. -/
abbrev qM (t : Fin cfg1.N) : Memref sig .tc .vmem S1x1024x512 .f32 := win1_0.stage (cfg1.slots t 0)
abbrev qW (t : Fin cfg1.N) : (qM t).IsWhole := hstage1_0 ((cfg1.slots t 0).cast nbuf1_0)
abbrev kM (t : Fin cfg1.N) : Memref sig .tc .vmem S1x1024x512 .f32 := win1_1.stage (cfg1.slots t 1)
abbrev kW (t : Fin cfg1.N) : (kM t).IsWhole := hstage1_1 ((cfg1.slots t 1).cast nbuf1_1)
abbrev vM (t : Fin cfg1.N) : Memref sig .tc .vmem S1x1024x512 .f32 := win1_2.stage (cfg1.slots t 2)
abbrev vW (t : Fin cfg1.N) : (vM t).IsWhole := hstage1_2 ((cfg1.slots t 2).cast nbuf1_2)
abbrev oM (t : Fin cfg1.N) : Memref sig .tc .vmem S1x1024x512 .f32 := win1_3.stage (cfg1.slots t 3)
abbrev oW (t : Fin cfg1.N) : (oM t).IsWhole := hstage1_3 ((cfg1.slots t 3).cast nbuf1_3)
/-- The running buffers: row maximum, row sum, accumulator. -/
abbrev maxM : Memref sig .tc .vmem S1024x1 .f32 := Memref.whole cc1_scratch0
abbrev sumM : Memref sig .tc .vmem S1024x1 .f32 := Memref.whole cc1_scratch1
abbrev accM : Memref sig .tc .vmem S1024x512 .f32 := Memref.whole cc1_scratch2
/-- One staging buffer of the output window, through which its contents are stated. -/
abbrev oV : View sig .tc .vmem S1x1024x512 .f32 := (Memref.whole cc1_stg3_0 : Memref sig .tc .vmem S1x1024x512 .f32).view

end Cert.KernelIdeal.Attn

end
-- ==== Proof.Attn.RunFirst.lean ====
/-
  The attention body at a point whose key block is the first of its query block: the three running buffers are found at
  anything, reset (row maximum to -∞, row sum and accumulator to 0) and then overwritten with the first block's
  contribution; nothing is stored into the output block.
-/
import proofs.«131597_j62620623175753_2_alg».proof.Proof.Attn.Common

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- The pieces the body leaves in the three running buffers at such a point, with the proof that it runs. -/
noncomputable def runFirst (c : Dev nD) (i : grid1.Coords)
    (arg3 : Memref sig .tc .vmem S1x1024x512 .f32) (harg3 : arg3.IsWhole) (arg4 : Memref sig .tc .vmem S1x1024x512 .f32) (harg4 : arg4.IsWhole)
    (arg5 : Memref sig .tc .vmem S1x1024x512 .f32) (harg5 : arg5.IsWhole) (arg6 : Memref sig .tc .vmem S1x1024x512 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x512 .f32) (harg9 : arg9.IsWhole) (hc0 : firstKv i) (hc1 : ¬lastKv i)
    (x0 x1 x2 : Vec F S1x1024x512 .f32) :
    Σ' (LS0 : List (View.Piece (Elt F) S1024x1 .f32)) (LS1 : List (View.Piece (Elt F) S1024x1 .f32)), { LS2 : List (View.Piece (Elt F) S1024x512 .f32) //
      ∀ (xi3 : Vec F S1x1024x512 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E
              (cc1__flash_self_attn_kernel i arg3 harg3 arg4 harg4 arg5 harg5 arg6 harg6 arg7 harg7 arg8 harg8 arg9 harg9) K } := by
  refine ⟨?_, ?_, ?_, fun xi3 E K => ?run⟩
  case run =>
    simp only [cc1__flash_self_attn_kernel_eq_skeleton]; unfold cc1__flash_self_attn_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Attn

end
-- ==== Proof.Attn.RunMid.lean ====
/-
  The attention body at a point whose key block is neither the first nor the last of its query block: nothing is reset and
  nothing is stored into the output block; the three running buffers are read at what the point before left and each is
  overwritten whole.
-/
import proofs.«131597_j62620623175753_2_alg».proof.Proof.Attn.Common

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- The pieces the body leaves in the three running buffers at such a point, with the proof that it runs: the inputs are
    handed back as found, the idle output buffer untouched. -/
noncomputable def runMid (c : Dev nD) (i : grid1.Coords)
    (arg3 : Memref sig .tc .vmem S1x1024x512 .f32) (harg3 : arg3.IsWhole) (arg4 : Memref sig .tc .vmem S1x1024x512 .f32) (harg4 : arg4.IsWhole)
    (arg5 : Memref sig .tc .vmem S1x1024x512 .f32) (harg5 : arg5.IsWhole) (arg6 : Memref sig .tc .vmem S1x1024x512 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x512 .f32) (harg9 : arg9.IsWhole) (hc0 : ¬firstKv i) (hc1 : ¬lastKv i)
    (x0 x1 x2 : Vec F S1x1024x512 .f32) (xs0 xs1 : Vec F S1024x1 .f32) (xs2 : Vec F S1024x512 .f32) :
    Σ' (LS0 : List (View.Piece (Elt F) S1024x1 .f32)) (LS1 : List (View.Piece (Elt F) S1024x1 .f32)), { LS2 : List (View.Piece (Elt F) S1024x512 .f32) //
      ∀ (xi3 : Vec F S1x1024x512 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E
              (cc1__flash_self_attn_kernel i arg3 harg3 arg4 harg4 arg5 harg5 arg6 harg6 arg7 harg7 arg8 harg8 arg9 harg9) K } := by
  refine ⟨?_, ?_, ?_, fun xi3 E K => ?run⟩
  case run =>
    simp only [cc1__flash_self_attn_kernel_eq_skeleton]; unfold cc1__flash_self_attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Attn

end
-- ==== Proof.Attn.RunLast.lean ====
/-
  The attention body at a point whose key block is the last of its query block: the three running buffers are read at what
  the point before left and overwritten, and the output block is stored whole: the accumulator divided, row by row, by the
  row sum.
-/
import proofs.«131597_j62620623175753_2_alg».proof.Proof.Attn.Common

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- The pieces the body leaves in the output block and in the three running buffers at such a point, with the proof that it
    runs. -/
noncomputable def runLast (c : Dev nD) (i : grid1.Coords)
    (arg3 : Memref sig .tc .vmem S1x1024x512 .f32) (harg3 : arg3.IsWhole) (arg4 : Memref sig .tc .vmem S1x1024x512 .f32) (harg4 : arg4.IsWhole)
    (arg5 : Memref sig .tc .vmem S1x1024x512 .f32) (harg5 : arg5.IsWhole) (arg6 : Memref sig .tc .vmem S1x1024x512 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x512 .f32) (harg9 : arg9.IsWhole) (hc0 : ¬firstKv i) (hc1 : lastKv i)
    (x0 x1 x2 : Vec F S1x1024x512 .f32) (xs0 xs1 : Vec F S1024x1 .f32) (xs2 : Vec F S1024x512 .f32) :
    Σ' (L3 : List (View.Piece (Elt F) S1x1024x512 .f32)) (LS0 : List (View.Piece (Elt F) S1024x1 .f32)) (LS1 : List (View.Piece (Elt F) S1024x1 .f32)), { LS2 : List (View.Piece (Elt F) S1024x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E
              (cc1__flash_self_attn_kernel i arg3 harg3 arg4 harg4 arg5 harg5 arg6 harg6 arg7 harg7 arg8 harg8 arg9 harg9) K } := by
  refine ⟨?_, ?_, ?_, ?_, fun E K => ?run⟩
  case run =>
    simp only [cc1__flash_self_attn_kernel_eq_skeleton]; unfold cc1__flash_self_attn_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Attn

end
-- ==== Proof.Attn.Frame.lean ====
/-
  Region 1 (the attention kernel) from the buffer contents `V` it is entered with: what its three running buffers and its
  output block hold after each grid point, the invariant that carries the running buffers from one point to the next, the
  pipeline's proof data and the body obligation at every point.

  After a point whose key block is the first of its query block the running buffers hold that block's contribution alone;
  after any other point they hold the case's function of the point's three input blocks and of what the point before
  left; the output block is stored only when the key block is the last.
-/
import proofs.«131597_j62620623175753_2_alg».proof.Proof.Attn.RunFirst
import proofs.«131597_j62620623175753_2_alg».proof.Proof.Attn.RunMid
import proofs.«131597_j62620623175753_2_alg».proof.Proof.Attn.RunLast

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's current staging buffer holds its block at every point, fetched there or not, for any proof data
    whose array is the region's and whose body leaves the block in place. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The key window's current staging buffer holds its block at every point, fetched there or not, for any proof data
    whose array is the region's and whose body leaves the block in place. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The value window's current staging buffer holds its block at every point, fetched there or not, for any proof data
    whose array is the region's and whose body leaves the block in place. -/
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The running buffers as views, through which their contents are stated. -/
abbrev maxV : View sig .tc .vmem S1024x1 .f32 := maxM.view
abbrev sumV : View sig .tc .vmem S1024x1 .f32 := sumM.view
abbrev accV : View sig .tc .vmem S1024x512 .f32 := accM.view

/-- Output block, row maximum, row sum, accumulator. -/
abbrev St (F : FTy → Type) : Type := Vec F S1x1024x512 .f32 × Vec F S1024x1 .f32 × Vec F S1024x1 .f32 × Vec F S1024x512 .f32

/-! ## What each case leaves -/

/-- After a point whose key block is the first: the running buffers at the pieces that case's run found (the output block's
    component is a placeholder nothing consults: the window is idle there and not written back). -/
def firstSt (c : Dev nD) (t : Fin cfg1.N) (h0 : firstKv (grid1.coords t)) (h1 : ¬lastKv (grid1.coords t)) (x0 x1 x2 : Vec F S1x1024x512 .f32) : St F :=
  (oV.read (Elt F) oV.junk, maxV.read (Elt F) (maxV.writes (Elt F) maxV.junk (runFirst c (grid1.coords t) (qM t) (qW t) (kM t) (kW t) (vM t) (vW t) (oM t) (oW t) maxM (Memref.isWhole_whole _) sumM (Memref.isWhole_whole _) accM (Memref.isWhole_whole _) h0 h1 x0 x1 x2).1), sumV.read (Elt F) (sumV.writes (Elt F) sumV.junk (runFirst c (grid1.coords t) (qM t) (qW t) (kM t) (kW t) (vM t) (vW t) (oM t) (oW t) maxM (Memref.isWhole_whole _) sumM (Memref.isWhole_whole _) accM (Memref.isWhole_whole _) h0 h1 x0 x1 x2).2.1), accV.read (Elt F) (accV.writes (Elt F) accV.junk (runFirst c (grid1.coords t) (qM t) (qW t) (kM t) (kW t) (vM t) (vW t) (oM t) (oW t) maxM (Memref.isWhole_whole _) sumM (Memref.isWhole_whole _) accM (Memref.isWhole_whole _) h0 h1 x0 x1 x2).2.2.1))
theorem firstCover0 (c : Dev nD) (t : Fin cfg1.N) (h0 : firstKv (grid1.coords t)) (h1 : ¬lastKv (grid1.coords t)) (x0 x1 x2 : Vec F S1x1024x512 .f32) (y : S1024x1.Idx) : ∃ pc ∈ (runFirst c (grid1.coords t) (qM t) (qW t) (kM t) (kW t) (vM t) (vW t) (oM t) (oW t) maxM (Memref.isWhole_whole _) sumM (Memref.isWhole_whole _) accM (Memref.isWhole_whole _) h0 h1 x0 x1 x2).1, y ∈ pc.1.set :=
  View.cover_of_tiledL (runFirst c (grid1.coords t) (qM t) (qW t) (kM t) (kW t) (vM t) (vW t) (oM t) (oW t) maxM (Memref.isWhole_whole _) sumM (Memref.isWhole_whole _) accM (Memref.isWhole_whole _) h0 h1 x0 x1 x2).1 S1024x1.size (by sl_kernel_rfl) y
theorem firstCover1 (c : Dev nD) (t : Fin cfg1.N) (h0 : firstKv (grid1.coords t)) (h1 : ¬lastKv (grid1.coords t)) (x0 x1 x2 : Vec F S1x1024x512 .f32) (y : S1024x1.Idx) : ∃ pc ∈ (runFirst c (grid1.coords t) (qM t) (qW t) (kM t) (kW t) (vM t) (vW t) (oM t) (oW t) maxM (Memref.isWhole_whole _) sumM (Memref.isWhole_whole _) accM (Memref.isWhole_whole _) h0 h1 x0 x1 x2).2.1, y ∈ pc.1.set :=
  View.cover_of_tiledL (runFirst c (grid1.coords t) (qM t) (qW t) (kM t) (kW t) (vM t) (vW t) (oM t) (oW t) maxM (Memref.isWhole_whole _) sumM (Memref.isWhole_whole _) accM (Memref.isWhole_whole _) h0 h1 x0 x1 x2).2.1 S1024x1.size (by sl_kernel_rfl) y
theorem firstCover2 (c : Dev nD) (t : Fin cfg1.N) (h0 : firstKv (grid1.coords t)) (h1 : ¬lastKv (grid1.coords t)) (x0 x1 x2 : Vec F S1x1024x512 .f32) (y : S1024x512.Idx) : ∃ pc ∈ (runFirst c (grid1.coords t) (qM t) (qW t) (kM t) (kW t) (vM t) (vW t) (oM t) (oW t) maxM (Memref.isWhole_whole _) sumM (Memref.isWhole_whole _) accM (Memref.isWhole_whole _) h0 h1 x0 x1 x2).2.2.1, y ∈ pc.1.set :=
  View.cover_of_tiledL (runFirst c (grid1.coords t) (qM t) (qW t) (kM t) (kW t) (vM t) (vW t) (oM t) (oW t) maxM (Memref.isWhole_whole _) sumM (Memref.isWhole_whole _) accM (Memref.isWhole_whole _) h0 h1 x0 x1 x2).2.2.1 S1024x512.size (by sl_kernel_rfl) y

/-- After a point whose key block is neither the first nor the last, over what the point before left. -/
def midSt (c : Dev nD) (t : Fin cfg1.N) (h0 : ¬firstKv (grid1.coords t)) (h1 : ¬lastKv (grid1.coords t)) (x0 x1 x2 : Vec F S1x1024x512 .f32) (xs0 xs1 : Vec F S1024x1 .f32) (xs2 : Vec F S1024x512 .f32) : St F :=
  (oV.read (Elt F) oV.junk, maxV.read (Elt F) (maxV.writes (Elt F) maxV.junk (runMid c (grid1.coords t) (qM t) (qW t) (kM t) (kW t) (vM t) (vW t) (oM t) (oW t) maxM (Memref.isWhole_whole _) sumM (Memref.isWhole_whole _) accM (Memref.isWhole_whole _) h0 h1 x0 x1 x2 xs0 xs1 xs2).1), sumV.read (Elt F) (sumV.writes (Elt F) sumV.junk (runMid c (grid1.coords t) (qM t) (qW t) (kM t) (kW t) (vM t) (vW t) (oM t) (oW t) maxM (Memref.isWhole_whole _) sumM (Memref.isWhole_whole _) accM (Memref.isWhole_whole _) h0 h1 x0 x1 x2 xs0 xs1 xs2).2.1), accV.read (Elt F) (accV.writes (Elt F) accV.junk (runMid c (grid1.coords t) (qM t) (qW t) (kM t) (kW t) (vM t) (vW t) (oM t) (oW t) maxM (Memref.isWhole_whole _) sumM (Memref.isWhole_whole _) accM (Memref.isWhole_whole _) h0 h1 x0 x1 x2 xs0 xs1 xs2).2.2.1))
theorem midCover0 (c : Dev nD) (t : Fin cfg1.N) (h0 : ¬firstKv (grid1.coords t)) (h1 : ¬lastKv (grid1.coords t)) (x0 x1 x2 : Vec F S1x1024x512 .f32) (xs0 xs1 : Vec F S1024x1 .f32) (xs2 : Vec F S1024x512 .f32) (y : S1024x1.Idx) : ∃ pc ∈ (runMid c (grid1.coords t) (qM t) (qW t) (kM t) (kW t) (vM t) (vW t) (oM t) (oW t) maxM (Memref.isWhole_whole _) sumM (Memref.isWhole_whole _) accM (Memref.isWhole_whole _) h0 h1 x0 x1 x2 xs0 xs1 xs2).1, y ∈ pc.1.set :=
  View.cover_of_tiledL (runMid c (grid1.coords t) (qM t) (qW t) (kM t) (kW t) (vM t) (vW t) (oM t) (oW t) maxM (Memref.isWhole_whole _) sumM (Memref.isWhole_whole _) accM (Memref.isWhole_whole _) h0 h1 x0 x1 x2 xs0 xs1 xs2).1 S1024x1.size (by sl_kernel_rfl) y
theorem midCover1 (c : Dev nD) (t : Fin cfg1.N) (h0 : ¬firstKv (grid1.coords t)) (h1 : ¬lastKv (grid1.coords t)) (x0 x1 x2 : Vec F S1x1024x512 .f32) (xs0 xs1 : Vec F S1024x1 .f32) (xs2 : Vec F S1024x512 .f32) (y : S1024x1.Idx) : ∃ pc ∈ (runMid c (grid1.coords t) (qM t) (qW t) (kM t) (kW t) (vM t) (vW t) (oM t) (oW t) maxM (Memref.isWhole_whole _) sumM (Memref.isWhole_whole _) accM (Memref.isWhole_whole _) h0 h1 x0 x1 x2 xs0 xs1 xs2).2.1, y ∈ pc.1.set :=
  View.cover_of_tiledL (runMid c (grid1.coords t) (qM t) (qW t) (kM t) (kW t) (vM t) (vW t) (oM t) (oW t) maxM (Memref.isWhole_whole _) sumM (Memref.isWhole_whole _) accM (Memref.isWhole_whole _) h0 h1 x0 x1 x2 xs0 xs1 xs2).2.1 S1024x1.size (by sl_kernel_rfl) y
theorem midCover2 (c : Dev nD) (t : Fin cfg1.N) (h0 : ¬firstKv (grid1.coords t)) (h1 : ¬lastKv (grid1.coords t)) (x0 x1 x2 : Vec F S1x1024x512 .f32) (xs0 xs1 : Vec F S1024x1 .f32) (xs2 : Vec F S1024x512 .f32) (y : S1024x512.Idx) : ∃ pc ∈ (runMid c (grid1.coords t) (qM t) (qW t) (kM t) (kW t) (vM t) (vW t) (oM t) (oW t) maxM (Memref.isWhole_whole _) sumM (Memref.isWhole_whole _) accM (Memref.isWhole_whole _) h0 h1 x0 x1 x2 xs0 xs1 xs2).2.2.1, y ∈ pc.1.set :=
  View.cover_of_tiledL (runMid c (grid1.coords t) (qM t) (qW t) (kM t) (kW t) (vM t) (vW t) (oM t) (oW t) maxM (Memref.isWhole_whole _) sumM (Memref.isWhole_whole _) accM (Memref.isWhole_whole _) h0 h1 x0 x1 x2 xs0 xs1 xs2).2.2.1 S1024x512.size (by sl_kernel_rfl) y

/-- After a point whose key block is the last, over what the point before left: the output block too. -/
def lastSt (c : Dev nD) (t : Fin cfg1.N) (h0 : ¬firstKv (grid1.coords t)) (h1 : lastKv (grid1.coords t)) (x0 x1 x2 : Vec F S1x1024x512 .f32) (xs0 xs1 : Vec F S1024x1 .f32) (xs2 : Vec F S1024x512 .f32) : St F :=
  (oV.read (Elt F) (oV.writes (Elt F) oV.junk (runLast c (grid1.coords t) (qM t) (qW t) (kM t) (kW t) (vM t) (vW t) (oM t) (oW t) maxM (Memref.isWhole_whole _) sumM (Memref.isWhole_whole _) accM (Memref.isWhole_whole _) h0 h1 x0 x1 x2 xs0 xs1 xs2).1), maxV.read (Elt F) (maxV.writes (Elt F) maxV.junk (runLast c (grid1.coords t) (qM t) (qW t) (kM t) (kW t) (vM t) (vW t) (oM t) (oW t) maxM (Memref.isWhole_whole _) sumM (Memref.isWhole_whole _) accM (Memref.isWhole_whole _) h0 h1 x0 x1 x2 xs0 xs1 xs2).2.1), sumV.read (Elt F) (sumV.writes (Elt F) sumV.junk (runLast c (grid1.coords t) (qM t) (qW t) (kM t) (kW t) (vM t) (vW t) (oM t) (oW t) maxM (Memref.isWhole_whole _) sumM (Memref.isWhole_whole _) accM (Memref.isWhole_whole _) h0 h1 x0 x1 x2 xs0 xs1 xs2).2.2.1), accV.read (Elt F) (accV.writes (Elt F) accV.junk (runLast c (grid1.coords t) (qM t) (qW t) (kM t) (kW t) (vM t) (vW t) (oM t) (oW t) maxM (Memref.isWhole_whole _) sumM (Memref.isWhole_whole _) accM (Memref.isWhole_whole _) h0 h1 x0 x1 x2 xs0 xs1 xs2).2.2.2.1))
theorem lastCoverO (c : Dev nD) (t : Fin cfg1.N) (h0 : ¬firstKv (grid1.coords t)) (h1 : lastKv (grid1.coords t)) (x0 x1 x2 : Vec F S1x1024x512 .f32) (xs0 xs1 : Vec F S1024x1 .f32) (xs2 : Vec F S1024x512 .f32) (y : S1x1024x512.Idx) : ∃ pc ∈ (runLast c (grid1.coords t) (qM t) (qW t) (kM t) (kW t) (vM t) (vW t) (oM t) (oW t) maxM (Memref.isWhole_whole _) sumM (Memref.isWhole_whole _) accM (Memref.isWhole_whole _) h0 h1 x0 x1 x2 xs0 xs1 xs2).1, y ∈ pc.1.set :=
  View.cover_of_tiledL (runLast c (grid1.coords t) (qM t) (qW t) (kM t) (kW t) (vM t) (vW t) (oM t) (oW t) maxM (Memref.isWhole_whole _) sumM (Memref.isWhole_whole _) accM (Memref.isWhole_whole _) h0 h1 x0 x1 x2 xs0 xs1 xs2).1 S1x1024x512.size (by sl_kernel_rfl) y
theorem lastCover0 (c : Dev nD) (t : Fin cfg1.N) (h0 : ¬firstKv (grid1.coords t)) (h1 : lastKv (grid1.coords t)) (x0 x1 x2 : Vec F S1x1024x512 .f32) (xs0 xs1 : Vec F S1024x1 .f32) (xs2 : Vec F S1024x512 .f32) (y : S1024x1.Idx) : ∃ pc ∈ (runLast c (grid1.coords t) (qM t) (qW t) (kM t) (kW t) (vM t) (vW t) (oM t) (oW t) maxM (Memref.isWhole_whole _) sumM (Memref.isWhole_whole _) accM (Memref.isWhole_whole _) h0 h1 x0 x1 x2 xs0 xs1 xs2).2.1, y ∈ pc.1.set :=
  View.cover_of_tiledL (runLast c (grid1.coords t) (qM t) (qW t) (kM t) (kW t) (vM t) (vW t) (oM t) (oW t) maxM (Memref.isWhole_whole _) sumM (Memref.isWhole_whole _) accM (Memref.isWhole_whole _) h0 h1 x0 x1 x2 xs0 xs1 xs2).2.1 S1024x1.size (by sl_kernel_rfl) y
theorem lastCover1 (c : Dev nD) (t : Fin cfg1.N) (h0 : ¬firstKv (grid1.coords t)) (h1 : lastKv (grid1.coords t)) (x0 x1 x2 : Vec F S1x1024x512 .f32) (xs0 xs1 : Vec F S1024x1 .f32) (xs2 : Vec F S1024x512 .f32) (y : S1024x1.Idx) : ∃ pc ∈ (runLast c (grid1.coords t) (qM t) (qW t) (kM t) (kW t) (vM t) (vW t) (oM t) (oW t) maxM (Memref.isWhole_whole _) sumM (Memref.isWhole_whole _) accM (Memref.isWhole_whole _) h0 h1 x0 x1 x2 xs0 xs1 xs2).2.2.1, y ∈ pc.1.set :=
  View.cover_of_tiledL (runLast c (grid1.coords t) (qM t) (qW t) (kM t) (kW t) (vM t) (vW t) (oM t) (oW t) maxM (Memref.isWhole_whole _) sumM (Memref.isWhole_whole _) accM (Memref.isWhole_whole _) h0 h1 x0 x1 x2 xs0 xs1 xs2).2.2.1 S1024x1.size (by sl_kernel_rfl) y
theorem lastCover2 (c : Dev nD) (t : Fin cfg1.N) (h0 : ¬firstKv (grid1.coords t)) (h1 : lastKv (grid1.coords t)) (x0 x1 x2 : Vec F S1x1024x512 .f32) (xs0 xs1 : Vec F S1024x1 .f32) (xs2 : Vec F S1024x512 .f32) (y : S1024x512.Idx) : ∃ pc ∈ (runLast c (grid1.coords t) (qM t) (qW t) (kM t) (kW t) (vM t) (vW t) (oM t) (oW t) maxM (Memref.isWhole_whole _) sumM (Memref.isWhole_whole _) accM (Memref.isWhole_whole _) h0 h1 x0 x1 x2 xs0 xs1 xs2).2.2.2.1, y ∈ pc.1.set :=
  View.cover_of_tiledL (runLast c (grid1.coords t) (qM t) (qW t) (kM t) (kW t) (vM t) (vW t) (oM t) (oW t) maxM (Memref.isWhole_whole _) sumM (Memref.isWhole_whole _) accM (Memref.isWhole_whole _) h0 h1 x0 x1 x2 xs0 xs1 xs2).2.2.2.1 S1024x512.size (by sl_kernel_rfl) y

/-! ## Point by point -/

/-- What the output block and the running buffers hold after the body at position `n`: the case the position's key block
    selects, at the point's input blocks, over what position `n - 1` left. -/
def stateAt (c : Dev nD) : (n : ℕ) → n < cfg1.N → St F
  | 0, hn => firstSt c ⟨0, hn⟩ ((firstKv_iff ⟨0, hn⟩).mpr (Nat.zero_mod _)) (fun h => (fun h => by (try dsimp only at h); omega) ((lastKv_iff ⟨0, hn⟩).mp h)) (iblk V c 0 ⟨0, hn⟩) (iblk V c 1 ⟨0, hn⟩) (iblk V c 2 ⟨0, hn⟩)
  | n + 1, hn =>
    if h0 : (n + 1) % 4 = 0 then
      if h1 : (n + 1) % 4 = 3 then False.elim (by omega)
      else firstSt c ⟨n + 1, hn⟩ ((firstKv_iff ⟨n + 1, hn⟩).mpr h0) (fun h => h1 ((lastKv_iff ⟨n + 1, hn⟩).mp h)) (iblk V c 0 ⟨n + 1, hn⟩) (iblk V c 1 ⟨n + 1, hn⟩) (iblk V c 2 ⟨n + 1, hn⟩)
    else
      if h1 : (n + 1) % 4 = 3 then
        lastSt c ⟨n + 1, hn⟩ (fun h => h0 ((firstKv_iff ⟨n + 1, hn⟩).mp h)) ((lastKv_iff ⟨n + 1, hn⟩).mpr h1) (iblk V c 0 ⟨n + 1, hn⟩) (iblk V c 1 ⟨n + 1, hn⟩) (iblk V c 2 ⟨n + 1, hn⟩) (stateAt c n (Nat.lt_of_succ_lt hn)).2.1 (stateAt c n (Nat.lt_of_succ_lt hn)).2.2.1 (stateAt c n (Nat.lt_of_succ_lt hn)).2.2.2
      else
        midSt c ⟨n + 1, hn⟩ (fun h => h0 ((firstKv_iff ⟨n + 1, hn⟩).mp h)) (fun h => h1 ((lastKv_iff ⟨n + 1, hn⟩).mp h)) (iblk V c 0 ⟨n + 1, hn⟩) (iblk V c 1 ⟨n + 1, hn⟩) (iblk V c 2 ⟨n + 1, hn⟩) (stateAt c n (Nat.lt_of_succ_lt hn)).2.1 (stateAt c n (Nat.lt_of_succ_lt hn)).2.2.1 (stateAt c n (Nat.lt_of_succ_lt hn)).2.2.2

theorem stateAt_first (c : Dev nD) (t : Fin cfg1.N) (h0 : t.val % 4 = 0) (h1 : ¬t.val % 4 = 3) :
    stateAt V c t.val t.isLt = firstSt c t ((firstKv_iff t).mpr h0) (fun h => h1 ((lastKv_iff t).mp h)) (iblk V c 0 t) (iblk V c 1 t) (iblk V c 2 t) := by
  obtain ⟨n, hn⟩ := t
  cases n with
  | zero => exact rfl
  | succ n => exact (dif_pos h0).trans ((dif_neg h1).trans rfl)

theorem stateAt_mid (c : Dev nD) (t : Fin cfg1.N) (h0 : ¬t.val % 4 = 0) (h1 : ¬t.val % 4 = 3) :
    stateAt V c t.val t.isLt = midSt c t (fun h => h0 ((firstKv_iff t).mp h)) (fun h => h1 ((lastKv_iff t).mp h)) (iblk V c 0 t) (iblk V c 1 t) (iblk V c 2 t)
      (stateAt V c (t.val - 1) (Nat.lt_of_le_of_lt (Nat.sub_le _ _) t.isLt)).2.1 (stateAt V c (t.val - 1) (Nat.lt_of_le_of_lt (Nat.sub_le _ _) t.isLt)).2.2.1 (stateAt V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

theorem stateAt_last (c : Dev nD) (t : Fin cfg1.N) (h0 : ¬t.val % 4 = 0) (h1 : t.val % 4 = 3) :
    stateAt V c t.val t.isLt = lastSt c t (fun h => h0 ((firstKv_iff t).mp h)) ((lastKv_iff t).mpr h1) (iblk V c 0 t) (iblk V c 1 t) (iblk V c 2 t)
      (stateAt V c (t.val - 1) (Nat.lt_of_le_of_lt (Nat.sub_le _ _) t.isLt)).2.1 (stateAt V c (t.val - 1) (Nat.lt_of_le_of_lt (Nat.sub_le _ _) t.isLt)).2.2.1 (stateAt V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before the first point: the scoped buffers no window of this region stages at anything and the generator register at
    some state.  After position `n`: the same with the three running buffers at what that position left. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) maxM fullShare (stateAt V c n hn).2.1 ∗ owns (c : Thread nD τ) sumM fullShare (stateAt V c n hn).2.2.1 ∗ owns (c : Thread nD τ) accM fullShare (stateAt V c n hn).2.2.2) ∗ (∃ r, prngReg c r))

theorem PhiA_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) maxM fullShare d) ∗ (∃ d, owns (c : Thread nD τ) sumM fullShare d) ∗ (∃ d, owns (c : Thread nD τ) accM fullShare d)) ∗ (∃ r, prngReg c r)) := by
  unfold Pipeline.ΦA; rw [scopedRest1_eq]; simp only [maxM, sumM, accM, owns_whole]; try rfl

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) maxM fullShare (stateAt V c n hn).2.1 ∗ owns (c : Thread nD τ) sumM fullShare (stateAt V c n hn).2.2.1 ∗ owns (c : Thread nD τ) accM fullShare (stateAt V c n hn).2.2.2) ∗ (∃ r, prngReg c r)) := rfl
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) maxM fullShare (stateAt V c (n - 1) (by omega)).2.1 ∗ owns (c : Thread nD τ) sumM fullShare (stateAt V c (n - 1) (by omega)).2.2.1 ∗ owns (c : Thread nD τ) accM fullShare (stateAt V c (n - 1) (by omega)).2.2.2) ∗ (∃ r, prngReg c r)) := by
  cases n with
  | zero => exact absurd rfl hz
  | succ n => rfl

/-! ## The proof data -/

/-- The arrays as the region finds them; after the body each input's buffer at its block and the output's at the state's
    first component; the invariant above; the query and key windows, which read ONE array, hold it at the two halves of
    the full share, the value window at the full share; nothing owed. -/
def dat1 (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (stateAt V c t.val t.isLt).1
  Φ t := PhiS V c t.val (Nat.le_of_lt_succ t.isLt)
  q w := match w with
    | ⟨0, _⟩ => fullShare.left
    | ⟨1, _⟩ => fullShare.right
    | _ => fullShare
  owed _ := 0

theorem A_eq (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after_0 (c : Dev nD) (t : Fin cfg1.N) : (dat1 V c).after 0 t = iblk V c 0 t := by dsimp only [dat1]
theorem after_1 (c : Dev nD) (t : Fin cfg1.N) : (dat1 V c).after 1 t = iblk V c 1 t := by dsimp only [dat1]
theorem after_2 (c : Dev nD) (t : Fin cfg1.N) : (dat1 V c).after 2 t = iblk V c 2 t := by dsimp only [dat1]
theorem after_3 (c : Dev nD) (t : Fin cfg1.N) : (dat1 V c).after 3 t = (stateAt V c t.val t.isLt).1 := by dsimp only [dat1]

theorem before_0 (c : Dev nD) (t : Fin cfg1.N) (d) : (dat1 V c).before 0 t d = iblk V c 0 t :=
  before_0_of V (dat1 V c) (A_eq V c 0) (after_0 V c) t d
theorem before_1 (c : Dev nD) (t : Fin cfg1.N) (d) : (dat1 V c).before 1 t d = iblk V c 1 t :=
  before_1_of V (dat1 V c) (A_eq V c 1) (after_1 V c) t d
theorem before_2 (c : Dev nD) (t : Fin cfg1.N) (d) : (dat1 V c).before 2 t d = iblk V c 2 t :=
  before_2_of V (dat1 V c) (A_eq V c 2) (after_2 V c) t d

end Cert.KernelIdeal.Attn

end
-- ==== Proof.Attn.Body.lean ====
/-
  The body obligation of region 1: at every grid point the attention body, called on the point's staging buffers holding
  the three input blocks and on the running buffers as the invariant holds them, runs and hands back the inputs unchanged,
  the running buffers at the point's state and — when the key block is the last — the output block.
-/
import proofs.«131597_j62620623175753_2_alg».proof.Proof.Attn.Frame

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre (c : Dev nD) (t : Fin cfg1.N) : sProp 𝕄 :=
  iprop((dat1 V c).Φ t.castSucc ∗ (dat1 V c).owesAt () t.castSucc
    ∗ (∃ d, owns (c : Thread nD τ) (qM t) fullShare ((dat1 V c).before 0 t d))
    ∗ (∃ d, owns (c : Thread nD τ) (kM t) fullShare ((dat1 V c).before 1 t d))
    ∗ (∃ d, owns (c : Thread nD τ) (vM t) fullShare ((dat1 V c).before 2 t d))
    ∗ (∃ d, owns (c : Thread nD τ) (oM t) fullShare ((dat1 V c).before 3 t d)))

/-- and what it returns. -/
def bodyPost (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 8000000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  rw [show (dat1 V c).leavesExact 0 t = owns (c : Thread nD τ) (qM t) fullShare ((dat1 V c).after 0 t) from by
    unfold Dat.leavesExact; rw [(live_in t).1], after_0]
  rw [show (dat1 V c).leavesExact 1 t = owns (c : Thread nD τ) (kM t) fullShare ((dat1 V c).after 1 t) from by
    unfold Dat.leavesExact; rw [(live_in t).2.1], after_1]
  rw [show (dat1 V c).leavesExact 2 t = owns (c : Thread nD τ) (vM t) fullShare ((dat1 V c).after 2 t) from by
    unfold Dat.leavesExact; rw [(live_in t).2.2], after_2]
  by_cases h0 : t.val % 4 = 0
  · have h1 : ¬t.val % 4 = 3 := by omega
    rw [Dat.leavesExact_idle (dat1 V c) 3 t (idle_out t (fun h => h1 ((lastKv_iff t).mp h))) (noFlush_out t (fun h => h1 ((lastKv_iff t).mp h)))]
    rw [stateAt_first V c t h0 h1]
    unfold firstSt; (try dsimp only)
    by_cases hz : t.val = 0
    · rw [PhiS_castSucc V c t, PhiS_zero V c _ _ hz, PhiA_eq]
      iintro ⟨⟨⟨HA1, HA2, HA3, HA4, HA5, HA6, HS0, HS1, HS2⟩, Hg⟩, Ho, ⟨%d0, H0⟩, ⟨%d1, H1⟩, ⟨%d2, H2⟩, ⟨%d3, H3⟩⟩
      iapply ((runFirst c (grid1.coords t) (qM t) (qW t) (kM t) (kW t) (vM t) (vW t) (oM t) (oW t) maxM (Memref.isWhole_whole _) sumM (Memref.isWhole_whole _) accM (Memref.isWhole_whole _) ((firstKv_iff t).mpr h0) (fun h => h1 ((lastKv_iff t).mp h)) (iblk V c 0 t) (iblk V c 1 t) (iblk V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HA1 HA2 HA3 HA4 HA5 HA6 HS0 HS1 HS2 Hg]
      · isplitl [HA1 HA2 HA3 HA4 HA5 HA6 HS0 HS1 HS2]
        · isplitl [HA1]; · iexact HA1
          isplitl [HA2]; · iexact HA2
          isplitl [HA3]; · iexact HA3
          isplitl [HA4]; · iexact HA4
          isplitl [HA5]; · iexact HA5
          isplitl [HA6]; · iexact HA6
          isplitl [HS0]
          · unfold owns; iexists _; isplitr
            swap; · iexact HS0
            ipureintro; exact View.read_writes_of_cover _ _ _ _ _ (firstCover0 c t _ _ _ _ _)
          isplitl [HS1]
          · unfold owns; iexists _; isplitr
            swap; · iexact HS1
            ipureintro; exact View.read_writes_of_cover _ _ _ _ _ (firstCover1 c t _ _ _ _ _)
          unfold owns; iexists _; isplitr
          swap; · iexact HS2
          ipureintro; exact View.read_writes_of_cover _ _ _ _ _ (firstCover2 c t _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HA1, HA2, HA3, HA4, HA5, HA6, HS0, HS1, HS2⟩, Hg⟩, Ho, ⟨%d0, H0⟩, ⟨%d1, H1⟩, ⟨%d2, H2⟩, ⟨%d3, H3⟩⟩
      iapply ((runFirst c (grid1.coords t) (qM t) (qW t) (kM t) (kW t) (vM t) (vW t) (oM t) (oW t) maxM (Memref.isWhole_whole _) sumM (Memref.isWhole_whole _) accM (Memref.isWhole_whole _) ((firstKv_iff t).mpr h0) (fun h => h1 ((lastKv_iff t).mp h)) (iblk V c 0 t) (iblk V c 1 t) (iblk V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HA1 HA2 HA3 HA4 HA5 HA6 HS0 HS1 HS2 Hg]
      · isplitl [HA1 HA2 HA3 HA4 HA5 HA6 HS0 HS1 HS2]
        · isplitl [HA1]; · iexact HA1
          isplitl [HA2]; · iexact HA2
          isplitl [HA3]; · iexact HA3
          isplitl [HA4]; · iexact HA4
          isplitl [HA5]; · iexact HA5
          isplitl [HA6]; · iexact HA6
          isplitl [HS0]
          · unfold owns; iexists _; isplitr
            swap; · iexact HS0
            ipureintro; exact View.read_writes_of_cover _ _ _ _ _ (firstCover0 c t _ _ _ _ _)
          isplitl [HS1]
          · unfold owns; iexists _; isplitr
            swap; · iexact HS1
            ipureintro; exact View.read_writes_of_cover _ _ _ _ _ (firstCover1 c t _ _ _ _ _)
          unfold owns; iexists _; isplitr
          swap; · iexact HS2
          ipureintro; exact View.read_writes_of_cover _ _ _ _ _ (firstCover2 c t _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 = 3
    · rw [show (dat1 V c).leavesExact 3 t = owns (c : Thread nD τ) (oM t) fullShare ((dat1 V c).after 3 t) from by
        unfold Dat.leavesExact; rw [live_out t ((lastKv_iff t).mpr h1)], after_3]
      rw [stateAt_last V c t h0 h1]
      unfold lastSt; (try dsimp only)
      rw [PhiS_castSucc V c t, PhiS_pos V c _ _ hz]
      iintro ⟨⟨⟨HA1, HA2, HA3, HA4, HA5, HA6, HS0, HS1, HS2⟩, Hg⟩, Ho, ⟨%d0, H0⟩, ⟨%d1, H1⟩, ⟨%d2, H2⟩, ⟨%d3, H3⟩⟩
      iapply ((runLast c (grid1.coords t) (qM t) (qW t) (kM t) (kW t) (vM t) (vW t) (oM t) (oW t) maxM (Memref.isWhole_whole _) sumM (Memref.isWhole_whole _) accM (Memref.isWhole_whole _) (fun h => h0 ((firstKv_iff t).mp h)) ((lastKv_iff t).mpr h1) (iblk V c 0 t) (iblk V c 1 t) (iblk V c 2 t) (stateAt V c (t.val - 1) (Nat.lt_of_le_of_lt (Nat.sub_le _ _) t.isLt)).2.1 (stateAt V c (t.val - 1) (Nat.lt_of_le_of_lt (Nat.sub_le _ _) t.isLt)).2.2.1 (stateAt V c (t.val - 1) (Nat.lt_of_le_of_lt (Nat.sub_le _ _) t.isLt)).2.2.2).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [HA1 HA2 HA3 HA4 HA5 HA6 HS0 HS1 HS2 Hg]
      · isplitl [HA1 HA2 HA3 HA4 HA5 HA6 HS0 HS1 HS2]
        · isplitl [HA1]; · iexact HA1
          isplitl [HA2]; · iexact HA2
          isplitl [HA3]; · iexact HA3
          isplitl [HA4]; · iexact HA4
          isplitl [HA5]; · iexact HA5
          isplitl [HA6]; · iexact HA6
          isplitl [HS0]
          · unfold owns; iexists _; isplitr
            swap; · iexact HS0
            ipureintro; exact View.read_writes_of_cover _ _ _ _ _ (lastCover0 c t _ _ _ _ _ _ _ _)
          isplitl [HS1]
          · unfold owns; iexists _; isplitr
            swap; · iexact HS1
            ipureintro; exact View.read_writes_of_cover _ _ _ _ _ (lastCover1 c t _ _ _ _ _ _ _ _)
          unfold owns; iexists _; isplitr
          swap; · iexact HS2
          ipureintro; exact View.read_writes_of_cover _ _ _ _ _ (lastCover2 c t _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (lastCoverO c t _ _ _ _ _ _ _ _)
    · rw [Dat.leavesExact_idle (dat1 V c) 3 t (idle_out t (fun h => h1 ((lastKv_iff t).mp h))) (noFlush_out t (fun h => h1 ((lastKv_iff t).mp h)))]
      rw [stateAt_mid V c t h0 h1]
      unfold midSt; (try dsimp only)
      rw [PhiS_castSucc V c t, PhiS_pos V c _ _ hz]
      iintro ⟨⟨⟨HA1, HA2, HA3, HA4, HA5, HA6, HS0, HS1, HS2⟩, Hg⟩, Ho, ⟨%d0, H0⟩, ⟨%d1, H1⟩, ⟨%d2, H2⟩, ⟨%d3, H3⟩⟩
      iapply ((runMid c (grid1.coords t) (qM t) (qW t) (kM t) (kW t) (vM t) (vW t) (oM t) (oW t) maxM (Memref.isWhole_whole _) sumM (Memref.isWhole_whole _) accM (Memref.isWhole_whole _) (fun h => h0 ((firstKv_iff t).mp h)) (fun h => h1 ((lastKv_iff t).mp h)) (iblk V c 0 t) (iblk V c 1 t) (iblk V c 2 t) (stateAt V c (t.val - 1) (Nat.lt_of_le_of_lt (Nat.sub_le _ _) t.isLt)).2.1 (stateAt V c (t.val - 1) (Nat.lt_of_le_of_lt (Nat.sub_le _ _) t.isLt)).2.2.1 (stateAt V c (t.val - 1) (Nat.lt_of_le_of_lt (Nat.sub_le _ _) t.isLt)).2.2.2).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HA1 HA2 HA3 HA4 HA5 HA6 HS0 HS1 HS2 Hg]
      · isplitl [HA1 HA2 HA3 HA4 HA5 HA6 HS0 HS1 HS2]
        · isplitl [HA1]; · iexact HA1
          isplitl [HA2]; · iexact HA2
          isplitl [HA3]; · iexact HA3
          isplitl [HA4]; · iexact HA4
          isplitl [HA5]; · iexact HA5
          isplitl [HA6]; · iexact HA6
          isplitl [HS0]
          · unfold owns; iexists _; isplitr
            swap; · iexact HS0
            ipureintro; exact View.read_writes_of_cover _ _ _ _ _ (midCover0 c t _ _ _ _ _ _ _ _)
          isplitl [HS1]
          · unfold owns; iexists _; isplitr
            swap; · iexact HS1
            ipureintro; exact View.read_writes_of_cover _ _ _ _ _ (midCover1 c t _ _ _ _ _ _ _ _)
          unfold owns; iexists _; isplitr
          swap; · iexact HS2
          ipureintro; exact View.read_writes_of_cover _ _ _ _ _ (midCover2 c t _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat1 (F := F) V c) (defs₀ (F := F)) Variants.none () Set.univ := fun t => by
  rw [bigSep_W1, bigSep_W1]
  exact sound_body V c t

/-- What the region is entered with is the invariant before the first point. -/
theorem phi_in (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the scoped buffers back: what the running buffers hold is forgotten. -/
theorem phi_out (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA_eq]
  iintro ⟨⟨HA1, HA2, HA3, HA4, HA5, HA6, HS0, HS1, HS2⟩, Hg⟩
  isplitl [HA1 HA2 HA3 HA4 HA5 HA6 HS0 HS1 HS2]
  · isplitl [HA1]; · iexact HA1
    isplitl [HA2]; · iexact HA2
    isplitl [HA3]; · iexact HA3
    isplitl [HA4]; · iexact HA4
    isplitl [HA5]; · iexact HA5
    isplitl [HA6]; · iexact HA6
    isplitl [HS0]; · iexists _; iexact HS0
    isplitl [HS1]; · iexists _; iexact HS1
    iexists _; iexact HS2
  iexact Hg

end Cert.KernelIdeal.Attn

end
-- ==== Proof.Proj.Body.lean ====
/-
  The query projection: one grid of 16 points, point t working on rows 1024·t … 1024·t + 1023 of the flattened
  activations.  Its body loads a 1024×512 block of the activations, the whole transposed weight and the bias,
  multiplies the block by the weight, adds the bias along the rows, and stores the 1024×512 block of the projected
  queries.  This module states the body's half of the pipeline's proof at a parameter V, the contents of the
  TensorCore's buffers when the pipeline is entered: the blocks the body finds, the buffer it leaves, its triple,
  the pipeline's proof data and the body obligation.  Everything is generic in the number format.
-/
import proofs.«131597_j62620623175753_2_alg».proof.Proof.Gen.KernelIdeal.Launch
import proofs.«131597_j62620623175753_2_alg».proof.Proof.Gen.KernelIdeal.Skeleton
import proofs.«131597_j62620623175753_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

-- the contents of the TensorCore's buffers when the projection's pipeline is entered
variable (V : (c : Dev nD) → (b : Ref sig .tc) → Buf (Elt F) ((c : Thread nD τ).loc b))

/-! ## The windows' blocks -/

/-- Window w's block at point t, read off its array as the pipeline finds it: for window 0 the rows
    1024·t … 1024·t + 1023 of the activations, for windows 1 and 2 the whole weight and the whole bias. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds the point's block of rows whenever the body runs, for any proof data
    whose array is V's and whose body leaves the block in place. -/
theorem before_theta_of {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The weight's staging buffer holds the whole weight whenever the body runs: it is fetched before the first point,
    its block index never moves, and the body leaves it in place. -/
theorem before_weight_of {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- The bias's staging buffer holds the whole bias whenever the body runs, for the same reason. -/
theorem before_bias_of {c : Dev nD} (dat : Dat τ (Elt F) Unit ℕ (UR sig nD τ) ℕ cfg0 c) (hA : dat.A 2 = V c (Pipeline.arrRef spec0 2))
    (hafter : ∀ t, dat.after 2 t = blockAt V c 2 t) (t : Fin cfg0.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## The body's accesses: each buffer whole -/

abbrev rBlock : Rect S1024x512 := Rect.unit (s := S1024x512) ![0, 0] S1024x512.size inb_S1024x512_S1024x512_0_0
abbrev rWeight : Rect S512x512 := Rect.unit (s := S512x512) ![0, 0] S512x512.size inb_S512x512_S512x512_0_0
abbrev rBias : Rect S512 := Rect.unit (s := S512) ![0] S512.size inb_S512_S512_0

/-! ## What the body leaves in the output window's buffer -/

/-- The projected block: the output buffer after the body, from the activations' block, the weight and the bias — the
    body's one store, of the block times the weight plus the bias, over the whole buffer. -/
def projBlock (x : Vec F S1024x512 .f32) (w : Vec F S512x512 .f32) (b : Vec F S512 .f32) : Vec F S1024x512 .f32 :=
  View.canon [⟨rBlock, k0_pay1 (View.ld x rBlock) (View.ld w rWeight) (View.ld b rBias)⟩]

/-- The one store covers the buffer. -/
theorem projBlock_cover (p : Vec F S1024x512 .f32) (y : S1024x512.Idx) :
    ∃ pc ∈ ([⟨rBlock, p⟩] : List (View.Piece (Elt F) S1024x512 .f32)), y ∈ pc.1.set :=
  View.cover_of_tiled [⟨rBlock, p⟩] S1024x512.size (by rfl) y

/-! ## The body's triple -/

set_option maxHeartbeats 1000000 in
/-- The body on whole staging memrefs — the three inputs' at contents x, w, b and the output's at anything — runs to
    the continuation holding the inputs' as they were and the output's at the projected block. -/
theorem sound_kernel0 (c : Dev nD) (E : Set ℕ) (i : grid0.Coords)
    (arg1 : Memref sig .tc .vmem S1024x512 .f32) (harg1 : arg1.IsWhole) (arg2 : Memref sig .tc .vmem S512x512 .f32) (harg2 : arg2.IsWhole)
    (arg3 : Memref sig .tc .vmem S512 .f32) (harg3 : arg3.IsWhole) (arg4 : Memref sig .tc .vmem S1024x512 .f32) (harg4 : arg4.IsWhole)
    (x : Vec F S1024x512 .f32) (w : Vec F S512x512 .f32) (b : Vec F S512 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (projBlock x w b)) -∗ K ⟨⟩))
      ⊢ wp frame (wpE (defs₀ (F := F)) Variants.none c none) E (cc0__query_proj_kernel i arg1 harg1 arg2 harg2 arg3 harg3 arg4 harg4) K := by
  simp only [cc0__query_proj_kernel_eq_skeleton]; unfold cc0__query_proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (projBlock_cover _)

/-! ## The pipeline's proof data -/

/-- The proof data of the projection's pipeline on core c: the arrays as the pipeline finds them; after the body at
    point t each input's buffer at its block and the output's at the projected block of the three input blocks; the
    invariant that of a body touching only its windows' buffers; nothing owed; full shares. -/
def dat0 (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => projBlock (blockAt V c 0 t) (blockAt V c 1 t) (blockAt V c 2 t)
  Φ _ := Pipeline.ΦA spec0 c
  q _ := fullShare
  owed _ := 0

/-- The proof data's arrays are the contents at entry. -/
theorem A_eq0 (c : Dev nD) (w : Fin cfg0.W) : (dat0 V c).A w = V c (Pipeline.arrRef spec0 w) := by
  dsimp only [dat0]

/-- What the body leaves, window by window. -/
theorem after_theta (c : Dev nD) (t : Fin cfg0.N) : (dat0 V c).after 0 t = blockAt V c 0 t := by dsimp only [dat0]
theorem after_weight (c : Dev nD) (t : Fin cfg0.N) : (dat0 V c).after 1 t = blockAt V c 1 t := by dsimp only [dat0]
theorem after_bias (c : Dev nD) (t : Fin cfg0.N) : (dat0 V c).after 2 t = blockAt V c 2 t := by dsimp only [dat0]
theorem after_proj (c : Dev nD) (t : Fin cfg0.N) :
    (dat0 V c).after 3 t = projBlock (blockAt V c 0 t) (blockAt V c 1 t) (blockAt V c 2 t) := by dsimp only [dat0]

/-- Each input's staging buffer holds its block at every point, fetched there or not. -/
theorem before_theta (c : Dev nD) (t : Fin cfg0.N) (d) : (dat0 V c).before 0 t d = blockAt V c 0 t :=
  before_theta_of V (dat0 V c) (A_eq0 V c 0) (after_theta V c) t d
theorem before_weight (c : Dev nD) (t : Fin cfg0.N) (d) : (dat0 V c).before 1 t d = blockAt V c 1 t :=
  before_weight_of V (dat0 V c) (A_eq0 V c 1) (after_weight V c) t d
theorem before_bias (c : Dev nD) (t : Fin cfg0.N) (d) : (dat0 V c).before 2 t d = blockAt V c 2 t :=
  before_bias_of V (dat0 V c) (A_eq0 V c 2) (after_bias V c) t d

/-! ## The body obligation, at a generic point -/

/-- What the body is called with at point t: the invariant, the core's debts, and the four windows' current staging
    buffers, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before_theta, before_weight, before_bias]
  rw [show (dat0 V c).Φ t.succ = (dat0 V c).Φ t.castSucc from rfl,
    show (dat0 V c).owesAt () t.succ = (dat0 V c).owesAt () t.castSucc from rfl,
    after_theta, after_weight, after_bias, after_proj]
  iintro ⟨HΦ, Ho, ⟨%d0, H0⟩, ⟨%d1, H1⟩, ⟨%d2, H2⟩, ⟨%d3, H3⟩⟩
  iapply (sound_kernel0 c Set.univ _ _ _ _ _ _ _ _ _ (blockAt V c 0 t) (blockAt V c 1 t) (blockAt V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Proj

end
-- ==== Proof.Whole.lean ====
/-
  The whole run of the kernel program: its @main is host operations (a transpose of the weight, a reshape of theta), the
  projection region, a reshape of the projected queries, the attention region, and the concatenation of the attention
  output with theta.  The buffer contents at each boundary are a fold from the launch memory: a host stretch's operations
  applied, a region's output array replaced by what its write-backs leave.  Each region is a segment entered from every
  unscoped buffer at the boundary's contents beside the generator register and the core's (empty) dues.

  The attention region reads ONE array, the projected queries, through two windows (query blocks and key blocks): at its
  entry the array's full share is split into two halves, one per window, and at its exit — neither window writes — the
  halves are joined again.
-/
import proofs.«131597_j62620623175753_2_alg».proof.Proof.Attn.Body
import proofs.«131597_j62620623175753_2_alg».proof.Proof.Proj.Body
import proofs.«131597_j62620623175753_2_alg».proof.Proof.Gen.KernelIdeal.Regions
import Idealize.ShloMosaic.Lib.Pipeline.RegionsLoop

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## One array behind two windows -/

section Shared
variable (V : (c : Dev nD) → (b : Ref sig .tc) → Buf (Elt F) ((c : Thread nD τ).loc b))

/-- The two halves of the full share compose to it. -/
theorem halves : fullShare ∈ (PCS.op fullShare.left fullShare.right : Part (PosShare TreeShare)) := by
  rw [PosShare.left_op_right]; exact Part.mem_some _

/-- The buffers behind the attention region's arrays: the projected queries (read through two windows), theta, and the
    attention output. -/
theorem arrBufs1_eq (c : Dev nD) (Vc : (b : Ref sig .tc) → Buf (Elt F) ((c : Thread nD τ).loc b)) :
    (Pipeline.arrBufs (Ix := Unit) (Name := ℕ) (U := UR sig nD τ) (Lvl := ℕ) spec1 c Vc : sProp 𝕄)
      = iprop((((c : Thread nD τ).loc main_v3) ↦{fullShare} Vc main_v3) ∗ (((c : Thread nD τ).loc main_arg0) ↦{fullShare} Vc main_arg0) ∗ (((c : Thread nD τ).loc main_v4) ↦{fullShare} Vc main_v4)) := by
  unfold Pipeline.arrBufs
  exact bigSep_eq_bigSepL_of_eq [main_v3, main_arg0, main_v4] (by decide) (by decide) _

theorem ubufs1_split (c : Dev nD) (Vc : (b : Ref sig .tc) → Buf (Elt F) ((c : Thread nD τ).loc b)) :
    (unscopedBufs (Ix := Unit) (Name := ℕ) (U := UR sig nD τ) (Lvl := ℕ) c Vc : sProp 𝕄)
      = iprop(Pipeline.arrBufs spec1 c Vc ∗ Pipeline.unscopedRest spec1 c Vc) :=
  Pipeline.unscopedBufs_split₀ cfgs 1 winFacts₀1.arr_unscoped c Vc

/-- The attention region's arrays as the proof data holds them: the projected queries at the two halves of the full share,
    theta and the output at the full share. -/
theorem arrays1_eq (c : Dev nD) (Fa : (w : Fin cfg1.W) → Buf (Elt F) ((cfg1.win w).arr.view.loc (c : Thread nD τ))) :
    ((Attn.dat1 V c).arrays Fa : sProp 𝕄)
      = iprop((((c : Thread nD τ).loc main_v3) ↦{fullShare.left} Fa 0) ∗ (((c : Thread nD τ).loc main_v3) ↦{fullShare.right} Fa 1)
          ∗ (((c : Thread nD τ).loc main_arg0) ↦{fullShare} Fa 2) ∗ (((c : Thread nD τ).loc main_v4) ↦{fullShare} Fa 3)) := by
  unfold Dat.arrays
  rw [bigSep_W1, (arr_whole1 0).set_eq_univ, (arr_whole1 2).set_eq_univ, (arr_whole1 3).set_eq_univ]
  rfl

/-- ENTRY: every unscoped buffer at contents `Vc` gives the region's arrays at those contents — the projected queries split
    between the query window and the key window — and the unscoped rest. -/
theorem arrays_in (c : Dev nD) :
    (unscopedBufs (Ix := Unit) (Name := ℕ) (U := UR sig nD τ) (Lvl := ℕ) c (V c) : sProp 𝕄)
      ⊢ iprop((Attn.dat1 V c).arrays ((Attn.dat1 V c).arrAt · 0) ∗ Pipeline.unscopedRest spec1 c (V c)) := by
  rw [ubufs1_split, arrBufs1_eq, arrays1_eq]
  iintro ⟨⟨H3, H0, H4⟩, Hrest⟩
  ihave Hs := (pointsTo_share halves).1 $$ H3
  icases Hs with ⟨Hl, Hr⟩
  isplitr [Hrest]
  · isplitl [Hl]; · iexact Hl
    isplitl [Hr]; · iexact Hr
    isplitl [H0]; · iexact H0
    iexact H4
  iexact Hrest

end Shared

section SharedOut
variable (V : (c : Dev nD) → (b : Ref sig .tc) → Buf (Elt F) ((c : Thread nD τ).loc b))

/-- EXIT: the region's arrays after every write-back — the two input windows' halves of the projected queries, unchanged,
    joined again — and the unscoped rest are every unscoped buffer at any contents `V'` that has the output array at what
    the write-backs leave and agrees with the entry contents elsewhere. -/
theorem arrays_out (c : Dev nD) (V' : (b : Ref sig .tc) → Buf (Elt F) ((c : Thread nD τ).loc b))
    (hout : V' main_v4 = (Attn.dat1 V c).arrAt 3 cfg1.N) (hrest : ∀ b, b ≠ main_v4 → V' b = V c b) :
    iprop((Attn.dat1 V c).arrays ((Attn.dat1 V c).arrAt · cfg1.N) ∗ Pipeline.unscopedRest spec1 c (V c))
      ⊢ (unscopedBufs (Ix := Unit) (Name := ℕ) (U := UR sig nD τ) (Lvl := ℕ) c V' : sProp 𝕄) := by
  rw [ubufs1_split, arrBufs1_eq, arrays1_eq,
    show (Attn.dat1 V c).arrAt 0 cfg1.N = V c main_v3 from ((Attn.dat1 V c).arrAt_in 0 rfl _).trans (Attn.A_eq V c 0),
    show (Attn.dat1 V c).arrAt 1 cfg1.N = V c main_v3 from ((Attn.dat1 V c).arrAt_in 1 rfl _).trans (Attn.A_eq V c 1),
    show (Attn.dat1 V c).arrAt 2 cfg1.N = V c main_arg0 from ((Attn.dat1 V c).arrAt_in 2 rfl _).trans (Attn.A_eq V c 2),
    hout, hrest main_v3 (by decide), hrest main_arg0 (by decide),
    show (Pipeline.unscopedRest (Ix := Unit) (Name := ℕ) (U := UR sig nD τ) (Lvl := ℕ) spec1 c V' : sProp 𝕄) = Pipeline.unscopedRest spec1 c (V c) from by
      unfold Pipeline.unscopedRest
      exact bigSep_congr fun b hb => by
        rw [hrest b (fun e => (Finset.mem_sdiff.mp hb).2 (Finset.mem_image.mpr ⟨3, Finset.mem_univ _, e.symm⟩))]]
  iintro ⟨⟨Hl, Hr, H0, H4⟩, Hrest⟩
  ihave H3 := (pointsTo_share halves).2 $$ [Hl Hr]
  · isplitl [Hl]; · iexact Hl
    iexact Hr
  isplitr [Hrest]
  · isplitl [H3]; · iexact H3
    isplitl [H0]; · iexact H0
    iexact H4
  iexact Hrest

end SharedOut

variable (m : (ℓ : Loc nD τ sig) → Buf (Elt F) ℓ) (ρ : Dev nD → PrngReg)

/-! ## The buffer contents at each boundary -/

abbrev W0 : Dev nD → Valuation τ sig (Elt F) := fun c b => m ((c : Dev nD), b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the projection region: the projected queries at what its write-backs leave. -/
def W2 (c : Dev nD) : Valuation τ sig (Elt F) :=
  Function.update (W1 m c) (Proc.devRef .tc main_v2) ((Proj.dat0 (V1 m) c).arrAt 3 cfg0.N)
abbrev V2 : (c : Dev nD) → (b : Ref sig .tc) → Buf (Elt F) ((c : Thread nD τ).loc b) := fun c b => W2 m c b
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the attention region: the attention output at what its write-backs leave. -/
def W4 (c : Dev nD) : Valuation τ sig (Elt F) :=
  Function.update (W3 m c) (Proc.devRef .tc main_v4) ((Attn.dat1 (V3 m) c).arrAt 3 cfg1.N)
abbrev V4 : (c : Dev nD) → (b : Ref sig .tc) → Buf (Elt F) ((c : Thread nD τ).loc b) := fun c b => W4 m c b
abbrev W5 : Dev nD → Valuation τ sig (Elt F) := fun c => StableHlo.after hostOps2 (W4 m c)

theorem W2_out (c : Dev nD) : W2 m c (Proc.devRef .tc main_v2) = (Proj.dat0 (V1 m) c).arrAt 3 cfg0.N := by
  unfold W2; exact Function.update_self ..
theorem W2_of_ne (c : Dev nD) (b : Ref sig .tc) (hb : b ≠ main_v2) : W2 m c (Proc.devRef .tc b) = W1 m c (Proc.devRef .tc b) := by
  unfold W2; exact Function.update_of_ne (StableHlo.devRef_ne_of_ne hb) ..
theorem W4_out (c : Dev nD) : W4 m c (Proc.devRef .tc main_v4) = (Attn.dat1 (V3 m) c).arrAt 3 cfg1.N := by
  unfold W4; exact Function.update_self ..
theorem W4_of_ne (c : Dev nD) (b : Ref sig .tc) (hb : b ≠ main_v4) : W4 m c (Proc.devRef .tc b) = W3 m c (Proc.devRef .tc b) := by
  unfold W4; exact Function.update_of_ne (StableHlo.devRef_ne_of_ne hb) ..

/-- A buffer no host operation writes and no region may change reaches the end as launched. -/
theorem W5_keep (c : Dev nD) (r : Ref sig .tc) (h5 : r ∉ hostOps2_W) (h4 : r ≠ main_v4) (h3 : r ∉ hostOps1_W) (h2 : r ≠ main_v2)
    (h1 : r ∉ hostOps0_W) : W5 m c (Proc.devRef .tc r) = m ((c : Thread nD τ).loc r) :=
  (StableHlo.after_of_writes_sub hostOps2 _ hostOps2_writes h5).trans <| (W4_of_ne m c r h4).trans <|
    (StableHlo.after_of_writes_sub hostOps1 _ hostOps1_writes h3).trans <| (W2_of_ne m c r h2).trans <|
    (StableHlo.after_of_writes_sub hostOps0 _ hostOps0_writes h1).trans rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => Proj.dat0 (V1 m) c
  | ⟨1, _⟩ => fun c => Attn.dat1 (V3 m) c
abbrev 𝒱₀ : Variants := Variants.none
abbrev L : GSem nD τ sig → Finset Unit := fun _ => ∅
abbrev lv : GSem nD τ sig → Unit → ℕ := fun _ _ => 0
/-- What rides beside the buffers: the generator register at some state and the core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-! ## The projection region -/

theorem hF0 (c : Dev nD) (w : Fin cfg0.W) : (Proj.dat0 (V1 m) c).arrAt w cfg0.N = V2 m c (Pipeline.arrRef spec0 w) := by
  match w with
  | ⟨0, _⟩ => exact (((Proj.dat0 (V1 m) c).arrAt_in 0 rfl _).trans (Proj.A_eq0 (V1 m) c 0)).trans (W2_of_ne m c main_v1 (by decide)).symm
  | ⟨1, _⟩ => exact (((Proj.dat0 (V1 m) c).arrAt_in 1 rfl _).trans (Proj.A_eq0 (V1 m) c 1)).trans (W2_of_ne m c main_v0 (by decide)).symm
  | ⟨2, _⟩ => exact (((Proj.dat0 (V1 m) c).arrAt_in 2 rfl _).trans (Proj.A_eq0 (V1 m) c 2)).trans (W2_of_ne m c main_arg2 (by decide)).symm
  | ⟨3, _⟩ => exact (W2_out m c).symm
theorem hrest0 (c : Dev nD) : ∀ b, b ∉ Finset.univ.image (Pipeline.arrRef spec0) → V2 m c b = V1 m c b :=
  fun b hb => W2_of_ne m c b fun e => hb (Finset.mem_image.mpr ⟨3, Finset.mem_univ _, e.symm⟩)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The attention region -/

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Attn.body_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := arrays_in (V3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (Attn.phi_in (V3 m) c)
    unfold Pipeline.ΦA
    iintro ⟨Hp, -, Hr⟩
    isplitl [Hr]; · iexact Hr
    iexact Hp
  hout c := by
    rw [Pipeline.ownSems0_none]
    refine (Attn.phi_out (V3 m) c).trans ?_
    unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest (Ix := Unit) (Name := ℕ) (U := UR sig nD τ) (Lvl := ℕ) spec1 c (V3 m c))
        ⊢ (unscopedBufs (Ix := Unit) (Name := ℕ) (U := UR sig nD τ) (Lvl := ℕ) c (V4 m c) : sProp 𝕄) :=
      arrays_out (V3 m) c (V4 m c) (W4_out m c) (fun b hb => W4_of_ne m c b hb)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
theorem main_run (c : Dev nD) : main (F := F) c = Pipeline.Seg.run (segs m) := (main_chain c).trans (by chain_rfl)

set_option backward.isDefEq.respectTransparency.types false in
/-- Every weakly fair execution of @main from memory `m` with zero counters terminates, and every final memory holds every
    unscoped buffer at the last boundary's contents: in particular the result, and each argument as launched. -/
theorem run : θ_run defs (onTc (τ := τ) (main (F := F))) ⟨m, fun _ => 0, ρ⟩ (fun r => ∀ c : Dev nD,
      r.2.mem ((c.tc : Thread nD τ).loc main_v5) = W5 m c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c)
        ⊢ iprop(Tₙ m c ∗ ∃ W, owes (c : Thread nD τ) (0 : CellTallies nD τ sig Unit) W)
      iintro ⟨Hh, Hp, HO⟩
      isplitr [HO]
      · isplitl [Hh]; · iexact Hh
        iexact Hp
      · iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c =>
      ⟨h c _ (mem_uc main_v5 (by decide)),
       (h c _ (mem_uc main_arg0 (by decide))).trans (W5_keep m c main_arg0 (by decide) (by decide) (by decide) (by decide) (by decide)),
       (h c _ (mem_uc main_arg1 (by decide))).trans (W5_keep m c main_arg1 (by decide) (by decide) (by decide) (by decide) (by decide)),
       (h c _ (mem_uc main_arg2 (by decide))).trans (W5_keep m c main_arg2 (by decide) (by decide) (by decide) (by decide) (by decide))⟩)

end Cert.KernelIdeal.Whole

end
-- ==== Proof.Word.Attn.Common.lean ====
/-
  The attention kernel's grid is (batch, query block, key block), the key block innermost: point `t` works on key block
  `t % 4` of its query block.  The body resets its three running buffers (row maximum, row sum, weighted accumulator) when
  the key block is the first, folds the current key block into them at every point, and divides the accumulator by the row
  sum into the output block when the key block is the last.  This module names the two conditions, decides them over the
  grid, and names the memrefs the body is called with.
-/
import proofs.«131597_j62620623175753_2_alg».proof.Proof.Gen.Kernel.Launch
import proofs.«131597_j62620623175753_2_alg».proof.Proof.Gen.Kernel.Skeleton
import proofs.«131597_j62620623175753_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The key block is the first of its query block: the running buffers are reset. -/
abbrev firstKv (i : grid1.Coords) : Prop :=
  (Scalar.cmpi .ne (Scalar.extui (Scalar.cmpi .eq (BitVec.ofNat 32 (i 2).val) 0#32)) 0#32) = 1#1
/-- The key block is the last of its query block: the output block is stored. -/
abbrev lastKv (i : grid1.Coords) : Prop := k1_cond2 i = 1#1

theorem firstKv_iff : ∀ t : Fin cfg1.N, firstKv (grid1.coords t) ↔ t.val % 4 = 0 :=
  (by decide +kernel : ∀ t : Fin grid1.N, firstKv (grid1.coords t) ↔ t.val % 4 = 0)
theorem lastKv_iff : ∀ t : Fin cfg1.N, lastKv (grid1.coords t) ↔ t.val % 4 = 3 :=
  (by decide +kernel : ∀ t : Fin grid1.N, lastKv (grid1.coords t) ↔ t.val % 4 = 3)

/-- The three inputs are never idle; the output is idle exactly when the key block is not the last, and is written back
    exactly when it is. -/
theorem live_in : ∀ t : Fin cfg1.N, cfg1.idle 0 (grid1.coords t) = false ∧ cfg1.idle 1 (grid1.coords t) = false ∧ cfg1.idle 2 (grid1.coords t) = false := by decide +kernel
theorem idle_out : ∀ t : Fin cfg1.N, ¬lastKv (grid1.coords t) → cfg1.idle 3 (grid1.coords t) = true := by decide +kernel
theorem noFlush_out : ∀ t : Fin cfg1.N, ¬lastKv (grid1.coords t) → (cfg1.win 3).flush t = false := by decide +kernel
theorem live_out : ∀ t : Fin cfg1.N, lastKv (grid1.coords t) → cfg1.idle 3 (grid1.coords t) = false := by decide +kernel

/-- The staging memrefs the body is called with at point `t` (queries, keys, values, output), and their wholeness. -/
abbrev qM (t : Fin cfg1.N) : Memref sig .tc .vmem S1x1024x512 .f32 := win1_0.stage (cfg1.slots t 0)
abbrev qW (t : Fin cfg1.N) : (qM t).IsWhole := hstage1_0 ((cfg1.slots t 0).cast nbuf1_0)
abbrev kM (t : Fin cfg1.N) : Memref sig .tc .vmem S1x1024x512 .f32 := win1_1.stage (cfg1.slots t 1)
abbrev kW (t : Fin cfg1.N) : (kM t).IsWhole := hstage1_1 ((cfg1.slots t 1).cast nbuf1_1)
abbrev vM (t : Fin cfg1.N) : Memref sig .tc .vmem S1x1024x512 .f32 := win1_2.stage (cfg1.slots t 2)
abbrev vW (t : Fin cfg1.N) : (vM t).IsWhole := hstage1_2 ((cfg1.slots t 2).cast nbuf1_2)
abbrev oM (t : Fin cfg1.N) : Memref sig .tc .vmem S1x1024x512 .f32 := win1_3.stage (cfg1.slots t 3)
abbrev oW (t : Fin cfg1.N) : (oM t).IsWhole := hstage1_3 ((cfg1.slots t 3).cast nbuf1_3)
/-- The running buffers: row maximum, row sum, accumulator. -/
abbrev maxM : Memref sig .tc .vmem S1024x1 .f32 := Memref.whole cc1_scratch0
abbrev sumM : Memref sig .tc .vmem S1024x1 .f32 := Memref.whole cc1_scratch1
abbrev accM : Memref sig .tc .vmem S1024x512 .f32 := Memref.whole cc1_scratch2
/-- One staging buffer of the output window, through which its contents are stated. -/
abbrev oV : View sig .tc .vmem S1x1024x512 .f32 := (Memref.whole cc1_stg3_0 : Memref sig .tc .vmem S1x1024x512 .f32).view

end Cert.Kernel.Attn

end
-- ==== Proof.Word.Attn.RunFirst.lean ====
/-
  The attention body at a point whose key block is the first of its query block: the three running buffers are found at
  anything, reset (row maximum to -∞, row sum and accumulator to 0) and then overwritten with the first block's
  contribution; nothing is stored into the output block.
-/
import proofs.«131597_j62620623175753_2_alg».proof.Proof.Word.Attn.Common

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body leaves in the three running buffers at such a point, with the proof that it runs. -/
noncomputable def runFirst (c : Dev nD) (i : grid1.Coords)
    (arg3 : Memref sig .tc .vmem S1x1024x512 .f32) (harg3 : arg3.IsWhole) (arg4 : Memref sig .tc .vmem S1x1024x512 .f32) (harg4 : arg4.IsWhole)
    (arg5 : Memref sig .tc .vmem S1x1024x512 .f32) (harg5 : arg5.IsWhole) (arg6 : Memref sig .tc .vmem S1x1024x512 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x512 .f32) (harg9 : arg9.IsWhole) (hc0 : firstKv i) (hc1 : ¬lastKv i)
    (x0 x1 x2 : Vec F S1x1024x512 .f32) :
    Σ' (LS0 : List (View.Piece (Elt F) S1024x1 .f32)) (LS1 : List (View.Piece (Elt F) S1024x1 .f32)), { LS2 : List (View.Piece (Elt F) S1024x512 .f32) //
      ∀ (xi3 : Vec F S1x1024x512 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E
              (cc1__flash_self_attn_kernel i arg3 harg3 arg4 harg4 arg5 harg5 arg6 harg6 arg7 harg7 arg8 harg8 arg9 harg9) K } := by
  refine ⟨?_, ?_, ?_, fun xi3 E K => ?run⟩
  case run =>
    simp only [cc1__flash_self_attn_kernel_eq_skeleton]; unfold cc1__flash_self_attn_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Attn

end
-- ==== Proof.Word.Attn.RunMid.lean ====
/-
  The attention body at a point whose key block is neither the first nor the last of its query block: nothing is reset and
  nothing is stored into the output block; the three running buffers are read at what the point before left and each is
  overwritten whole.
-/
import proofs.«131597_j62620623175753_2_alg».proof.Proof.Word.Attn.Common

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body leaves in the three running buffers at such a point, with the proof that it runs: the inputs are
    handed back as found, the idle output buffer untouched. -/
noncomputable def runMid (c : Dev nD) (i : grid1.Coords)
    (arg3 : Memref sig .tc .vmem S1x1024x512 .f32) (harg3 : arg3.IsWhole) (arg4 : Memref sig .tc .vmem S1x1024x512 .f32) (harg4 : arg4.IsWhole)
    (arg5 : Memref sig .tc .vmem S1x1024x512 .f32) (harg5 : arg5.IsWhole) (arg6 : Memref sig .tc .vmem S1x1024x512 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x512 .f32) (harg9 : arg9.IsWhole) (hc0 : ¬firstKv i) (hc1 : ¬lastKv i)
    (x0 x1 x2 : Vec F S1x1024x512 .f32) (xs0 xs1 : Vec F S1024x1 .f32) (xs2 : Vec F S1024x512 .f32) :
    Σ' (LS0 : List (View.Piece (Elt F) S1024x1 .f32)) (LS1 : List (View.Piece (Elt F) S1024x1 .f32)), { LS2 : List (View.Piece (Elt F) S1024x512 .f32) //
      ∀ (xi3 : Vec F S1x1024x512 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E
              (cc1__flash_self_attn_kernel i arg3 harg3 arg4 harg4 arg5 harg5 arg6 harg6 arg7 harg7 arg8 harg8 arg9 harg9) K } := by
  refine ⟨?_, ?_, ?_, fun xi3 E K => ?run⟩
  case run =>
    simp only [cc1__flash_self_attn_kernel_eq_skeleton]; unfold cc1__flash_self_attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Attn

end
-- ==== Proof.Word.Attn.RunLast.lean ====
/-
  The attention body at a point whose key block is the last of its query block: the three running buffers are read at what
  the point before left and overwritten, and the output block is stored whole: the accumulator divided, row by row, by the
  row sum.
-/
import proofs.«131597_j62620623175753_2_alg».proof.Proof.Word.Attn.Common

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body leaves in the output block and in the three running buffers at such a point, with the proof that it
    runs. -/
noncomputable def runLast (c : Dev nD) (i : grid1.Coords)
    (arg3 : Memref sig .tc .vmem S1x1024x512 .f32) (harg3 : arg3.IsWhole) (arg4 : Memref sig .tc .vmem S1x1024x512 .f32) (harg4 : arg4.IsWhole)
    (arg5 : Memref sig .tc .vmem S1x1024x512 .f32) (harg5 : arg5.IsWhole) (arg6 : Memref sig .tc .vmem S1x1024x512 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x512 .f32) (harg9 : arg9.IsWhole) (hc0 : ¬firstKv i) (hc1 : lastKv i)
    (x0 x1 x2 : Vec F S1x1024x512 .f32) (xs0 xs1 : Vec F S1024x1 .f32) (xs2 : Vec F S1024x512 .f32) :
    Σ' (L3 : List (View.Piece (Elt F) S1x1024x512 .f32)) (LS0 : List (View.Piece (Elt F) S1024x1 .f32)) (LS1 : List (View.Piece (Elt F) S1024x1 .f32)), { LS2 : List (View.Piece (Elt F) S1024x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E
              (cc1__flash_self_attn_kernel i arg3 harg3 arg4 harg4 arg5 harg5 arg6 harg6 arg7 harg7 arg8 harg8 arg9 harg9) K } := by
  refine ⟨?_, ?_, ?_, ?_, fun E K => ?run⟩
  case run =>
    simp only [cc1__flash_self_attn_kernel_eq_skeleton]; unfold cc1__flash_self_attn_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.Attn

end
-- ==== Proof.Word.Attn.Frame.lean ====
/-
  Region 1 (the attention kernel) from the buffer contents `V` it is entered with: what its three running buffers and its
  output block hold after each grid point, the invariant that carries the running buffers from one point to the next, the
  pipeline's proof data and the body obligation at every point.

  After a point whose key block is the first of its query block the running buffers hold that block's contribution alone;
  after any other point they hold the case's function of the point's three input blocks and of what the point before
  left; the output block is stored only when the key block is the last.
-/
import proofs.«131597_j62620623175753_2_alg».proof.Proof.Word.Attn.RunFirst
import proofs.«131597_j62620623175753_2_alg».proof.Proof.Word.Attn.RunMid
import proofs.«131597_j62620623175753_2_alg».proof.Proof.Word.Attn.RunLast

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's current staging buffer holds its block at every point, fetched there or not, for any proof data
    whose array is the region's and whose body leaves the block in place. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The key window's current staging buffer holds its block at every point, fetched there or not, for any proof data
    whose array is the region's and whose body leaves the block in place. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The value window's current staging buffer holds its block at every point, fetched there or not, for any proof data
    whose array is the region's and whose body leaves the block in place. -/
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The running buffers as views, through which their contents are stated. -/
abbrev maxV : View sig .tc .vmem S1024x1 .f32 := maxM.view
abbrev sumV : View sig .tc .vmem S1024x1 .f32 := sumM.view
abbrev accV : View sig .tc .vmem S1024x512 .f32 := accM.view

/-- Output block, row maximum, row sum, accumulator. -/
abbrev St (F : FTy → Type) : Type := Vec F S1x1024x512 .f32 × Vec F S1024x1 .f32 × Vec F S1024x1 .f32 × Vec F S1024x512 .f32

/-! ## What each case leaves -/

/-- After a point whose key block is the first: the running buffers at the pieces that case's run found (the output block's
    component is a placeholder nothing consults: the window is idle there and not written back). -/
def firstSt (c : Dev nD) (t : Fin cfg1.N) (h0 : firstKv (grid1.coords t)) (h1 : ¬lastKv (grid1.coords t)) (x0 x1 x2 : Vec F S1x1024x512 .f32) : St F :=
  (oV.read (Elt F) oV.junk, maxV.read (Elt F) (maxV.writes (Elt F) maxV.junk (runFirst c (grid1.coords t) (qM t) (qW t) (kM t) (kW t) (vM t) (vW t) (oM t) (oW t) maxM (Memref.isWhole_whole _) sumM (Memref.isWhole_whole _) accM (Memref.isWhole_whole _) h0 h1 x0 x1 x2).1), sumV.read (Elt F) (sumV.writes (Elt F) sumV.junk (runFirst c (grid1.coords t) (qM t) (qW t) (kM t) (kW t) (vM t) (vW t) (oM t) (oW t) maxM (Memref.isWhole_whole _) sumM (Memref.isWhole_whole _) accM (Memref.isWhole_whole _) h0 h1 x0 x1 x2).2.1), accV.read (Elt F) (accV.writes (Elt F) accV.junk (runFirst c (grid1.coords t) (qM t) (qW t) (kM t) (kW t) (vM t) (vW t) (oM t) (oW t) maxM (Memref.isWhole_whole _) sumM (Memref.isWhole_whole _) accM (Memref.isWhole_whole _) h0 h1 x0 x1 x2).2.2.1))
theorem firstCover0 (c : Dev nD) (t : Fin cfg1.N) (h0 : firstKv (grid1.coords t)) (h1 : ¬lastKv (grid1.coords t)) (x0 x1 x2 : Vec F S1x1024x512 .f32) (y : S1024x1.Idx) : ∃ pc ∈ (runFirst c (grid1.coords t) (qM t) (qW t) (kM t) (kW t) (vM t) (vW t) (oM t) (oW t) maxM (Memref.isWhole_whole _) sumM (Memref.isWhole_whole _) accM (Memref.isWhole_whole _) h0 h1 x0 x1 x2).1, y ∈ pc.1.set :=
  View.cover_of_tiledL (runFirst c (grid1.coords t) (qM t) (qW t) (kM t) (kW t) (vM t) (vW t) (oM t) (oW t) maxM (Memref.isWhole_whole _) sumM (Memref.isWhole_whole _) accM (Memref.isWhole_whole _) h0 h1 x0 x1 x2).1 S1024x1.size (by sl_kernel_rfl) y
theorem firstCover1 (c : Dev nD) (t : Fin cfg1.N) (h0 : firstKv (grid1.coords t)) (h1 : ¬lastKv (grid1.coords t)) (x0 x1 x2 : Vec F S1x1024x512 .f32) (y : S1024x1.Idx) : ∃ pc ∈ (runFirst c (grid1.coords t) (qM t) (qW t) (kM t) (kW t) (vM t) (vW t) (oM t) (oW t) maxM (Memref.isWhole_whole _) sumM (Memref.isWhole_whole _) accM (Memref.isWhole_whole _) h0 h1 x0 x1 x2).2.1, y ∈ pc.1.set :=
  View.cover_of_tiledL (runFirst c (grid1.coords t) (qM t) (qW t) (kM t) (kW t) (vM t) (vW t) (oM t) (oW t) maxM (Memref.isWhole_whole _) sumM (Memref.isWhole_whole _) accM (Memref.isWhole_whole _) h0 h1 x0 x1 x2).2.1 S1024x1.size (by sl_kernel_rfl) y
theorem firstCover2 (c : Dev nD) (t : Fin cfg1.N) (h0 : firstKv (grid1.coords t)) (h1 : ¬lastKv (grid1.coords t)) (x0 x1 x2 : Vec F S1x1024x512 .f32) (y : S1024x512.Idx) : ∃ pc ∈ (runFirst c (grid1.coords t) (qM t) (qW t) (kM t) (kW t) (vM t) (vW t) (oM t) (oW t) maxM (Memref.isWhole_whole _) sumM (Memref.isWhole_whole _) accM (Memref.isWhole_whole _) h0 h1 x0 x1 x2).2.2.1, y ∈ pc.1.set :=
  View.cover_of_tiledL (runFirst c (grid1.coords t) (qM t) (qW t) (kM t) (kW t) (vM t) (vW t) (oM t) (oW t) maxM (Memref.isWhole_whole _) sumM (Memref.isWhole_whole _) accM (Memref.isWhole_whole _) h0 h1 x0 x1 x2).2.2.1 S1024x512.size (by sl_kernel_rfl) y

/-- After a point whose key block is neither the first nor the last, over what the point before left. -/
def midSt (c : Dev nD) (t : Fin cfg1.N) (h0 : ¬firstKv (grid1.coords t)) (h1 : ¬lastKv (grid1.coords t)) (x0 x1 x2 : Vec F S1x1024x512 .f32) (xs0 xs1 : Vec F S1024x1 .f32) (xs2 : Vec F S1024x512 .f32) : St F :=
  (oV.read (Elt F) oV.junk, maxV.read (Elt F) (maxV.writes (Elt F) maxV.junk (runMid c (grid1.coords t) (qM t) (qW t) (kM t) (kW t) (vM t) (vW t) (oM t) (oW t) maxM (Memref.isWhole_whole _) sumM (Memref.isWhole_whole _) accM (Memref.isWhole_whole _) h0 h1 x0 x1 x2 xs0 xs1 xs2).1), sumV.read (Elt F) (sumV.writes (Elt F) sumV.junk (runMid c (grid1.coords t) (qM t) (qW t) (kM t) (kW t) (vM t) (vW t) (oM t) (oW t) maxM (Memref.isWhole_whole _) sumM (Memref.isWhole_whole _) accM (Memref.isWhole_whole _) h0 h1 x0 x1 x2 xs0 xs1 xs2).2.1), accV.read (Elt F) (accV.writes (Elt F) accV.junk (runMid c (grid1.coords t) (qM t) (qW t) (kM t) (kW t) (vM t) (vW t) (oM t) (oW t) maxM (Memref.isWhole_whole _) sumM (Memref.isWhole_whole _) accM (Memref.isWhole_whole _) h0 h1 x0 x1 x2 xs0 xs1 xs2).2.2.1))
theorem midCover0 (c : Dev nD) (t : Fin cfg1.N) (h0 : ¬firstKv (grid1.coords t)) (h1 : ¬lastKv (grid1.coords t)) (x0 x1 x2 : Vec F S1x1024x512 .f32) (xs0 xs1 : Vec F S1024x1 .f32) (xs2 : Vec F S1024x512 .f32) (y : S1024x1.Idx) : ∃ pc ∈ (runMid c (grid1.coords t) (qM t) (qW t) (kM t) (kW t) (vM t) (vW t) (oM t) (oW t) maxM (Memref.isWhole_whole _) sumM (Memref.isWhole_whole _) accM (Memref.isWhole_whole _) h0 h1 x0 x1 x2 xs0 xs1 xs2).1, y ∈ pc.1.set :=
  View.cover_of_tiledL (runMid c (grid1.coords t) (qM t) (qW t) (kM t) (kW t) (vM t) (vW t) (oM t) (oW t) maxM (Memref.isWhole_whole _) sumM (Memref.isWhole_whole _) accM (Memref.isWhole_whole _) h0 h1 x0 x1 x2 xs0 xs1 xs2).1 S1024x1.size (by sl_kernel_rfl) y
theorem midCover1 (c : Dev nD) (t : Fin cfg1.N) (h0 : ¬firstKv (grid1.coords t)) (h1 : ¬lastKv (grid1.coords t)) (x0 x1 x2 : Vec F S1x1024x512 .f32) (xs0 xs1 : Vec F S1024x1 .f32) (xs2 : Vec F S1024x512 .f32) (y : S1024x1.Idx) : ∃ pc ∈ (runMid c (grid1.coords t) (qM t) (qW t) (kM t) (kW t) (vM t) (vW t) (oM t) (oW t) maxM (Memref.isWhole_whole _) sumM (Memref.isWhole_whole _) accM (Memref.isWhole_whole _) h0 h1 x0 x1 x2 xs0 xs1 xs2).2.1, y ∈ pc.1.set :=
  View.cover_of_tiledL (runMid c (grid1.coords t) (qM t) (qW t) (kM t) (kW t) (vM t) (vW t) (oM t) (oW t) maxM (Memref.isWhole_whole _) sumM (Memref.isWhole_whole _) accM (Memref.isWhole_whole _) h0 h1 x0 x1 x2 xs0 xs1 xs2).2.1 S1024x1.size (by sl_kernel_rfl) y
theorem midCover2 (c : Dev nD) (t : Fin cfg1.N) (h0 : ¬firstKv (grid1.coords t)) (h1 : ¬lastKv (grid1.coords t)) (x0 x1 x2 : Vec F S1x1024x512 .f32) (xs0 xs1 : Vec F S1024x1 .f32) (xs2 : Vec F S1024x512 .f32) (y : S1024x512.Idx) : ∃ pc ∈ (runMid c (grid1.coords t) (qM t) (qW t) (kM t) (kW t) (vM t) (vW t) (oM t) (oW t) maxM (Memref.isWhole_whole _) sumM (Memref.isWhole_whole _) accM (Memref.isWhole_whole _) h0 h1 x0 x1 x2 xs0 xs1 xs2).2.2.1, y ∈ pc.1.set :=
  View.cover_of_tiledL (runMid c (grid1.coords t) (qM t) (qW t) (kM t) (kW t) (vM t) (vW t) (oM t) (oW t) maxM (Memref.isWhole_whole _) sumM (Memref.isWhole_whole _) accM (Memref.isWhole_whole _) h0 h1 x0 x1 x2 xs0 xs1 xs2).2.2.1 S1024x512.size (by sl_kernel_rfl) y

/-- After a point whose key block is the last, over what the point before left: the output block too. -/
def lastSt (c : Dev nD) (t : Fin cfg1.N) (h0 : ¬firstKv (grid1.coords t)) (h1 : lastKv (grid1.coords t)) (x0 x1 x2 : Vec F S1x1024x512 .f32) (xs0 xs1 : Vec F S1024x1 .f32) (xs2 : Vec F S1024x512 .f32) : St F :=
  (oV.read (Elt F) (oV.writes (Elt F) oV.junk (runLast c (grid1.coords t) (qM t) (qW t) (kM t) (kW t) (vM t) (vW t) (oM t) (oW t) maxM (Memref.isWhole_whole _) sumM (Memref.isWhole_whole _) accM (Memref.isWhole_whole _) h0 h1 x0 x1 x2 xs0 xs1 xs2).1), maxV.read (Elt F) (maxV.writes (Elt F) maxV.junk (runLast c (grid1.coords t) (qM t) (qW t) (kM t) (kW t) (vM t) (vW t) (oM t) (oW t) maxM (Memref.isWhole_whole _) sumM (Memref.isWhole_whole _) accM (Memref.isWhole_whole _) h0 h1 x0 x1 x2 xs0 xs1 xs2).2.1), sumV.read (Elt F) (sumV.writes (Elt F) sumV.junk (runLast c (grid1.coords t) (qM t) (qW t) (kM t) (kW t) (vM t) (vW t) (oM t) (oW t) maxM (Memref.isWhole_whole _) sumM (Memref.isWhole_whole _) accM (Memref.isWhole_whole _) h0 h1 x0 x1 x2 xs0 xs1 xs2).2.2.1), accV.read (Elt F) (accV.writes (Elt F) accV.junk (runLast c (grid1.coords t) (qM t) (qW t) (kM t) (kW t) (vM t) (vW t) (oM t) (oW t) maxM (Memref.isWhole_whole _) sumM (Memref.isWhole_whole _) accM (Memref.isWhole_whole _) h0 h1 x0 x1 x2 xs0 xs1 xs2).2.2.2.1))
theorem lastCoverO (c : Dev nD) (t : Fin cfg1.N) (h0 : ¬firstKv (grid1.coords t)) (h1 : lastKv (grid1.coords t)) (x0 x1 x2 : Vec F S1x1024x512 .f32) (xs0 xs1 : Vec F S1024x1 .f32) (xs2 : Vec F S1024x512 .f32) (y : S1x1024x512.Idx) : ∃ pc ∈ (runLast c (grid1.coords t) (qM t) (qW t) (kM t) (kW t) (vM t) (vW t) (oM t) (oW t) maxM (Memref.isWhole_whole _) sumM (Memref.isWhole_whole _) accM (Memref.isWhole_whole _) h0 h1 x0 x1 x2 xs0 xs1 xs2).1, y ∈ pc.1.set :=
  View.cover_of_tiledL (runLast c (grid1.coords t) (qM t) (qW t) (kM t) (kW t) (vM t) (vW t) (oM t) (oW t) maxM (Memref.isWhole_whole _) sumM (Memref.isWhole_whole _) accM (Memref.isWhole_whole _) h0 h1 x0 x1 x2 xs0 xs1 xs2).1 S1x1024x512.size (by sl_kernel_rfl) y
theorem lastCover0 (c : Dev nD) (t : Fin cfg1.N) (h0 : ¬firstKv (grid1.coords t)) (h1 : lastKv (grid1.coords t)) (x0 x1 x2 : Vec F S1x1024x512 .f32) (xs0 xs1 : Vec F S1024x1 .f32) (xs2 : Vec F S1024x512 .f32) (y : S1024x1.Idx) : ∃ pc ∈ (runLast c (grid1.coords t) (qM t) (qW t) (kM t) (kW t) (vM t) (vW t) (oM t) (oW t) maxM (Memref.isWhole_whole _) sumM (Memref.isWhole_whole _) accM (Memref.isWhole_whole _) h0 h1 x0 x1 x2 xs0 xs1 xs2).2.1, y ∈ pc.1.set :=
  View.cover_of_tiledL (runLast c (grid1.coords t) (qM t) (qW t) (kM t) (kW t) (vM t) (vW t) (oM t) (oW t) maxM (Memref.isWhole_whole _) sumM (Memref.isWhole_whole _) accM (Memref.isWhole_whole _) h0 h1 x0 x1 x2 xs0 xs1 xs2).2.1 S1024x1.size (by sl_kernel_rfl) y
theorem lastCover1 (c : Dev nD) (t : Fin cfg1.N) (h0 : ¬firstKv (grid1.coords t)) (h1 : lastKv (grid1.coords t)) (x0 x1 x2 : Vec F S1x1024x512 .f32) (xs0 xs1 : Vec F S1024x1 .f32) (xs2 : Vec F S1024x512 .f32) (y : S1024x1.Idx) : ∃ pc ∈ (runLast c (grid1.coords t) (qM t) (qW t) (kM t) (kW t) (vM t) (vW t) (oM t) (oW t) maxM (Memref.isWhole_whole _) sumM (Memref.isWhole_whole _) accM (Memref.isWhole_whole _) h0 h1 x0 x1 x2 xs0 xs1 xs2).2.2.1, y ∈ pc.1.set :=
  View.cover_of_tiledL (runLast c (grid1.coords t) (qM t) (qW t) (kM t) (kW t) (vM t) (vW t) (oM t) (oW t) maxM (Memref.isWhole_whole _) sumM (Memref.isWhole_whole _) accM (Memref.isWhole_whole _) h0 h1 x0 x1 x2 xs0 xs1 xs2).2.2.1 S1024x1.size (by sl_kernel_rfl) y
theorem lastCover2 (c : Dev nD) (t : Fin cfg1.N) (h0 : ¬firstKv (grid1.coords t)) (h1 : lastKv (grid1.coords t)) (x0 x1 x2 : Vec F S1x1024x512 .f32) (xs0 xs1 : Vec F S1024x1 .f32) (xs2 : Vec F S1024x512 .f32) (y : S1024x512.Idx) : ∃ pc ∈ (runLast c (grid1.coords t) (qM t) (qW t) (kM t) (kW t) (vM t) (vW t) (oM t) (oW t) maxM (Memref.isWhole_whole _) sumM (Memref.isWhole_whole _) accM (Memref.isWhole_whole _) h0 h1 x0 x1 x2 xs0 xs1 xs2).2.2.2.1, y ∈ pc.1.set :=
  View.cover_of_tiledL (runLast c (grid1.coords t) (qM t) (qW t) (kM t) (kW t) (vM t) (vW t) (oM t) (oW t) maxM (Memref.isWhole_whole _) sumM (Memref.isWhole_whole _) accM (Memref.isWhole_whole _) h0 h1 x0 x1 x2 xs0 xs1 xs2).2.2.2.1 S1024x512.size (by sl_kernel_rfl) y

/-! ## Point by point -/

/-- What the output block and the running buffers hold after the body at position `n`: the case the position's key block
    selects, at the point's input blocks, over what position `n - 1` left. -/
def stateAt (c : Dev nD) : (n : ℕ) → n < cfg1.N → St F
  | 0, hn => firstSt c ⟨0, hn⟩ ((firstKv_iff ⟨0, hn⟩).mpr (Nat.zero_mod _)) (fun h => (fun h => by (try dsimp only at h); omega) ((lastKv_iff ⟨0, hn⟩).mp h)) (iblk V c 0 ⟨0, hn⟩) (iblk V c 1 ⟨0, hn⟩) (iblk V c 2 ⟨0, hn⟩)
  | n + 1, hn =>
    if h0 : (n + 1) % 4 = 0 then
      if h1 : (n + 1) % 4 = 3 then False.elim (by omega)
      else firstSt c ⟨n + 1, hn⟩ ((firstKv_iff ⟨n + 1, hn⟩).mpr h0) (fun h => h1 ((lastKv_iff ⟨n + 1, hn⟩).mp h)) (iblk V c 0 ⟨n + 1, hn⟩) (iblk V c 1 ⟨n + 1, hn⟩) (iblk V c 2 ⟨n + 1, hn⟩)
    else
      if h1 : (n + 1) % 4 = 3 then
        lastSt c ⟨n + 1, hn⟩ (fun h => h0 ((firstKv_iff ⟨n + 1, hn⟩).mp h)) ((lastKv_iff ⟨n + 1, hn⟩).mpr h1) (iblk V c 0 ⟨n + 1, hn⟩) (iblk V c 1 ⟨n + 1, hn⟩) (iblk V c 2 ⟨n + 1, hn⟩) (stateAt c n (Nat.lt_of_succ_lt hn)).2.1 (stateAt c n (Nat.lt_of_succ_lt hn)).2.2.1 (stateAt c n (Nat.lt_of_succ_lt hn)).2.2.2
      else
        midSt c ⟨n + 1, hn⟩ (fun h => h0 ((firstKv_iff ⟨n + 1, hn⟩).mp h)) (fun h => h1 ((lastKv_iff ⟨n + 1, hn⟩).mp h)) (iblk V c 0 ⟨n + 1, hn⟩) (iblk V c 1 ⟨n + 1, hn⟩) (iblk V c 2 ⟨n + 1, hn⟩) (stateAt c n (Nat.lt_of_succ_lt hn)).2.1 (stateAt c n (Nat.lt_of_succ_lt hn)).2.2.1 (stateAt c n (Nat.lt_of_succ_lt hn)).2.2.2

theorem stateAt_first (c : Dev nD) (t : Fin cfg1.N) (h0 : t.val % 4 = 0) (h1 : ¬t.val % 4 = 3) :
    stateAt V c t.val t.isLt = firstSt c t ((firstKv_iff t).mpr h0) (fun h => h1 ((lastKv_iff t).mp h)) (iblk V c 0 t) (iblk V c 1 t) (iblk V c 2 t) := by
  obtain ⟨n, hn⟩ := t
  cases n with
  | zero => exact rfl
  | succ n => exact (dif_pos h0).trans ((dif_neg h1).trans rfl)

theorem stateAt_mid (c : Dev nD) (t : Fin cfg1.N) (h0 : ¬t.val % 4 = 0) (h1 : ¬t.val % 4 = 3) :
    stateAt V c t.val t.isLt = midSt c t (fun h => h0 ((firstKv_iff t).mp h)) (fun h => h1 ((lastKv_iff t).mp h)) (iblk V c 0 t) (iblk V c 1 t) (iblk V c 2 t)
      (stateAt V c (t.val - 1) (Nat.lt_of_le_of_lt (Nat.sub_le _ _) t.isLt)).2.1 (stateAt V c (t.val - 1) (Nat.lt_of_le_of_lt (Nat.sub_le _ _) t.isLt)).2.2.1 (stateAt V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

theorem stateAt_last (c : Dev nD) (t : Fin cfg1.N) (h0 : ¬t.val % 4 = 0) (h1 : t.val % 4 = 3) :
    stateAt V c t.val t.isLt = lastSt c t (fun h => h0 ((firstKv_iff t).mp h)) ((lastKv_iff t).mpr h1) (iblk V c 0 t) (iblk V c 1 t) (iblk V c 2 t)
      (stateAt V c (t.val - 1) (Nat.lt_of_le_of_lt (Nat.sub_le _ _) t.isLt)).2.1 (stateAt V c (t.val - 1) (Nat.lt_of_le_of_lt (Nat.sub_le _ _) t.isLt)).2.2.1 (stateAt V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before the first point: the scoped buffers no window of this region stages at anything and the generator register at
    some state.  After position `n`: the same with the three running buffers at what that position left. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) maxM fullShare (stateAt V c n hn).2.1 ∗ owns (c : Thread nD τ) sumM fullShare (stateAt V c n hn).2.2.1 ∗ owns (c : Thread nD τ) accM fullShare (stateAt V c n hn).2.2.2) ∗ (∃ r, prngReg c r))

theorem PhiA_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) maxM fullShare d) ∗ (∃ d, owns (c : Thread nD τ) sumM fullShare d) ∗ (∃ d, owns (c : Thread nD τ) accM fullShare d)) ∗ (∃ r, prngReg c r)) := by
  unfold Pipeline.ΦA; rw [scopedRest1_eq]; simp only [maxM, sumM, accM, owns_whole]; try rfl

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) maxM fullShare (stateAt V c n hn).2.1 ∗ owns (c : Thread nD τ) sumM fullShare (stateAt V c n hn).2.2.1 ∗ owns (c : Thread nD τ) accM fullShare (stateAt V c n hn).2.2.2) ∗ (∃ r, prngReg c r)) := rfl
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) maxM fullShare (stateAt V c (n - 1) (by omega)).2.1 ∗ owns (c : Thread nD τ) sumM fullShare (stateAt V c (n - 1) (by omega)).2.2.1 ∗ owns (c : Thread nD τ) accM fullShare (stateAt V c (n - 1) (by omega)).2.2.2) ∗ (∃ r, prngReg c r)) := by
  cases n with
  | zero => exact absurd rfl hz
  | succ n => rfl

/-! ## The proof data -/

/-- The arrays as the region finds them; after the body each input's buffer at its block and the output's at the state's
    first component; the invariant above; the query and key windows, which read ONE array, hold it at the two halves of
    the full share, the value window at the full share; nothing owed. -/
def dat1 (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (stateAt V c t.val t.isLt).1
  Φ t := PhiS V c t.val (Nat.le_of_lt_succ t.isLt)
  q w := match w with
    | ⟨0, _⟩ => fullShare.left
    | ⟨1, _⟩ => fullShare.right
    | _ => fullShare
  owed _ := 0

theorem A_eq (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after_0 (c : Dev nD) (t : Fin cfg1.N) : (dat1 V c).after 0 t = iblk V c 0 t := by dsimp only [dat1]
theorem after_1 (c : Dev nD) (t : Fin cfg1.N) : (dat1 V c).after 1 t = iblk V c 1 t := by dsimp only [dat1]
theorem after_2 (c : Dev nD) (t : Fin cfg1.N) : (dat1 V c).after 2 t = iblk V c 2 t := by dsimp only [dat1]
theorem after_3 (c : Dev nD) (t : Fin cfg1.N) : (dat1 V c).after 3 t = (stateAt V c t.val t.isLt).1 := by dsimp only [dat1]

theorem before_0 (c : Dev nD) (t : Fin cfg1.N) (d) : (dat1 V c).before 0 t d = iblk V c 0 t :=
  before_0_of V (dat1 V c) (A_eq V c 0) (after_0 V c) t d
theorem before_1 (c : Dev nD) (t : Fin cfg1.N) (d) : (dat1 V c).before 1 t d = iblk V c 1 t :=
  before_1_of V (dat1 V c) (A_eq V c 1) (after_1 V c) t d
theorem before_2 (c : Dev nD) (t : Fin cfg1.N) (d) : (dat1 V c).before 2 t d = iblk V c 2 t :=
  before_2_of V (dat1 V c) (A_eq V c 2) (after_2 V c) t d

end Cert.Kernel.Attn

end
-- ==== Proof.Word.Attn.Body.lean ====
/-
  The body obligation of region 1: at every grid point the attention body, called on the point's staging buffers holding
  the three input blocks and on the running buffers as the invariant holds them, runs and hands back the inputs unchanged,
  the running buffers at the point's state and — when the key block is the last — the output block.
-/
import proofs.«131597_j62620623175753_2_alg».proof.Proof.Word.Attn.Frame

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre (c : Dev nD) (t : Fin cfg1.N) : sProp 𝕄 :=
  iprop((dat1 V c).Φ t.castSucc ∗ (dat1 V c).owesAt () t.castSucc
    ∗ (∃ d, owns (c : Thread nD τ) (qM t) fullShare ((dat1 V c).before 0 t d))
    ∗ (∃ d, owns (c : Thread nD τ) (kM t) fullShare ((dat1 V c).before 1 t d))
    ∗ (∃ d, owns (c : Thread nD τ) (vM t) fullShare ((dat1 V c).before 2 t d))
    ∗ (∃ d, owns (c : Thread nD τ) (oM t) fullShare ((dat1 V c).before 3 t d)))

/-- and what it returns. -/
def bodyPost (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 8000000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  rw [show (dat1 V c).leavesExact 0 t = owns (c : Thread nD τ) (qM t) fullShare ((dat1 V c).after 0 t) from by
    unfold Dat.leavesExact; rw [(live_in t).1], after_0]
  rw [show (dat1 V c).leavesExact 1 t = owns (c : Thread nD τ) (kM t) fullShare ((dat1 V c).after 1 t) from by
    unfold Dat.leavesExact; rw [(live_in t).2.1], after_1]
  rw [show (dat1 V c).leavesExact 2 t = owns (c : Thread nD τ) (vM t) fullShare ((dat1 V c).after 2 t) from by
    unfold Dat.leavesExact; rw [(live_in t).2.2], after_2]
  by_cases h0 : t.val % 4 = 0
  · have h1 : ¬t.val % 4 = 3 := by omega
    rw [Dat.leavesExact_idle (dat1 V c) 3 t (idle_out t (fun h => h1 ((lastKv_iff t).mp h))) (noFlush_out t (fun h => h1 ((lastKv_iff t).mp h)))]
    rw [stateAt_first V c t h0 h1]
    unfold firstSt; (try dsimp only)
    by_cases hz : t.val = 0
    · rw [PhiS_castSucc V c t, PhiS_zero V c _ _ hz, PhiA_eq]
      iintro ⟨⟨⟨HA1, HA2, HA3, HA4, HA5, HA6, HS0, HS1, HS2⟩, Hg⟩, Ho, ⟨%d0, H0⟩, ⟨%d1, H1⟩, ⟨%d2, H2⟩, ⟨%d3, H3⟩⟩
      iapply ((runFirst c (grid1.coords t) (qM t) (qW t) (kM t) (kW t) (vM t) (vW t) (oM t) (oW t) maxM (Memref.isWhole_whole _) sumM (Memref.isWhole_whole _) accM (Memref.isWhole_whole _) ((firstKv_iff t).mpr h0) (fun h => h1 ((lastKv_iff t).mp h)) (iblk V c 0 t) (iblk V c 1 t) (iblk V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HA1 HA2 HA3 HA4 HA5 HA6 HS0 HS1 HS2 Hg]
      · isplitl [HA1 HA2 HA3 HA4 HA5 HA6 HS0 HS1 HS2]
        · isplitl [HA1]; · iexact HA1
          isplitl [HA2]; · iexact HA2
          isplitl [HA3]; · iexact HA3
          isplitl [HA4]; · iexact HA4
          isplitl [HA5]; · iexact HA5
          isplitl [HA6]; · iexact HA6
          isplitl [HS0]
          · unfold owns; iexists _; isplitr
            swap; · iexact HS0
            ipureintro; exact View.read_writes_of_cover _ _ _ _ _ (firstCover0 c t _ _ _ _ _)
          isplitl [HS1]
          · unfold owns; iexists _; isplitr
            swap; · iexact HS1
            ipureintro; exact View.read_writes_of_cover _ _ _ _ _ (firstCover1 c t _ _ _ _ _)
          unfold owns; iexists _; isplitr
          swap; · iexact HS2
          ipureintro; exact View.read_writes_of_cover _ _ _ _ _ (firstCover2 c t _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HA1, HA2, HA3, HA4, HA5, HA6, HS0, HS1, HS2⟩, Hg⟩, Ho, ⟨%d0, H0⟩, ⟨%d1, H1⟩, ⟨%d2, H2⟩, ⟨%d3, H3⟩⟩
      iapply ((runFirst c (grid1.coords t) (qM t) (qW t) (kM t) (kW t) (vM t) (vW t) (oM t) (oW t) maxM (Memref.isWhole_whole _) sumM (Memref.isWhole_whole _) accM (Memref.isWhole_whole _) ((firstKv_iff t).mpr h0) (fun h => h1 ((lastKv_iff t).mp h)) (iblk V c 0 t) (iblk V c 1 t) (iblk V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HA1 HA2 HA3 HA4 HA5 HA6 HS0 HS1 HS2 Hg]
      · isplitl [HA1 HA2 HA3 HA4 HA5 HA6 HS0 HS1 HS2]
        · isplitl [HA1]; · iexact HA1
          isplitl [HA2]; · iexact HA2
          isplitl [HA3]; · iexact HA3
          isplitl [HA4]; · iexact HA4
          isplitl [HA5]; · iexact HA5
          isplitl [HA6]; · iexact HA6
          isplitl [HS0]
          · unfold owns; iexists _; isplitr
            swap; · iexact HS0
            ipureintro; exact View.read_writes_of_cover _ _ _ _ _ (firstCover0 c t _ _ _ _ _)
          isplitl [HS1]
          · unfold owns; iexists _; isplitr
            swap; · iexact HS1
            ipureintro; exact View.read_writes_of_cover _ _ _ _ _ (firstCover1 c t _ _ _ _ _)
          unfold owns; iexists _; isplitr
          swap; · iexact HS2
          ipureintro; exact View.read_writes_of_cover _ _ _ _ _ (firstCover2 c t _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 = 3
    · rw [show (dat1 V c).leavesExact 3 t = owns (c : Thread nD τ) (oM t) fullShare ((dat1 V c).after 3 t) from by
        unfold Dat.leavesExact; rw [live_out t ((lastKv_iff t).mpr h1)], after_3]
      rw [stateAt_last V c t h0 h1]
      unfold lastSt; (try dsimp only)
      rw [PhiS_castSucc V c t, PhiS_pos V c _ _ hz]
      iintro ⟨⟨⟨HA1, HA2, HA3, HA4, HA5, HA6, HS0, HS1, HS2⟩, Hg⟩, Ho, ⟨%d0, H0⟩, ⟨%d1, H1⟩, ⟨%d2, H2⟩, ⟨%d3, H3⟩⟩
      iapply ((runLast c (grid1.coords t) (qM t) (qW t) (kM t) (kW t) (vM t) (vW t) (oM t) (oW t) maxM (Memref.isWhole_whole _) sumM (Memref.isWhole_whole _) accM (Memref.isWhole_whole _) (fun h => h0 ((firstKv_iff t).mp h)) ((lastKv_iff t).mpr h1) (iblk V c 0 t) (iblk V c 1 t) (iblk V c 2 t) (stateAt V c (t.val - 1) (Nat.lt_of_le_of_lt (Nat.sub_le _ _) t.isLt)).2.1 (stateAt V c (t.val - 1) (Nat.lt_of_le_of_lt (Nat.sub_le _ _) t.isLt)).2.2.1 (stateAt V c (t.val - 1) (Nat.lt_of_le_of_lt (Nat.sub_le _ _) t.isLt)).2.2.2).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [HA1 HA2 HA3 HA4 HA5 HA6 HS0 HS1 HS2 Hg]
      · isplitl [HA1 HA2 HA3 HA4 HA5 HA6 HS0 HS1 HS2]
        · isplitl [HA1]; · iexact HA1
          isplitl [HA2]; · iexact HA2
          isplitl [HA3]; · iexact HA3
          isplitl [HA4]; · iexact HA4
          isplitl [HA5]; · iexact HA5
          isplitl [HA6]; · iexact HA6
          isplitl [HS0]
          · unfold owns; iexists _; isplitr
            swap; · iexact HS0
            ipureintro; exact View.read_writes_of_cover _ _ _ _ _ (lastCover0 c t _ _ _ _ _ _ _ _)
          isplitl [HS1]
          · unfold owns; iexists _; isplitr
            swap; · iexact HS1
            ipureintro; exact View.read_writes_of_cover _ _ _ _ _ (lastCover1 c t _ _ _ _ _ _ _ _)
          unfold owns; iexists _; isplitr
          swap; · iexact HS2
          ipureintro; exact View.read_writes_of_cover _ _ _ _ _ (lastCover2 c t _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (lastCoverO c t _ _ _ _ _ _ _ _)
    · rw [Dat.leavesExact_idle (dat1 V c) 3 t (idle_out t (fun h => h1 ((lastKv_iff t).mp h))) (noFlush_out t (fun h => h1 ((lastKv_iff t).mp h)))]
      rw [stateAt_mid V c t h0 h1]
      unfold midSt; (try dsimp only)
      rw [PhiS_castSucc V c t, PhiS_pos V c _ _ hz]
      iintro ⟨⟨⟨HA1, HA2, HA3, HA4, HA5, HA6, HS0, HS1, HS2⟩, Hg⟩, Ho, ⟨%d0, H0⟩, ⟨%d1, H1⟩, ⟨%d2, H2⟩, ⟨%d3, H3⟩⟩
      iapply ((runMid c (grid1.coords t) (qM t) (qW t) (kM t) (kW t) (vM t) (vW t) (oM t) (oW t) maxM (Memref.isWhole_whole _) sumM (Memref.isWhole_whole _) accM (Memref.isWhole_whole _) (fun h => h0 ((firstKv_iff t).mp h)) (fun h => h1 ((lastKv_iff t).mp h)) (iblk V c 0 t) (iblk V c 1 t) (iblk V c 2 t) (stateAt V c (t.val - 1) (Nat.lt_of_le_of_lt (Nat.sub_le _ _) t.isLt)).2.1 (stateAt V c (t.val - 1) (Nat.lt_of_le_of_lt (Nat.sub_le _ _) t.isLt)).2.2.1 (stateAt V c (t.val - 1) (Nat.lt_of_le_of_lt (Nat.sub_le _ _) t.isLt)).2.2.2).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HA1 HA2 HA3 HA4 HA5 HA6 HS0 HS1 HS2 Hg]
      · isplitl [HA1 HA2 HA3 HA4 HA5 HA6 HS0 HS1 HS2]
        · isplitl [HA1]; · iexact HA1
          isplitl [HA2]; · iexact HA2
          isplitl [HA3]; · iexact HA3
          isplitl [HA4]; · iexact HA4
          isplitl [HA5]; · iexact HA5
          isplitl [HA6]; · iexact HA6
          isplitl [HS0]
          · unfold owns; iexists _; isplitr
            swap; · iexact HS0
            ipureintro; exact View.read_writes_of_cover _ _ _ _ _ (midCover0 c t _ _ _ _ _ _ _ _)
          isplitl [HS1]
          · unfold owns; iexists _; isplitr
            swap; · iexact HS1
            ipureintro; exact View.read_writes_of_cover _ _ _ _ _ (midCover1 c t _ _ _ _ _ _ _ _)
          unfold owns; iexists _; isplitr
          swap; · iexact HS2
          ipureintro; exact View.read_writes_of_cover _ _ _ _ _ (midCover2 c t _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat1 (F := F) V c) (defs₀ (F := F)) Variants.none () Set.univ := fun t => by
  rw [bigSep_W1, bigSep_W1]
  exact sound_body V c t

/-- What the region is entered with is the invariant before the first point. -/
theorem phi_in (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the scoped buffers back: what the running buffers hold is forgotten. -/
theorem phi_out (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA_eq]
  iintro ⟨⟨HA1, HA2, HA3, HA4, HA5, HA6, HS0, HS1, HS2⟩, Hg⟩
  isplitl [HA1 HA2 HA3 HA4 HA5 HA6 HS0 HS1 HS2]
  · isplitl [HA1]; · iexact HA1
    isplitl [HA2]; · iexact HA2
    isplitl [HA3]; · iexact HA3
    isplitl [HA4]; · iexact HA4
    isplitl [HA5]; · iexact HA5
    isplitl [HA6]; · iexact HA6
    isplitl [HS0]; · iexists _; iexact HS0
    isplitl [HS1]; · iexists _; iexact HS1
    iexists _; iexact HS2
  iexact Hg

end Cert.Kernel.Attn

end
-- ==== Proof.Word.Proj.Body.lean ====
/-
  The query projection: one grid of 16 points, point t working on rows 1024·t … 1024·t + 1023 of the flattened
  activations.  Its body loads a 1024×512 block of the activations, the whole transposed weight and the bias,
  multiplies the block by the weight, adds the bias along the rows, and stores the 1024×512 block of the projected
  queries.  This module states the body's half of the pipeline's proof at a parameter V, the contents of the
  TensorCore's buffers when the pipeline is entered: the blocks the body finds, the buffer it leaves, its triple,
  the pipeline's proof data and the body obligation.  Everything is generic in the number format.
-/
import proofs.«131597_j62620623175753_2_alg».proof.Proof.Gen.Kernel.Launch
import proofs.«131597_j62620623175753_2_alg».proof.Proof.Gen.Kernel.Skeleton
import proofs.«131597_j62620623175753_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the contents of the TensorCore's buffers when the projection's pipeline is entered
variable (V : (c : Dev nD) → (b : Ref sig .tc) → Buf (Elt F) ((c : Thread nD τ).loc b))

/-! ## The windows' blocks -/

/-- Window w's block at point t, read off its array as the pipeline finds it: for window 0 the rows
    1024·t … 1024·t + 1023 of the activations, for windows 1 and 2 the whole weight and the whole bias. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds the point's block of rows whenever the body runs, for any proof data
    whose array is V's and whose body leaves the block in place. -/
theorem before_theta_of {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The weight's staging buffer holds the whole weight whenever the body runs: it is fetched before the first point,
    its block index never moves, and the body leaves it in place. -/
theorem before_weight_of {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- The bias's staging buffer holds the whole bias whenever the body runs, for the same reason. -/
theorem before_bias_of {c : Dev nD} (dat : Dat τ (Elt F) Unit ℕ (UR sig nD τ) ℕ cfg0 c) (hA : dat.A 2 = V c (Pipeline.arrRef spec0 2))
    (hafter : ∀ t, dat.after 2 t = blockAt V c 2 t) (t : Fin cfg0.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## The body's accesses: each buffer whole -/

abbrev rBlock : Rect S1024x512 := Rect.unit (s := S1024x512) ![0, 0] S1024x512.size inb_S1024x512_S1024x512_0_0
abbrev rWeight : Rect S512x512 := Rect.unit (s := S512x512) ![0, 0] S512x512.size inb_S512x512_S512x512_0_0
abbrev rBias : Rect S512 := Rect.unit (s := S512) ![0] S512.size inb_S512_S512_0

/-! ## What the body leaves in the output window's buffer -/

/-- The projected block: the output buffer after the body, from the activations' block, the weight and the bias — the
    body's one store, of the block times the weight plus the bias, over the whole buffer. -/
def projBlock (x : Vec F S1024x512 .f32) (w : Vec F S512x512 .f32) (b : Vec F S512 .f32) : Vec F S1024x512 .f32 :=
  View.canon [⟨rBlock, k0_pay1 (View.ld x rBlock) (View.ld w rWeight) (View.ld b rBias)⟩]

/-- The one store covers the buffer. -/
theorem projBlock_cover (p : Vec F S1024x512 .f32) (y : S1024x512.Idx) :
    ∃ pc ∈ ([⟨rBlock, p⟩] : List (View.Piece (Elt F) S1024x512 .f32)), y ∈ pc.1.set :=
  View.cover_of_tiled [⟨rBlock, p⟩] S1024x512.size (by rfl) y

/-! ## The body's triple -/

set_option maxHeartbeats 1000000 in
/-- The body on whole staging memrefs — the three inputs' at contents x, w, b and the output's at anything — runs to
    the continuation holding the inputs' as they were and the output's at the projected block. -/
theorem sound_kernel0 (c : Dev nD) (E : Set ℕ) (i : grid0.Coords)
    (arg1 : Memref sig .tc .vmem S1024x512 .f32) (harg1 : arg1.IsWhole) (arg2 : Memref sig .tc .vmem S512x512 .f32) (harg2 : arg2.IsWhole)
    (arg3 : Memref sig .tc .vmem S512 .f32) (harg3 : arg3.IsWhole) (arg4 : Memref sig .tc .vmem S1024x512 .f32) (harg4 : arg4.IsWhole)
    (x : Vec F S1024x512 .f32) (w : Vec F S512x512 .f32) (b : Vec F S512 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (projBlock x w b)) -∗ K ⟨⟩))
      ⊢ wp frame (wpE (defs₀ (F := F)) Variants.none c none) E (cc0__query_proj_kernel i arg1 harg1 arg2 harg2 arg3 harg3 arg4 harg4) K := by
  simp only [cc0__query_proj_kernel_eq_skeleton]; unfold cc0__query_proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (projBlock_cover _)

/-! ## The pipeline's proof data -/

/-- The proof data of the projection's pipeline on core c: the arrays as the pipeline finds them; after the body at
    point t each input's buffer at its block and the output's at the projected block of the three input blocks; the
    invariant that of a body touching only its windows' buffers; nothing owed; full shares. -/
def dat0 (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => projBlock (blockAt V c 0 t) (blockAt V c 1 t) (blockAt V c 2 t)
  Φ _ := Pipeline.ΦA spec0 c
  q _ := fullShare
  owed _ := 0

/-- The proof data's arrays are the contents at entry. -/
theorem A_eq0 (c : Dev nD) (w : Fin cfg0.W) : (dat0 V c).A w = V c (Pipeline.arrRef spec0 w) := by
  dsimp only [dat0]

/-- What the body leaves, window by window. -/
theorem after_theta (c : Dev nD) (t : Fin cfg0.N) : (dat0 V c).after 0 t = blockAt V c 0 t := by dsimp only [dat0]
theorem after_weight (c : Dev nD) (t : Fin cfg0.N) : (dat0 V c).after 1 t = blockAt V c 1 t := by dsimp only [dat0]
theorem after_bias (c : Dev nD) (t : Fin cfg0.N) : (dat0 V c).after 2 t = blockAt V c 2 t := by dsimp only [dat0]
theorem after_proj (c : Dev nD) (t : Fin cfg0.N) :
    (dat0 V c).after 3 t = projBlock (blockAt V c 0 t) (blockAt V c 1 t) (blockAt V c 2 t) := by dsimp only [dat0]

/-- Each input's staging buffer holds its block at every point, fetched there or not. -/
theorem before_theta (c : Dev nD) (t : Fin cfg0.N) (d) : (dat0 V c).before 0 t d = blockAt V c 0 t :=
  before_theta_of V (dat0 V c) (A_eq0 V c 0) (after_theta V c) t d
theorem before_weight (c : Dev nD) (t : Fin cfg0.N) (d) : (dat0 V c).before 1 t d = blockAt V c 1 t :=
  before_weight_of V (dat0 V c) (A_eq0 V c 1) (after_weight V c) t d
theorem before_bias (c : Dev nD) (t : Fin cfg0.N) (d) : (dat0 V c).before 2 t d = blockAt V c 2 t :=
  before_bias_of V (dat0 V c) (A_eq0 V c 2) (after_bias V c) t d

/-! ## The body obligation, at a generic point -/

/-- What the body is called with at point t: the invariant, the core's debts, and the four windows' current staging
    buffers, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before_theta, before_weight, before_bias]
  rw [show (dat0 V c).Φ t.succ = (dat0 V c).Φ t.castSucc from rfl,
    show (dat0 V c).owesAt () t.succ = (dat0 V c).owesAt () t.castSucc from rfl,
    after_theta, after_weight, after_bias, after_proj]
  iintro ⟨HΦ, Ho, ⟨%d0, H0⟩, ⟨%d1, H1⟩, ⟨%d2, H2⟩, ⟨%d3, H3⟩⟩
  iapply (sound_kernel0 c Set.univ _ _ _ _ _ _ _ _ _ (blockAt V c 0 t) (blockAt V c 1 t) (blockAt V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Proj

end
-- ==== Proof.Word.Whole.lean ====
/-
  The whole run of the kernel program: its @main is host operations (a transpose of the weight, a reshape of theta), the
  projection region, a reshape of the projected queries, the attention region, and the concatenation of the attention
  output with theta.  The buffer contents at each boundary are a fold from the launch memory: a host stretch's operations
  applied, a region's output array replaced by what its write-backs leave.  Each region is a segment entered from every
  unscoped buffer at the boundary's contents beside the generator register and the core's (empty) dues.

  The attention region reads ONE array, the projected queries, through two windows (query blocks and key blocks): at its
  entry the array's full share is split into two halves, one per window, and at its exit — neither window writes — the
  halves are joined again.
-/
import proofs.«131597_j62620623175753_2_alg».proof.Proof.Word.Attn.Body
import proofs.«131597_j62620623175753_2_alg».proof.Proof.Word.Proj.Body
import proofs.«131597_j62620623175753_2_alg».proof.Proof.Gen.Kernel.Regions
import Idealize.ShloMosaic.Lib.Pipeline.RegionsLoop

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## One array behind two windows -/

section Shared
variable (V : (c : Dev nD) → (b : Ref sig .tc) → Buf (Elt F) ((c : Thread nD τ).loc b))

/-- The two halves of the full share compose to it. -/
theorem halves : fullShare ∈ (PCS.op fullShare.left fullShare.right : Part (PosShare TreeShare)) := by
  rw [PosShare.left_op_right]; exact Part.mem_some _

/-- The buffers behind the attention region's arrays: the projected queries (read through two windows), theta, and the
    attention output. -/
theorem arrBufs1_eq (c : Dev nD) (Vc : (b : Ref sig .tc) → Buf (Elt F) ((c : Thread nD τ).loc b)) :
    (Pipeline.arrBufs (Ix := Unit) (Name := ℕ) (U := UR sig nD τ) (Lvl := ℕ) spec1 c Vc : sProp 𝕄)
      = iprop((((c : Thread nD τ).loc main_v3) ↦{fullShare} Vc main_v3) ∗ (((c : Thread nD τ).loc main_arg0) ↦{fullShare} Vc main_arg0) ∗ (((c : Thread nD τ).loc main_v4) ↦{fullShare} Vc main_v4)) := by
  unfold Pipeline.arrBufs
  exact bigSep_eq_bigSepL_of_eq [main_v3, main_arg0, main_v4] (by decide) (by decide) _

theorem ubufs1_split (c : Dev nD) (Vc : (b : Ref sig .tc) → Buf (Elt F) ((c : Thread nD τ).loc b)) :
    (unscopedBufs (Ix := Unit) (Name := ℕ) (U := UR sig nD τ) (Lvl := ℕ) c Vc : sProp 𝕄)
      = iprop(Pipeline.arrBufs spec1 c Vc ∗ Pipeline.unscopedRest spec1 c Vc) :=
  Pipeline.unscopedBufs_split₀ cfgs 1 winFacts₀1.arr_unscoped c Vc

/-- The attention region's arrays as the proof data holds them: the projected queries at the two halves of the full share,
    theta and the output at the full share. -/
theorem arrays1_eq (c : Dev nD) (Fa : (w : Fin cfg1.W) → Buf (Elt F) ((cfg1.win w).arr.view.loc (c : Thread nD τ))) :
    ((Attn.dat1 V c).arrays Fa : sProp 𝕄)
      = iprop((((c : Thread nD τ).loc main_v3) ↦{fullShare.left} Fa 0) ∗ (((c : Thread nD τ).loc main_v3) ↦{fullShare.right} Fa 1)
          ∗ (((c : Thread nD τ).loc main_arg0) ↦{fullShare} Fa 2) ∗ (((c : Thread nD τ).loc main_v4) ↦{fullShare} Fa 3)) := by
  unfold Dat.arrays
  rw [bigSep_W1, (arr_whole1 0).set_eq_univ, (arr_whole1 2).set_eq_univ, (arr_whole1 3).set_eq_univ]
  rfl

/-- ENTRY: every unscoped buffer at contents `Vc` gives the region's arrays at those contents — the projected queries split
    between the query window and the key window — and the unscoped rest. -/
theorem arrays_in (c : Dev nD) :
    (unscopedBufs (Ix := Unit) (Name := ℕ) (U := UR sig nD τ) (Lvl := ℕ) c (V c) : sProp 𝕄)
      ⊢ iprop((Attn.dat1 V c).arrays ((Attn.dat1 V c).arrAt · 0) ∗ Pipeline.unscopedRest spec1 c (V c)) := by
  rw [ubufs1_split, arrBufs1_eq, arrays1_eq]
  iintro ⟨⟨H3, H0, H4⟩, Hrest⟩
  ihave Hs := (pointsTo_share halves).1 $$ H3
  icases Hs with ⟨Hl, Hr⟩
  isplitr [Hrest]
  · isplitl [Hl]; · iexact Hl
    isplitl [Hr]; · iexact Hr
    isplitl [H0]; · iexact H0
    iexact H4
  iexact Hrest

end Shared

section SharedOut
variable (V : (c : Dev nD) → (b : Ref sig .tc) → Buf (Elt F) ((c : Thread nD τ).loc b))

/-- EXIT: the region's arrays after every write-back — the two input windows' halves of the projected queries, unchanged,
    joined again — and the unscoped rest are every unscoped buffer at any contents `V'` that has the output array at what
    the write-backs leave and agrees with the entry contents elsewhere. -/
theorem arrays_out (c : Dev nD) (V' : (b : Ref sig .tc) → Buf (Elt F) ((c : Thread nD τ).loc b))
    (hout : V' main_v4 = (Attn.dat1 V c).arrAt 3 cfg1.N) (hrest : ∀ b, b ≠ main_v4 → V' b = V c b) :
    iprop((Attn.dat1 V c).arrays ((Attn.dat1 V c).arrAt · cfg1.N) ∗ Pipeline.unscopedRest spec1 c (V c))
      ⊢ (unscopedBufs (Ix := Unit) (Name := ℕ) (U := UR sig nD τ) (Lvl := ℕ) c V' : sProp 𝕄) := by
  rw [ubufs1_split, arrBufs1_eq, arrays1_eq,
    show (Attn.dat1 V c).arrAt 0 cfg1.N = V c main_v3 from ((Attn.dat1 V c).arrAt_in 0 rfl _).trans (Attn.A_eq V c 0),
    show (Attn.dat1 V c).arrAt 1 cfg1.N = V c main_v3 from ((Attn.dat1 V c).arrAt_in 1 rfl _).trans (Attn.A_eq V c 1),
    show (Attn.dat1 V c).arrAt 2 cfg1.N = V c main_arg0 from ((Attn.dat1 V c).arrAt_in 2 rfl _).trans (Attn.A_eq V c 2),
    hout, hrest main_v3 (by decide), hrest main_arg0 (by decide),
    show (Pipeline.unscopedRest (Ix := Unit) (Name := ℕ) (U := UR sig nD τ) (Lvl := ℕ) spec1 c V' : sProp 𝕄) = Pipeline.unscopedRest spec1 c (V c) from by
      unfold Pipeline.unscopedRest
      exact bigSep_congr fun b hb => by
        rw [hrest b (fun e => (Finset.mem_sdiff.mp hb).2 (Finset.mem_image.mpr ⟨3, Finset.mem_univ _, e.symm⟩))]]
  iintro ⟨⟨Hl, Hr, H0, H4⟩, Hrest⟩
  ihave H3 := (pointsTo_share halves).2 $$ [Hl Hr]
  · isplitl [Hl]; · iexact Hl
    iexact Hr
  isplitr [Hrest]
  · isplitl [H3]; · iexact H3
    isplitl [H0]; · iexact H0
    iexact H4
  iexact Hrest

end SharedOut

variable (m : (ℓ : Loc nD τ sig) → Buf (Elt F) ℓ) (ρ : Dev nD → PrngReg)

/-! ## The buffer contents at each boundary -/

abbrev W0 : Dev nD → Valuation τ sig (Elt F) := fun c b => m ((c : Dev nD), b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the projection region: the projected queries at what its write-backs leave. -/
def W2 (c : Dev nD) : Valuation τ sig (Elt F) :=
  Function.update (W1 m c) (Proc.devRef .tc main_v2) ((Proj.dat0 (V1 m) c).arrAt 3 cfg0.N)
abbrev V2 : (c : Dev nD) → (b : Ref sig .tc) → Buf (Elt F) ((c : Thread nD τ).loc b) := fun c b => W2 m c b
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the attention region: the attention output at what its write-backs leave. -/
def W4 (c : Dev nD) : Valuation τ sig (Elt F) :=
  Function.update (W3 m c) (Proc.devRef .tc main_v4) ((Attn.dat1 (V3 m) c).arrAt 3 cfg1.N)
abbrev V4 : (c : Dev nD) → (b : Ref sig .tc) → Buf (Elt F) ((c : Thread nD τ).loc b) := fun c b => W4 m c b
abbrev W5 : Dev nD → Valuation τ sig (Elt F) := fun c => StableHlo.after hostOps2 (W4 m c)

theorem W2_out (c : Dev nD) : W2 m c (Proc.devRef .tc main_v2) = (Proj.dat0 (V1 m) c).arrAt 3 cfg0.N := by
  unfold W2; exact Function.update_self ..
theorem W2_of_ne (c : Dev nD) (b : Ref sig .tc) (hb : b ≠ main_v2) : W2 m c (Proc.devRef .tc b) = W1 m c (Proc.devRef .tc b) := by
  unfold W2; exact Function.update_of_ne (StableHlo.devRef_ne_of_ne hb) ..
theorem W4_out (c : Dev nD) : W4 m c (Proc.devRef .tc main_v4) = (Attn.dat1 (V3 m) c).arrAt 3 cfg1.N := by
  unfold W4; exact Function.update_self ..
theorem W4_of_ne (c : Dev nD) (b : Ref sig .tc) (hb : b ≠ main_v4) : W4 m c (Proc.devRef .tc b) = W3 m c (Proc.devRef .tc b) := by
  unfold W4; exact Function.update_of_ne (StableHlo.devRef_ne_of_ne hb) ..

/-- A buffer no host operation writes and no region may change reaches the end as launched. -/
theorem W5_keep (c : Dev nD) (r : Ref sig .tc) (h5 : r ∉ hostOps2_W) (h4 : r ≠ main_v4) (h3 : r ∉ hostOps1_W) (h2 : r ≠ main_v2)
    (h1 : r ∉ hostOps0_W) : W5 m c (Proc.devRef .tc r) = m ((c : Thread nD τ).loc r) :=
  (StableHlo.after_of_writes_sub hostOps2 _ hostOps2_writes h5).trans <| (W4_of_ne m c r h4).trans <|
    (StableHlo.after_of_writes_sub hostOps1 _ hostOps1_writes h3).trans <| (W2_of_ne m c r h2).trans <|
    (StableHlo.after_of_writes_sub hostOps0 _ hostOps0_writes h1).trans rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => Proj.dat0 (V1 m) c
  | ⟨1, _⟩ => fun c => Attn.dat1 (V3 m) c
abbrev 𝒱₀ : Variants := Variants.none
abbrev L : GSem nD τ sig → Finset Unit := fun _ => ∅
abbrev lv : GSem nD τ sig → Unit → ℕ := fun _ _ => 0
/-- What rides beside the buffers: the generator register at some state and the core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-! ## The projection region -/

theorem hF0 (c : Dev nD) (w : Fin cfg0.W) : (Proj.dat0 (V1 m) c).arrAt w cfg0.N = V2 m c (Pipeline.arrRef spec0 w) := by
  match w with
  | ⟨0, _⟩ => exact (((Proj.dat0 (V1 m) c).arrAt_in 0 rfl _).trans (Proj.A_eq0 (V1 m) c 0)).trans (W2_of_ne m c main_v1 (by decide)).symm
  | ⟨1, _⟩ => exact (((Proj.dat0 (V1 m) c).arrAt_in 1 rfl _).trans (Proj.A_eq0 (V1 m) c 1)).trans (W2_of_ne m c main_v0 (by decide)).symm
  | ⟨2, _⟩ => exact (((Proj.dat0 (V1 m) c).arrAt_in 2 rfl _).trans (Proj.A_eq0 (V1 m) c 2)).trans (W2_of_ne m c main_arg2 (by decide)).symm
  | ⟨3, _⟩ => exact (W2_out m c).symm
theorem hrest0 (c : Dev nD) : ∀ b, b ∉ Finset.univ.image (Pipeline.arrRef spec0) → V2 m c b = V1 m c b :=
  fun b hb => W2_of_ne m c b fun e => hb (Finset.mem_image.mpr ⟨3, Finset.mem_univ _, e.symm⟩)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The attention region -/

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Attn.body_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := arrays_in (V3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (Attn.phi_in (V3 m) c)
    unfold Pipeline.ΦA
    iintro ⟨Hp, -, Hr⟩
    isplitl [Hr]; · iexact Hr
    iexact Hp
  hout c := by
    rw [Pipeline.ownSems0_none]
    refine (Attn.phi_out (V3 m) c).trans ?_
    unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest (Ix := Unit) (Name := ℕ) (U := UR sig nD τ) (Lvl := ℕ) spec1 c (V3 m c))
        ⊢ (unscopedBufs (Ix := Unit) (Name := ℕ) (U := UR sig nD τ) (Lvl := ℕ) c (V4 m c) : sProp 𝕄) :=
      arrays_out (V3 m) c (V4 m c) (W4_out m c) (fun b hb => W4_of_ne m c b hb)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
theorem main_run (c : Dev nD) : main (F := F) c = Pipeline.Seg.run (segs m) := (main_chain c).trans (by chain_rfl)

set_option backward.isDefEq.respectTransparency.types false in
/-- Every weakly fair execution of @main from memory `m` with zero counters terminates, and every final memory holds every
    unscoped buffer at the last boundary's contents: in particular the result, and each argument as launched. -/
theorem run : θ_run defs (onTc (τ := τ) (main (F := F))) ⟨m, fun _ => 0, ρ⟩ (fun r => ∀ c : Dev nD,
      r.2.mem ((c.tc : Thread nD τ).loc main_v5) = W5 m c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c)
        ⊢ iprop(Tₙ m c ∗ ∃ W, owes (c : Thread nD τ) (0 : CellTallies nD τ sig Unit) W)
      iintro ⟨Hh, Hp, HO⟩
      isplitr [HO]
      · isplitl [Hh]; · iexact Hh
        iexact Hp
      · iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c =>
      ⟨h c _ (mem_uc main_v5 (by decide)),
       (h c _ (mem_uc main_arg0 (by decide))).trans (W5_keep m c main_arg0 (by decide) (by decide) (by decide) (by decide) (by decide)),
       (h c _ (mem_uc main_arg1 (by decide))).trans (W5_keep m c main_arg1 (by decide) (by decide) (by decide) (by decide) (by decide)),
       (h c _ (mem_uc main_arg2 (by decide))).trans (W5_keep m c main_arg2 (by decide) (by decide) (by decide) (by decide) (by decide))⟩)

end Cert.Kernel.Whole

end
-- ==== Proof.Proj.Payload.lean ====
/-
  The projection body's arithmetic read at one element, at the ideal values: the block of activations times the
  transposed weight, contracted over the 512 input features, plus the bias of the output feature.  The format
  changes to bf16 before the product are the identity on the extended reals, the product accumulates into the zero
  splat, and the bias is laid along the rows by a unit leading axis and a broadcast.
-/
import proofs.«131597_j62620623175753_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Proj

open Cert.KernelIdeal Cert.KernelIdeal.Gen Idealize.ShloMosaic Idealize.ShloMosaic.ValueIdx
open scoped BigOperators

/-! ## The product's operand indices: (row, k) on the left, (k, column) on the right -/

theorem lhs_row (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem lhs_contr (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
theorem rhs_contr (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
theorem rhs_col (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- The product into the zero splat, at row p and column e: the sum over the 512 features k of left (p, k) times
    right (k, e). -/
theorem matmul_at {φ₁ φ₂ : FTy} (x : FVec Ideal S1024x512 φ₁) (w : FVec Ideal S512x512 φ₂) (p : Fin 1024) (e : Fin 512) :
    FloatOps.matmul dot_S1024x512_S512x512_S1024x512_1_0_0_1_n_n none x w (constant (F := Ideal) S1024x512 .f32 0x00000000#32) (ix2 p e)
      = ∑ k : Fin 512, x (ix2 p k) * w (ix2 k e) := by
  rw [Ideal.matmul_constant_zero_apply, ← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 p e) ((contrEquiv1 dot_S1024x512_S512x512_S1024x512_1_0_0_1_n_n 512 rfl rfl).symm k) = ix2 p k := funext fun a => Fin.ext (by
    match a with
    | ⟨0, _⟩ => exact lhs_row _ _
    | ⟨1, _⟩ => exact (lhs_contr _ _).trans hk)
  have er : dot_S1024x512_S512x512_S1024x512_1_0_0_1_n_n.rhsIdx (ix2 p e) ((contrEquiv1 dot_S1024x512_S512x512_S1024x512_1_0_0_1_n_n 512 rfl rfl).symm k) = ix2 k e := funext fun a => Fin.ext (by
    match a with
    | ⟨0, _⟩ => exact (rhs_contr _ _).trans hk
    | ⟨1, _⟩ => exact rhs_col _ _)
  rw [el, er]

/-- The body's payload at row p and column e of the block: the activations' row p times the weight's column e,
    plus the bias at e. -/
theorem pay_at (x : Vec Ideal S1024x512 .f32) (w : Vec Ideal S512x512 .f32) (b : Vec Ideal S512 .f32) (p : Fin 1024) (e : Fin 512) :
    k0_pay1 (F := Ideal) x w b (ix2 p e) = (∑ k : Fin 512, x (ix2 p k) * w (ix2 k e)) + b (ix1 e) := by
  unfold k0_pay1
  rw [addf_apply, broadcastTo_1b_ab_apply, shapeCast_a_1a_apply]
  congr 1
  simp only [matmul]
  rw [matmul_at]
  refine Finset.sum_congr rfl fun k _ => ?_
  rw [truncf_apply, truncf_apply, shapeCast_self, shapeCast_self]

end Cert.KernelIdeal.Proj

end
-- ==== Proof.Proj.Value.lean ====
/-
  What the query projection leaves in its output array, at the ideal values: every grid point writes back block t of
  ONE function of the three arrays the pipeline finds — the activations x (16384×512), the transposed weight w
  (512×512) and the bias b —, namely row r, feature e ↦ (∑ k, x (r, k) · w (k, e)) + b e; the sixteen blocks of 1024
  rows tile the array, so after the last point the array is that function.
-/
import proofs.«131597_j62620623175753_2_alg».proof.Proof.Proj.Body
import proofs.«131597_j62620623175753_2_alg».proof.Proof.Proj.Payload
import Idealize.ShloMosaic.Lib.Pipeline.Value

set_option maxRecDepth 16384

noncomputable section

namespace Cert.KernelIdeal.Proj

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- The projected queries as one function of the activations, the transposed weight and the bias. -/
def projArr (x : S16384x512.Idx → EReal) (w : S512x512.Idx → EReal) (b : S512.Idx → EReal) : S16384x512.Idx → EReal :=
  fun i => (∑ k : Fin 512, x (ix2 (i 0) k) * w (ix2 k (i 1))) + b (ix1 (i 1))

theorem projArr_ix2 (x : S16384x512.Idx → EReal) (w : S512x512.Idx → EReal) (b : S512.Idx → EReal) (r : Fin 16384) (e : Fin 512) :
    projArr x w b (ix2 r e) = (∑ k : Fin 512, x (ix2 r k) * w (ix2 k e)) + b (ix1 e) := rfl

theorem zeros2 : (![0, 0] : Fin 2 → Nat) = fun _ => 0 := funext fun a => by fin_cases a <;> rfl
theorem zeros1 : (![0] : Fin 1 → Nat) = fun _ => 0 := funext fun a => by fin_cases a; rfl

/-- The body's output block at row p and feature e, from the three loaded blocks. -/
theorem projBlock_at (x : Vec Ideal S1024x512 .f32) (w : Vec Ideal S512x512 .f32) (b : Vec Ideal S512 .f32) (p : Fin 1024) (e : Fin 512) :
    projBlock (F := Ideal) x w b (ix2 p e) = (∑ k : Fin 512, x (ix2 p k) * w (ix2 k e)) + b (ix1 e) := by
  unfold projBlock
  rw [View.canon_unit_zero zeros2]
  simp only [View.ld_unit_zero (S := S1024x512) zeros2, View.ld_unit_zero (S := S512x512) zeros2, View.ld_unit_zero (S := S512) zeros1]
  exact pay_at x w b p e

/-- The printed index maps over the grid: the activations' and the output's block of rows is the point's own, the
    weight and the bias are one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- What point t writes back is block t of the projected array. -/
theorem flushed_proj (c : Dev nD) (t : Fin cfg0.N) :
    (dat0 V c).flushed 3 t = ((cfg0.win 3).blk t).view.read (Elt Ideal) (projArr (V c main_v1) (V c main_v0) (V c main_arg2)) := by
  show (cfg0.win 3).cut (grid0.coords t) ((dat0 V c).after 3 t) = _
  rw [after_proj]
  obtain ⟨e0, e1, e2, e3, e4, e5, e6⟩ := idx_facts t
  have ht : t.val < 16 := by have h : t.val < grid0.N := t.isLt; rw [N_0] at h; exact h
  funext j
  obtain ⟨p, e, rfl⟩ : ∃ (p : Fin 1024) (e : Fin 512), j = ix2 p e := ⟨j 0, j 1, eq_ix2 j⟩
  refine (projBlock_at (blockAt V c 0 t) (blockAt V c 1 t) (blockAt V c 2 t) p e).trans ?_
  let X : S16384x512.Idx → EReal := V c main_v1
  let W : S512x512.Idx → EReal := V c main_v0
  let B : S512.Idx → EReal := V c main_arg2
  show (∑ k : Fin 512, X (((cfg0.win 0).blk t).view.emb (ix2 p k)) * W (((cfg0.win 1).blk t).view.emb (ix2 k e)))
      + B (((cfg0.win 2).blk t).view.emb (ix1 e))
    = projArr X W B (((cfg0.win 3).blk t).view.emb (ix2 p e))
  have h3 : ((cfg0.win 3).blk t).view.emb (ix2 p e) = ix2 (⟨t.val * 1024 + p.val, by omega⟩ : Fin 16384) e := by
    funext a; apply Fin.ext
    match a with
    | ⟨0, _⟩ => show win0_3.index t (0 : Fin 2) * 1024 + 1 * p.val = t.val * 1024 + p.val; omega
    | ⟨1, _⟩ => show win0_3.index t (1 : Fin 2) * 512 + 1 * e.val = e.val; omega
  have h0 : ∀ k : Fin 512, ((cfg0.win 0).blk t).view.emb (ix2 p k) = ix2 (⟨t.val * 1024 + p.val, by omega⟩ : Fin 16384) k := fun k => by
    funext a; apply Fin.ext
    match a with
    | ⟨0, _⟩ => show win0_0.index t (0 : Fin 2) * 1024 + 1 * p.val = t.val * 1024 + p.val; omega
    | ⟨1, _⟩ => show win0_0.index t (1 : Fin 2) * 512 + 1 * k.val = k.val; omega
  have h1 : ∀ k : Fin 512, ((cfg0.win 1).blk t).view.emb (ix2 k e) = ix2 k e := fun k => by
    funext a; apply Fin.ext
    match a with
    | ⟨0, _⟩ => show win0_1.index t (0 : Fin 2) * 512 + 1 * k.val = k.val; omega
    | ⟨1, _⟩ => show win0_1.index t (1 : Fin 2) * 512 + 1 * e.val = e.val; omega
  have h2 : ((cfg0.win 2).blk t).view.emb (ix1 e) = ix1 e := by
    funext a; apply Fin.ext
    match a with
    | ⟨0, _⟩ => show win0_2.index t (0 : Fin 1) * 512 + 1 * e.val = e.val; omega
  rw [h3, h2, projArr_ix2]
  simp only [h0, h1]

/-- An index of the output array is in point t's block iff each coordinate is in the block's range on its axis. -/
theorem mem_blk_proj (t : Fin cfg0.N) (i : S16384x512.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v2).slice (win0_3.rect t)).set ↔ _
  rw [View.set_slice_whole, Rect.mem_set_unit]
  exact Iff.rfl

/-- Row r is in the block of point r / 1024, which writes back. -/
theorem cover_proj (i : S16384x512.Idx) : ∃ t : Fin cfg0.N, (cfg0.win 3).flush t = true ∧ i ∈ ((cfg0.win 3).blk t).view.set := by
  have hi0 : (i 0).val < 16384 := idx2_lt0 i
  have hi1 : (i 1).val < 512 := idx2_lt1 i
  let t : Fin cfg0.N := ⟨(i 0).val / 1024, by have := N_0; show (i 0).val / 1024 < grid0.N; omega⟩
  obtain ⟨e0, e1, e2, e3, e4, e5, e6⟩ := idx_facts t
  have htv : t.val = (i 0).val / 1024 := rfl
  refine ⟨t, flush0_3 t, ?_⟩
  rw [mem_blk_proj]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- The output array after the last point: the projected queries of the arrays the pipeline found. -/
theorem arrAt_proj (c : Dev nD) :
    (dat0 V c).arrAt 3 cfg0.N = projArr (V c main_v1) (V c main_v0) (V c main_arg2) :=
  (dat0 V c).arrAt_eq_of_cover 3 _ (fun t _ => flushed_proj V c t) cover_proj

end Cert.KernelIdeal.Proj

end
-- ==== Proof.Attn.Pieces.lean ====
/-
  What the attention body leaves in its three running buffers (row maximum, row sum, accumulator) and, at the last key
  block, in the output block, read back as values: each is the one covering store's payload over the loaded blocks and
  over what the buffers held — the reset values when the key block is the first.
-/
import proofs.«131597_j62620623175753_2_alg».proof.Proof.Attn.Frame
import Idealize.ShloMosaic.Lib.Pipeline.Value

set_option maxRecDepth 16384

noncomputable section

namespace Cert.KernelIdeal.Attn

open Idealize.ShloMosaic Idealize.ShloMosaic.TcCoe Idealize.ShloMosaic.Tactic
open Idealize.SL Idealize.SL.Sem
open Cert.KernelIdeal Cert.KernelIdeal.Gen

variable {F : FTy → Type} [FloatOps F] [Named F]

theorem zeros2 : (![0, 0] : Fin 2 → Nat) = fun _ => 0 := funext fun a => by fin_cases a <;> rfl
theorem zeros3 : (![0, 0, 0] : Fin 3 → Nat) = fun _ => 0 := funext fun a => by fin_cases a <;> rfl

/-! ## The first key block: over the reset values -/

theorem first_max (c : Dev nD) (t : Fin cfg1.N) (h0 : firstKv (grid1.coords t)) (h1 : ¬lastKv (grid1.coords t)) (x0 x1 x2 : Vec F S1x1024x512 .f32) :
    (firstSt c t h0 h1 x0 x1 x2).2.1 = k1_pay2 (k1_pay8 x0 x1 k1_pay4) := by
  unfold firstSt
  dsimp only
  rw [View.read_writes_eq_canon _ _ _ (firstCover0 c t h0 h1 x0 x1 x2)]
  unfold runFirst
  dsimp only
  sl_unfold_words
  rw [View.canon_cons_unit_zero zeros2]
  simp only [View.readAt_eq_ld, (qW t).read_unread, (kW t).read_unread, (vW t).read_unread, (oW t).read_unread, (Memref.isWhole_whole cc1_scratch0).read_unread, (Memref.isWhole_whole cc1_scratch1).read_unread, (Memref.isWhole_whole cc1_scratch2).read_unread, View.ld_unit_zero (S := S1x1024x512) zeros3, View.ld_unit_zero (S := S1024x1) zeros2, View.ld_unit_zero (S := S1024x512) zeros2, View.readCov_unit_zero (S := S1024x1) _ zeros2, View.readCov_unit_zero (S := S1024x512) _ zeros2, View.readCov_unit_zero (S := S1x1024x512) _ zeros3]

theorem first_sum (c : Dev nD) (t : Fin cfg1.N) (h0 : firstKv (grid1.coords t)) (h1 : ¬lastKv (grid1.coords t)) (x0 x1 x2 : Vec F S1x1024x512 .f32) :
    (firstSt c t h0 h1 x0 x1 x2).2.2.1 = k1_pay11 x0 x1 k1_pay4 k1_pay4 k1_pay5 := by
  unfold firstSt
  dsimp only
  rw [View.read_writes_eq_canon _ _ _ (firstCover1 c t h0 h1 x0 x1 x2)]
  unfold runFirst
  dsimp only
  sl_unfold_words
  rw [View.canon_cons_unit_zero zeros2]
  simp only [View.readAt_eq_ld, (qW t).read_unread, (kW t).read_unread, (vW t).read_unread, (oW t).read_unread, (Memref.isWhole_whole cc1_scratch0).read_unread, (Memref.isWhole_whole cc1_scratch1).read_unread, (Memref.isWhole_whole cc1_scratch2).read_unread, View.ld_unit_zero (S := S1x1024x512) zeros3, View.ld_unit_zero (S := S1024x1) zeros2, View.ld_unit_zero (S := S1024x512) zeros2, View.readCov_unit_zero (S := S1024x1) _ zeros2, View.readCov_unit_zero (S := S1024x512) _ zeros2, View.readCov_unit_zero (S := S1x1024x512) _ zeros3]

theorem first_acc (c : Dev nD) (t : Fin cfg1.N) (h0 : firstKv (grid1.coords t)) (h1 : ¬lastKv (grid1.coords t)) (x0 x1 x2 : Vec F S1x1024x512 .f32) :
    (firstSt c t h0 h1 x0 x1 x2).2.2.2 = k1_pay1 (k1_pay9 x0 x1 k1_pay4 k1_pay4) (k1_pay10 x0 x1 k1_pay4) x2 k1_pay6 := by
  unfold firstSt
  dsimp only
  rw [View.read_writes_eq_canon _ _ _ (firstCover2 c t h0 h1 x0 x1 x2)]
  unfold runFirst
  dsimp only
  sl_unfold_words
  rw [View.canon_cons_unit_zero zeros2]
  simp only [View.readAt_eq_ld, (qW t).read_unread, (kW t).read_unread, (vW t).read_unread, (oW t).read_unread, (Memref.isWhole_whole cc1_scratch0).read_unread, (Memref.isWhole_whole cc1_scratch1).read_unread, (Memref.isWhole_whole cc1_scratch2).read_unread, View.ld_unit_zero (S := S1x1024x512) zeros3, View.ld_unit_zero (S := S1024x1) zeros2, View.ld_unit_zero (S := S1024x512) zeros2, View.readCov_unit_zero (S := S1024x1) _ zeros2, View.readCov_unit_zero (S := S1024x512) _ zeros2, View.readCov_unit_zero (S := S1x1024x512) _ zeros3]

/-! ## A middle key block: over what the point before left -/

theorem mid_max (c : Dev nD) (t : Fin cfg1.N) (h0 : ¬firstKv (grid1.coords t)) (h1 : ¬lastKv (grid1.coords t)) (x0 x1 x2 : Vec F S1x1024x512 .f32) (xs0 xs1 : Vec F S1024x1 .f32) (xs2 : Vec F S1024x512 .f32) :
    (midSt c t h0 h1 x0 x1 x2 xs0 xs1 xs2).2.1 = k1_pay2 (k1_pay8 x0 x1 xs0) := by
  unfold midSt
  dsimp only
  rw [View.read_writes_eq_canon _ _ _ (midCover0 c t h0 h1 x0 x1 x2 xs0 xs1 xs2)]
  unfold runMid
  dsimp only
  sl_unfold_words
  rw [View.canon_unit_zero zeros2]
  simp only [View.readAt_eq_ld, (qW t).read_unread, (kW t).read_unread, (vW t).read_unread, (oW t).read_unread, (Memref.isWhole_whole cc1_scratch0).read_unread, (Memref.isWhole_whole cc1_scratch1).read_unread, (Memref.isWhole_whole cc1_scratch2).read_unread, View.ld_unit_zero (S := S1x1024x512) zeros3, View.ld_unit_zero (S := S1024x1) zeros2, View.ld_unit_zero (S := S1024x512) zeros2, View.readCov_unit_zero (S := S1024x1) _ zeros2, View.readCov_unit_zero (S := S1024x512) _ zeros2, View.readCov_unit_zero (S := S1x1024x512) _ zeros3]

theorem mid_sum (c : Dev nD) (t : Fin cfg1.N) (h0 : ¬firstKv (grid1.coords t)) (h1 : ¬lastKv (grid1.coords t)) (x0 x1 x2 : Vec F S1x1024x512 .f32) (xs0 xs1 : Vec F S1024x1 .f32) (xs2 : Vec F S1024x512 .f32) :
    (midSt c t h0 h1 x0 x1 x2 xs0 xs1 xs2).2.2.1 = k1_pay11 x0 x1 xs0 xs0 xs1 := by
  unfold midSt
  dsimp only
  rw [View.read_writes_eq_canon _ _ _ (midCover1 c t h0 h1 x0 x1 x2 xs0 xs1 xs2)]
  unfold runMid
  dsimp only
  sl_unfold_words
  rw [View.canon_unit_zero zeros2]
  simp only [View.readAt_eq_ld, (qW t).read_unread, (kW t).read_unread, (vW t).read_unread, (oW t).read_unread, (Memref.isWhole_whole cc1_scratch0).read_unread, (Memref.isWhole_whole cc1_scratch1).read_unread, (Memref.isWhole_whole cc1_scratch2).read_unread, View.ld_unit_zero (S := S1x1024x512) zeros3, View.ld_unit_zero (S := S1024x1) zeros2, View.ld_unit_zero (S := S1024x512) zeros2, View.readCov_unit_zero (S := S1024x1) _ zeros2, View.readCov_unit_zero (S := S1024x512) _ zeros2, View.readCov_unit_zero (S := S1x1024x512) _ zeros3]

theorem mid_acc (c : Dev nD) (t : Fin cfg1.N) (h0 : ¬firstKv (grid1.coords t)) (h1 : ¬lastKv (grid1.coords t)) (x0 x1 x2 : Vec F S1x1024x512 .f32) (xs0 xs1 : Vec F S1024x1 .f32) (xs2 : Vec F S1024x512 .f32) :
    (midSt c t h0 h1 x0 x1 x2 xs0 xs1 xs2).2.2.2 = k1_pay1 (k1_pay9 x0 x1 xs0 xs0) (k1_pay10 x0 x1 xs0) x2 xs2 := by
  unfold midSt
  dsimp only
  rw [View.read_writes_eq_canon _ _ _ (midCover2 c t h0 h1 x0 x1 x2 xs0 xs1 xs2)]
  unfold runMid
  dsimp only
  sl_unfold_words
  rw [View.canon_unit_zero zeros2]
  simp only [View.readAt_eq_ld, (qW t).read_unread, (kW t).read_unread, (vW t).read_unread, (oW t).read_unread, (Memref.isWhole_whole cc1_scratch0).read_unread, (Memref.isWhole_whole cc1_scratch1).read_unread, (Memref.isWhole_whole cc1_scratch2).read_unread, View.ld_unit_zero (S := S1x1024x512) zeros3, View.ld_unit_zero (S := S1024x1) zeros2, View.ld_unit_zero (S := S1024x512) zeros2, View.readCov_unit_zero (S := S1024x1) _ zeros2, View.readCov_unit_zero (S := S1024x512) _ zeros2, View.readCov_unit_zero (S := S1x1024x512) _ zeros3]

/-! ## The last key block: the same, and the output block the accumulator over the row sum -/

theorem last_max (c : Dev nD) (t : Fin cfg1.N) (h0 : ¬firstKv (grid1.coords t)) (h1 : lastKv (grid1.coords t)) (x0 x1 x2 : Vec F S1x1024x512 .f32) (xs0 xs1 : Vec F S1024x1 .f32) (xs2 : Vec F S1024x512 .f32) :
    (lastSt c t h0 h1 x0 x1 x2 xs0 xs1 xs2).2.1 = k1_pay2 (k1_pay8 x0 x1 xs0) := by
  unfold lastSt
  dsimp only
  rw [View.read_writes_eq_canon _ _ _ (lastCover0 c t h0 h1 x0 x1 x2 xs0 xs1 xs2)]
  unfold runLast
  dsimp only
  sl_unfold_words
  rw [View.canon_unit_zero zeros2]
  simp only [View.readAt_eq_ld, (qW t).read_unread, (kW t).read_unread, (vW t).read_unread, (oW t).read_unread, (Memref.isWhole_whole cc1_scratch0).read_unread, (Memref.isWhole_whole cc1_scratch1).read_unread, (Memref.isWhole_whole cc1_scratch2).read_unread, View.ld_unit_zero (S := S1x1024x512) zeros3, View.ld_unit_zero (S := S1024x1) zeros2, View.ld_unit_zero (S := S1024x512) zeros2, View.readCov_unit_zero (S := S1024x1) _ zeros2, View.readCov_unit_zero (S := S1024x512) _ zeros2, View.readCov_unit_zero (S := S1x1024x512) _ zeros3]

theorem last_sum (c : Dev nD) (t : Fin cfg1.N) (h0 : ¬firstKv (grid1.coords t)) (h1 : lastKv (grid1.coords t)) (x0 x1 x2 : Vec F S1x1024x512 .f32) (xs0 xs1 : Vec F S1024x1 .f32) (xs2 : Vec F S1024x512 .f32) :
    (lastSt c t h0 h1 x0 x1 x2 xs0 xs1 xs2).2.2.1 = k1_pay11 x0 x1 xs0 xs0 xs1 := by
  unfold lastSt
  dsimp only
  rw [View.read_writes_eq_canon _ _ _ (lastCover1 c t h0 h1 x0 x1 x2 xs0 xs1 xs2)]
  unfold runLast
  dsimp only
  sl_unfold_words
  rw [View.canon_unit_zero zeros2]
  simp only [View.readAt_eq_ld, (qW t).read_unread, (kW t).read_unread, (vW t).read_unread, (oW t).read_unread, (Memref.isWhole_whole cc1_scratch0).read_unread, (Memref.isWhole_whole cc1_scratch1).read_unread, (Memref.isWhole_whole cc1_scratch2).read_unread, View.ld_unit_zero (S := S1x1024x512) zeros3, View.ld_unit_zero (S := S1024x1) zeros2, View.ld_unit_zero (S := S1024x512) zeros2, View.readCov_unit_zero (S := S1024x1) _ zeros2, View.readCov_unit_zero (S := S1024x512) _ zeros2, View.readCov_unit_zero (S := S1x1024x512) _ zeros3]

theorem last_acc (c : Dev nD) (t : Fin cfg1.N) (h0 : ¬firstKv (grid1.coords t)) (h1 : lastKv (grid1.coords t)) (x0 x1 x2 : Vec F S1x1024x512 .f32) (xs0 xs1 : Vec F S1024x1 .f32) (xs2 : Vec F S1024x512 .f32) :
    (lastSt c t h0 h1 x0 x1 x2 xs0 xs1 xs2).2.2.2 = k1_pay1 (k1_pay9 x0 x1 xs0 xs0) (k1_pay10 x0 x1 xs0) x2 xs2 := by
  unfold lastSt
  dsimp only
  rw [View.read_writes_eq_canon _ _ _ (lastCover2 c t h0 h1 x0 x1 x2 xs0 xs1 xs2)]
  unfold runLast
  dsimp only
  sl_unfold_words
  rw [View.canon_unit_zero zeros2]
  simp only [View.readAt_eq_ld, (qW t).read_unread, (kW t).read_unread, (vW t).read_unread, (oW t).read_unread, (Memref.isWhole_whole cc1_scratch0).read_unread, (Memref.isWhole_whole cc1_scratch1).read_unread, (Memref.isWhole_whole cc1_scratch2).read_unread, View.ld_unit_zero (S := S1x1024x512) zeros3, View.ld_unit_zero (S := S1024x1) zeros2, View.ld_unit_zero (S := S1024x512) zeros2, View.readCov_unit_zero (S := S1024x1) _ zeros2, View.readCov_unit_zero (S := S1024x512) _ zeros2, View.readCov_unit_zero (S := S1x1024x512) _ zeros3]

theorem last_out (c : Dev nD) (t : Fin cfg1.N) (h0 : ¬firstKv (grid1.coords t)) (h1 : lastKv (grid1.coords t)) (x0 x1 x2 : Vec F S1x1024x512 .f32) (xs0 xs1 : Vec F S1024x1 .f32) (xs2 : Vec F S1024x512 .f32) :
    (lastSt c t h0 h1 x0 x1 x2 xs0 xs1 xs2).1 = k1_pay3 (k1_pay1 (k1_pay9 x0 x1 xs0 xs0) (k1_pay10 x0 x1 xs0) x2 xs2) (k1_pay11 x0 x1 xs0 xs0 xs1) := by
  unfold lastSt
  dsimp only
  rw [View.read_writes_eq_canon _ _ _ (lastCoverO c t h0 h1 x0 x1 x2 xs0 xs1 xs2)]
  unfold runLast
  dsimp only
  sl_unfold_words
  rw [View.canon_unit_zero zeros3]
  simp only [View.readAt_eq_ld, (qW t).read_unread, (kW t).read_unread, (vW t).read_unread, (oW t).read_unread, (Memref.isWhole_whole cc1_scratch0).read_unread, (Memref.isWhole_whole cc1_scratch1).read_unread, (Memref.isWhole_whole cc1_scratch2).read_unread, View.ld_unit_zero (S := S1x1024x512) zeros3, View.ld_unit_zero (S := S1024x1) zeros2, View.ld_unit_zero (S := S1024x512) zeros2, View.readCov_unit_zero (S := S1024x1) _ zeros2, View.readCov_unit_zero (S := S1024x512) _ zeros2, View.readCov_unit_zero (S := S1x1024x512) _ zeros3]

end Cert.KernelIdeal.Attn

end
-- ==== Proof.LibOnlineSoftmax.lean ====
/-
  Online softmax. A row of scores is met one block of columns at a time; a running state keeps the
  greatest score so far, the sum of the exponentials of the scores less that maximum, and the sum of
  those exponentials times a value per column. When a new block raises the maximum the two sums are
  rescaled by the exponential of the old maximum less the new one. After the last block the quotient
  of the two sums is the softmax-weighted sum of the values over the whole row, with the maximum
  taken over the whole row: that is `run_div`.

  Everything is stated over the extended reals with the exponential and the quotient of
  `Idealize.ShloMosaic.Ideal`, for real scores and values (their coercions), so that the state before
  the first block, `(⊥, 0, 0)`, is a state like any other: `exp ⊥ = 0`.
-/
import Mathlib.Data.EReal.Operations
import Mathlib.Analysis.SpecialFunctions.Exp
import Mathlib.Data.Finset.Lattice.Prod
import Mathlib.Algebra.BigOperators.Fin
import Idealize.ShloMosaic.PureOps.Ideal

noncomputable section

namespace OnlineSoftmax

open Idealize.ShloMosaic
open scoped BigOperators

/-! ## Coercions of finite sums and maxima -/

/-- The coercion of a finite sum of reals is the sum of the coercions. -/
theorem coe_sum {ι : Type} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The coercion of the greater of two reals is the greater of the coercions. -/
theorem coe_max (x y : ℝ) : ((max x y : ℝ) : EReal) = max (x : EReal) (y : EReal) :=
  EReal.coe_strictMono.monotone.map_max

/-- Folding `max` from the bottom element is the supremum. -/
theorem fold_max_eq_sup {ι : Type} (t : Finset ι) (f : ι → EReal) : t.fold max ⊥ f = t.sup f := rfl

/-- The supremum of the coercions of finitely many reals, at least one, is the coercion of their greatest. -/
theorem sup_coe {ι : Type} (t : Finset ι) (ht : t.Nonempty) (f : ι → ℝ) :
    t.sup (fun i => (f i : EReal)) = ((t.sup' ht f : ℝ) : EReal) := by
  rw [← Finset.sup'_eq_sup ht]
  exact (Finset.comp_sup'_eq_sup'_comp ht (fun r : ℝ => (r : EReal)) coe_max).symm

/-- A supremum over the naturals below `n` is the supremum over `Fin n`. -/
theorem sup_range_eq_sup_fin (n : ℕ) (g : ℕ → EReal) :
    (Finset.range n).sup g = Finset.univ.sup fun i : Fin n => g i := by
  apply le_antisymm
  · exact Finset.sup_le fun k hk =>
      Finset.le_sup (f := fun i : Fin n => g i) (Finset.mem_univ (⟨k, Finset.mem_range.1 hk⟩ : Fin n))
  · exact Finset.sup_le fun i _ => Finset.le_sup (f := g) (Finset.mem_range.2 i.isLt)

/-! ## The state and its step -/

variable {C : Type} [Fintype C]

/-- One block of columns (scores `s`, values `v`) folded into the running state: the greatest score,
    the sum of the exponentials, the sum of the exponentials times the values. -/
def step (s v : C → EReal) (st : EReal × EReal × EReal) : EReal × EReal × EReal :=
  let m' := max st.1 (Finset.univ.fold max ⊥ s)
  (m', Ideal.exp (st.1 - m') * st.2.1 + ∑ c, Ideal.exp (s c - m'),
    Ideal.exp (st.1 - m') * st.2.2 + ∑ c, Ideal.exp (s c - m') * v c)

/-- The state after the first `n` blocks, from `(⊥, 0, 0)`. -/
def run (s v : ℕ → C → EReal) : ℕ → EReal × EReal × EReal
  | 0 => (⊥, 0, 0)
  | n + 1 => step (s n) (v n) (run s v n)

theorem run_zero (s v : ℕ → C → EReal) : run s v 0 = (⊥, 0, 0) := rfl

theorem run_succ (s v : ℕ → C → EReal) (n : ℕ) : run s v (n + 1) = step (s n) (v n) (run s v n) := rfl

/-- The state after `n` blocks depends on the first `n` blocks only. -/
theorem run_congr {s v s' v' : ℕ → C → EReal} {n : ℕ} (hs : ∀ k, k < n → s k = s' k) (hv : ∀ k, k < n → v k = v' k) :
    run s v n = run s' v' n := by
  induction n with
  | zero => rfl
  | succ n ih =>
    rw [run_succ, run_succ, hs n (Nat.lt_succ_self n), hv n (Nat.lt_succ_self n),
      ih (fun k hk => hs k (Nat.lt_succ_of_lt hk)) (fun k hk => hv k (Nat.lt_succ_of_lt hk))]

/-! ## A block of real scores -/

/-- The greatest of a block's real scores. -/
def blockMax [Nonempty C] (s : C → ℝ) : ℝ := Finset.univ.sup' Finset.univ_nonempty s

/-- The fold of `max` over a block of real scores is the coercion of its greatest. -/
theorem fold_max_coe [Nonempty C] (s : C → ℝ) :
    Finset.univ.fold max ⊥ (fun c => (s c : EReal)) = (blockMax s : EReal) := by
  rw [fold_max_eq_sup]
  exact sup_coe Finset.univ Finset.univ_nonempty s

/-- The first block: from `(⊥, 0, 0)` the state is the block's own maximum and sums. -/
theorem step_bot [Nonempty C] (s v : C → ℝ) :
    step (fun c => (s c : EReal)) (fun c => (v c : EReal)) (⊥, 0, 0)
      = ((blockMax s : EReal), ((∑ c, Real.exp (s c - blockMax s) : ℝ) : EReal),
          ((∑ c, Real.exp (s c - blockMax s) * v c : ℝ) : EReal)) := by
  have hm : max (⊥ : EReal) (Finset.univ.fold max ⊥ fun c => (s c : EReal)) = (blockMax s : EReal) := by
    rw [fold_max_coe, max_eq_right bot_le]
  unfold step
  dsimp only
  rw [hm, EReal.bot_sub, Ideal.exp_bot, zero_mul, zero_add, zero_add, coe_sum, coe_sum]
  refine Prod.ext rfl (Prod.ext ?_ ?_)
  · exact Finset.sum_congr rfl fun c _ => by rw [← EReal.coe_sub, Ideal.exp_coe]
  · exact Finset.sum_congr rfl fun c _ => by rw [← EReal.coe_sub, Ideal.exp_coe, EReal.coe_mul]

/-- A later block: from a real state the new state is real, the old sums rescaled to the new maximum. -/
theorem step_coe [Nonempty C] (s v : C → ℝ) (m l a : ℝ) :
    step (fun c => (s c : EReal)) (fun c => (v c : EReal)) ((m : EReal), (l : EReal), (a : EReal))
      = (((max m (blockMax s) : ℝ) : EReal),
          ((Real.exp (m - max m (blockMax s)) * l + ∑ c, Real.exp (s c - max m (blockMax s)) : ℝ) : EReal),
          ((Real.exp (m - max m (blockMax s)) * a + ∑ c, Real.exp (s c - max m (blockMax s)) * v c : ℝ) : EReal)) := by
  have hm : max (m : EReal) (Finset.univ.fold max ⊥ fun c => (s c : EReal)) = ((max m (blockMax s) : ℝ) : EReal) := by
    rw [fold_max_coe, coe_max]
  unfold step
  dsimp only
  rw [hm]
  generalize max m (blockMax s) = m'
  rw [EReal.coe_add, EReal.coe_add, EReal.coe_mul, EReal.coe_mul, coe_sum, coe_sum, ← EReal.coe_sub, Ideal.exp_coe]
  refine Prod.ext rfl (Prod.ext ?_ ?_)
  · exact congrArg (_ + ·) (Finset.sum_congr rfl fun c _ => by rw [← EReal.coe_sub, Ideal.exp_coe])
  · exact congrArg (_ + ·) (Finset.sum_congr rfl fun c _ => by rw [← EReal.coe_sub, Ideal.exp_coe, EReal.coe_mul])

/-! ## The invariant -/

/-- Rescaling a sum of exponentials from one reference point to another. -/
theorem rescale_sum {ι : Type} (t : Finset ι) (f : ι → ℝ) (m m' : ℝ) :
    Real.exp (m - m') * ∑ i ∈ t, Real.exp (f i - m) = ∑ i ∈ t, Real.exp (f i - m') := by
  rw [Finset.mul_sum]
  refine Finset.sum_congr rfl fun i _ => ?_
  rw [← Real.exp_add]
  exact congrArg Real.exp (by ring)

/-- Rescaling a weighted sum of exponentials from one reference point to another. -/
theorem rescale_sum_mul {ι : Type} (t : Finset ι) (f w : ι → ℝ) (m m' : ℝ) :
    Real.exp (m - m') * ∑ i ∈ t, Real.exp (f i - m) * w i = ∑ i ∈ t, Real.exp (f i - m') * w i := by
  rw [Finset.mul_sum]
  refine Finset.sum_congr rfl fun i _ => ?_
  rw [← mul_assoc, ← Real.exp_add]
  exact congrArg (· * w i) (congrArg Real.exp (by ring))

/-- The greatest real score among blocks `0, …, n`. -/
def rmax [Nonempty C] (s : ℕ → C → ℝ) : ℕ → ℝ
  | 0 => blockMax (s 0)
  | n + 1 => max (rmax s n) (blockMax (s (n + 1)))

/-- After `n + 1` blocks of real scores and values the state is real: the greatest score so far, and the two
    sums over all columns so far taken relative to it. -/
theorem run_succ_eq [Nonempty C] (s v : ℕ → C → ℝ) (n : ℕ) :
    run (fun k c => (s k c : EReal)) (fun k c => (v k c : EReal)) (n + 1)
      = ((rmax s n : EReal),
          ((∑ k ∈ Finset.range (n + 1), ∑ c, Real.exp (s k c - rmax s n) : ℝ) : EReal),
          ((∑ k ∈ Finset.range (n + 1), ∑ c, Real.exp (s k c - rmax s n) * v k c : ℝ) : EReal)) := by
  induction n with
  | zero =>
    rw [run_succ, run_zero]
    refine (step_bot (s 0) (v 0)).trans ?_
    simp only [rmax, Nat.zero_add, Finset.range_one, Finset.sum_singleton]
  | succ n ih =>
    rw [run_succ, ih]
    refine (step_coe (s (n + 1)) (v (n + 1)) _ _ _).trans ?_
    have hM : rmax s (n + 1) = max (rmax s n) (blockMax (s (n + 1))) := rfl
    rw [hM]
    generalize max (rmax s n) (blockMax (s (n + 1))) = m'
    rw [Finset.sum_range_succ (fun k => ∑ c, Real.exp (s k c - m')) (n + 1),
      Finset.sum_range_succ (fun k => ∑ c, Real.exp (s k c - m') * v k c) (n + 1),
      Finset.mul_sum, Finset.mul_sum]
    refine Prod.ext rfl (Prod.ext ?_ ?_)
    · refine congrArg (fun x : ℝ => (x : EReal)) (congrArg (· + _) (Finset.sum_congr rfl fun k _ => ?_))
      exact rescale_sum Finset.univ (s k) (rmax s n) m'
    · refine congrArg (fun x : ℝ => (x : EReal)) (congrArg (· + _) (Finset.sum_congr rfl fun k _ => ?_))
      exact rescale_sum_mul Finset.univ (s k) (v k) (rmax s n) m'

/-- The greatest real score among blocks `0, …, n` is the supremum of all their coerced scores. -/
theorem rmax_eq_sup [Nonempty C] (s : ℕ → C → ℝ) (n : ℕ) :
    (rmax s n : EReal) = (Finset.range (n + 1)).sup fun k => Finset.univ.sup fun c => (s k c : EReal) := by
  induction n with
  | zero =>
    rw [Finset.range_one, Finset.sup_singleton]
    exact (sup_coe Finset.univ Finset.univ_nonempty (s 0)).symm
  | succ n ih =>
    rw [Finset.range_add_one (n := n + 1), Finset.sup_insert, ← ih]
    have hM : rmax s (n + 1) = max (rmax s n) (blockMax (s (n + 1))) := rfl
    rw [hM, coe_max, max_comm]
    exact congrArg (max · _) (sup_coe Finset.univ Finset.univ_nonempty (s (n + 1))).symm

/-- … and so the fold of `max` over the pairs (block, column). -/
theorem rmax_eq_fold [Nonempty C] (s : ℕ → C → ℝ) (n : ℕ) :
    (rmax s n : EReal)
      = max ⊥ (Finset.univ.fold max ⊥ fun kc : Fin (n + 1) × C => (s kc.1 kc.2 : EReal)) := by
  rw [max_eq_right bot_le, fold_max_eq_sup, rmax_eq_sup, sup_range_eq_sup_fin, ← Finset.univ_product_univ,
    Finset.sup_product_left]

/-- A double sum over the blocks below `n` and the columns is the sum over the pairs. -/
theorem sum_range_sum_eq {M : Type} [AddCommMonoid M] (n : ℕ) (g : ℕ → C → M) :
    ∑ k ∈ Finset.range n, ∑ c, g k c = ∑ kc : Fin n × C, g kc.1 kc.2 := by
  rw [Finset.sum_range, Fintype.sum_prod_type]

/-! ## The result -/

/-- **Online softmax is softmax.** After `n ≥ 1` blocks of real scores `s` and values `v`, the third component
    of the state over the second is the sum over all columns of the softmax weight — the exponential of the
    score less the row maximum `M`, over the sum of those exponentials — times the value. -/
theorem run_div [Nonempty C] (s v : ℕ → C → ℝ) (n : ℕ) (hn : 0 < n) :
    Ideal.div (run (fun k c => (s k c : EReal)) (fun k c => (v k c : EReal)) n).2.2
        (run (fun k c => (s k c : EReal)) (fun k c => (v k c : EReal)) n).2.1
      = ∑ kc : Fin n × C,
          Ideal.div
            (Ideal.exp ((s kc.1 kc.2 : EReal)
              - max ⊥ (Finset.univ.fold max ⊥ fun kc : Fin n × C => (s kc.1 kc.2 : EReal))))
            (0 + ∑ kc' : Fin n × C, Ideal.exp ((s kc'.1 kc'.2 : EReal)
              - max ⊥ (Finset.univ.fold max ⊥ fun kc : Fin n × C => (s kc.1 kc.2 : EReal))))
          * (v kc.1 kc.2 : EReal) := by
  obtain ⟨n, rfl⟩ : ∃ n', n = n' + 1 := ⟨n - 1, by omega⟩
  rw [run_succ_eq, ← rmax_eq_fold, sum_range_sum_eq, sum_range_sum_eq]
  generalize rmax s n = m
  -- the row sum is positive
  have hL : (∑ kc : Fin (n + 1) × C, Real.exp (s kc.1 kc.2 - m)) ≠ 0 :=
    (Finset.sum_pos (fun kc _ => Real.exp_pos _) Finset.univ_nonempty).ne'
  generalize hLdef : (∑ kc : Fin (n + 1) × C, Real.exp (s kc.1 kc.2 - m)) = L at hL
  have hden : (0 : EReal) + ∑ kc' : Fin (n + 1) × C, Ideal.exp ((s kc'.1 kc'.2 : EReal) - (m : EReal)) = (L : EReal) := by
    rw [zero_add, ← hLdef, coe_sum]
    exact Finset.sum_congr rfl fun kc _ => by rw [← EReal.coe_sub, Ideal.exp_coe]
  rw [hden]
  show Ideal.div ((∑ kc : Fin (n + 1) × C, Real.exp (s kc.1 kc.2 - m) * v kc.1 kc.2 : ℝ) : EReal) (L : EReal) = _
  rw [Ideal.div_coe hL, ← EReal.coe_mul, Finset.sum_mul, coe_sum]
  refine Finset.sum_congr rfl fun kc _ => ?_
  rw [Ideal.div_coe hL, ← EReal.coe_sub, Ideal.exp_coe, ← EReal.coe_mul, ← EReal.coe_mul]
  exact congrArg (fun x : ℝ => (x : EReal)) (by ring)

end OnlineSoftmax

end
-- ==== Proof.Attn.Payload.lean ====
/-
  The attention body's arithmetic read at one element, at the ideal values.  With q, k, v the query, key and value
  blocks, and (m, l, acc) what the running buffers held: the scores are the rows' inner products times the scale; the
  new maximum is the greater of m and the row's greatest score; the old sums are rescaled by exp (m - new maximum); the
  new row sum adds the exponentials of the scores less the new maximum; the new accumulator adds those exponentials
  times the values.  So row r, column d of the new state is one step of the online softmax from row r, column d of the
  old state, and the output block is the accumulator over the row sum.
-/
import proofs.«131597_j62620623175753_2_alg».proof.Proof.Gen.KernelIdeal.Skeleton
import proofs.«131597_j62620623175753_2_alg».proof.Proof.LibOnlineSoftmax
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Attn

open Cert.KernelIdeal Cert.KernelIdeal.Gen Idealize.ShloMosaic Idealize.ShloMosaic.ValueIdx
open scoped BigOperators

/-! ## Layout reads the library does not have: a column kept as a unit trailing axis -/

/-- An [a] array cast to [a, 1] reads, at (i, u), the operand at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's row p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index over row r with lane c put back. -/
theorem lift_row (h : S1024x1024.Reduces [1] S1024) (r : Fin 1024) (c : Fin 1024) :
    h.lift (ix1 r) c = ix2 r c := by
  funext a; apply Fin.ext
  show h.liftVal (ix1 r) c.val a = (ix2 r c a).val
  unfold Shape.Reduces.liftVal
  match a with
  | ⟨0, _⟩ => simp
  | ⟨1, _⟩ => simp

/-! ## The two products' operand indices -/

theorem qk_lhs_row (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem qk_lhs_contr (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
theorem qk_rhs_contr (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
theorem qk_rhs_col (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- Queries times transposed keys into the zero splat, at query row r and key row c. -/
theorem qk_matmul_at {φ₁ φ₂ : FTy} (x : FVec Ideal S1024x512 φ₁) (w : FVec Ideal S512x1024 φ₂) (r : Fin 1024) (c : Fin 1024) :
    FloatOps.matmul dot_S1024x512_S512x1024_S1024x1024_1_0_0_1_n_n none x w (constant (F := Ideal) S1024x1024 .f32 0x00000000#32) (ix2 r c)
      = ∑ e : Fin 512, x (ix2 r e) * w (ix2 e c) := by
  rw [Ideal.matmul_constant_zero_apply, ← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 r c) ((contrEquiv1 dot_S1024x512_S512x1024_S1024x1024_1_0_0_1_n_n 512 rfl rfl).symm k) = ix2 r k := funext fun a => Fin.ext (by
    match a with
    | ⟨0, _⟩ => exact qk_lhs_row _ _
    | ⟨1, _⟩ => exact (qk_lhs_contr _ _).trans hk)
  have er : dot_S1024x512_S512x1024_S1024x1024_1_0_0_1_n_n.rhsIdx (ix2 r c) ((contrEquiv1 dot_S1024x512_S512x1024_S1024x1024_1_0_0_1_n_n 512 rfl rfl).symm k) = ix2 k c := funext fun a => Fin.ext (by
    match a with
    | ⟨0, _⟩ => exact (qk_rhs_contr _ _).trans hk
    | ⟨1, _⟩ => exact qk_rhs_col _ _)
  rw [el, er]

theorem pv_lhs_row (i : S1024x512.Idx) (q : dot_S1024x1024_S1024x512_S1024x512_1_0_0_1_n_n.contr.Idx) :
    (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
theorem pv_lhs_contr (i : S1024x512.Idx) (q : dot_S1024x1024_S1024x512_S1024x512_1_0_0_1_n_n.contr.Idx) :
    (dot_S1024x1024_S1024x512_S1024x512_1_0_0_1_n_n.lhsIdx i q 1).val = (q ⟨0, by decide⟩).val :=
  dot_S1024x1024_S1024x512_S1024x512_1_0_0_1_n_n.lhsIdx_val_of_single rfl i q
theorem pv_rhs_contr (i : S1024x512.Idx) (q : dot_S1024x1024_S1024x512_S1024x512_1_0_0_1_n_n.contr.Idx) :
    (dot_S1024x1024_S1024x512_S1024x512_1_0_0_1_n_n.rhsIdx i q 0).val = (q ⟨0, by decide⟩).val :=
  dot_S1024x1024_S1024x512_S1024x512_1_0_0_1_n_n.rhsIdx_val_of_single rfl i q
theorem pv_rhs_col (i : S1024x512.Idx) (q : dot_S1024x1024_S1024x512_S1024x512_1_0_0_1_n_n.contr.Idx) :
    (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

/-- Weights times values into the zero splat, at query row r and value column d. -/
theorem pv_matmul_at {φ₁ φ₂ : FTy} (x : FVec Ideal S1024x1024 φ₁) (w : FVec Ideal S1024x512 φ₂) (r : Fin 1024) (d : Fin 512) :
    FloatOps.matmul dot_S1024x1024_S1024x512_S1024x512_1_0_0_1_n_n none x w (constant (F := Ideal) S1024x512 .f32 0x00000000#32) (ix2 r d)
      = ∑ c : Fin 1024, x (ix2 r c) * w (ix2 c d) := by
  rw [Ideal.matmul_constant_zero_apply, ← Equiv.sum_comp (contrEquiv1 dot_S1024x1024_S1024x512_S1024x512_1_0_0_1_n_n 1024 rfl rfl).symm]
  refine Finset.sum_congr rfl fun k _ => ?_
  have hk := contrEquiv1_symm_val dot_S1024x1024_S1024x512_S1024x512_1_0_0_1_n_n 1024 rfl rfl k
  have el : dot_S1024x1024_S1024x512_S1024x512_1_0_0_1_n_n.lhsIdx (ix2 r d) ((contrEquiv1 dot_S1024x1024_S1024x512_S1024x512_1_0_0_1_n_n 1024 rfl rfl).symm k) = ix2 r k := funext fun a => Fin.ext (by
    match a with
    | ⟨0, _⟩ => exact pv_lhs_row _ _
    | ⟨1, _⟩ => exact (pv_lhs_contr _ _).trans hk)
  have er : dot_S1024x1024_S1024x512_S1024x512_1_0_0_1_n_n.rhsIdx (ix2 r d) ((contrEquiv1 dot_S1024x1024_S1024x512_S1024x512_1_0_0_1_n_n 1024 rfl rfl).symm k) = ix2 k d := funext fun a => Fin.ext (by
    match a with
    | ⟨0, _⟩ => exact (pv_rhs_contr _ _).trans hk
    | ⟨1, _⟩ => exact pv_rhs_col _ _)
  rw [el, er]

/-! ## The payloads at an element -/

/-- The scale the scores are multiplied by, as the body names it. -/
abbrev scale : EReal := (Named.named (F := Ideal) Cert.KernelIdeal.κ "inv_sqrt_dk" (φ := .f32) 0x3D3504F3#32 : Ideal .f32)

/-- The score of query row r against key row c of the block. -/
def score (q k : Vec Ideal S1x1024x512 .f32) (r c : Fin 1024) : EReal :=
  (∑ e : Fin 512, q (ix3 (0 : Fin 1) r e) * k (ix3 (0 : Fin 1) c e)) * scale

theorem pay7_at (q k : Vec Ideal S1x1024x512 .f32) (r c : Fin 1024) :
    k1_pay7 (F := Ideal) q k (ix2 r c) = score q k r c := by
  unfold k1_pay7 score
  rw [mulf_apply, broadcast_apply]
  simp only [matmul]
  rw [qk_matmul_at]
  refine congrArg (· * _) (Finset.sum_congr rfl fun e _ => ?_)
  rw [truncf_apply, shapeCast_1ab_ab_apply, transpose_ix2_apply, truncf_apply, shapeCast_1ab_ab_apply]

theorem neg_inf_word : Ideal.ofBits .f32 0xFF800000#32 = ⊥ := by simp [Ideal.ofBits, Ideal.ieee]

/-- A row's greatest element, from -∞. -/
theorem rowmax_at (src : FVec Ideal S1024x1024 .f32) (hacc : (0xFF800000#32 : BitVec 32) = 0xFF800000#32) (r : Fin 1024) :
    multiReduction (F := Ideal) .maximumf [1] S1024 src 0xFF800000#32 reduces_S1024x1024_S1024 (.inl rfl) hacc (ix1 r)
      = Finset.univ.fold max ⊥ fun c : Fin 1024 => src (ix2 r c) :=
  (Ideal.multiReduction_maximumf_single src 0xFF800000#32 reduces_S1024x1024_S1024 (.inl rfl) hacc (ix1 r)).trans (by
    show (Finset.univ : Finset (Fin 1024)).fold max (Ideal.ofBits .f32 0xFF800000#32) (fun c => src (reduces_S1024x1024_S1024.lift (ix1 r) c)) = _
    rw [neg_inf_word]
    exact congrArg (fun f => (Finset.univ : Finset (Fin 1024)).fold max (⊥ : EReal) f)
      (funext fun c : Fin 1024 => congrArg src (lift_row reduces_S1024x1024_S1024 r c)))

/-- A row's sum, from 0. -/
theorem rowsum_at (src : FVec Ideal S1024x1024 .f32) (hacc : (0x00000000#32 : BitVec 32) = 0x00000000#32) (r : Fin 1024) :
    multiReduction (F := Ideal) .add [1] S1024 src 0x00000000#32 reduces_S1024x1024_S1024 (.inl rfl) hacc (ix1 r)
      = ∑ c : Fin 1024, src (ix2 r c) :=
  (Ideal.multiReduction_add_single src 0x00000000#32 reduces_S1024x1024_S1024 (.inl rfl) hacc (ix1 r)).trans (by
    show ∑ c : Fin 1024, src (reduces_S1024x1024_S1024.lift (ix1 r) c) = _
    exact Finset.sum_congr rfl fun (c : Fin 1024) _ => congrArg src (lift_row reduces_S1024x1024_S1024 r c))

theorem pay8_at (q k : Vec Ideal S1x1024x512 .f32) (m : Vec Ideal S1024x1 .f32) (r : Fin 1024) :
    k1_pay8 (F := Ideal) q k m (ix2 r (0 : Fin 1)) = max (m (ix2 r (0 : Fin 1))) (Finset.univ.fold max ⊥ fun c : Fin 1024 => score q k r c) := by
  unfold k1_pay8
  rw [maximumf_apply, shapeCast_a_a1_apply]
  refine congrArg (fun z : EReal => max (m (ix2 r (0 : Fin 1))) z) ((rowmax_at (k1_pay7 (F := Ideal) q k) rfl r).trans ?_)
  refine congrArg (fun f => (Finset.univ : Finset (Fin 1024)).fold max (⊥ : EReal) f) (funext fun c => ?_)
  exact pay7_at q k r c

theorem pay9_at (q k : Vec Ideal S1x1024x512 .f32) (m m' : Vec Ideal S1024x1 .f32) (r : Fin 1024) :
    k1_pay9 (F := Ideal) q k m m' (ix2 r (0 : Fin 1)) = Ideal.exp (m' (ix2 r (0 : Fin 1)) - k1_pay8 (F := Ideal) q k m (ix2 r (0 : Fin 1))) := rfl

theorem pay10_at (q k : Vec Ideal S1x1024x512 .f32) (m : Vec Ideal S1024x1 .f32) (r c : Fin 1024) :
    k1_pay10 (F := Ideal) q k m (ix2 r c) = Ideal.exp (score q k r c - k1_pay8 (F := Ideal) q k m (ix2 r (0 : Fin 1))) := by
  unfold k1_pay10
  show Ideal.exp (k1_pay7 (F := Ideal) q k (ix2 r c) - broadcastTo S1024x1024 (k1_pay8 (F := Ideal) q k m) broadcasts_S1024x1_S1024x1024 (ix2 r c)) = _
  rw [broadcastTo_a1_ab_apply, pay7_at]

theorem zero_word : Ideal.ofBits .f32 0x00000000#32 = 0 := Ideal.ofBits_zero_f32

theorem pay11_at (q k : Vec Ideal S1x1024x512 .f32) (m m' l : Vec Ideal S1024x1 .f32) (r : Fin 1024) :
    k1_pay11 (F := Ideal) q k m m' l (ix2 r (0 : Fin 1))
      = k1_pay9 (F := Ideal) q k m m' (ix2 r (0 : Fin 1)) * l (ix2 r (0 : Fin 1)) + ∑ c : Fin 1024, k1_pay10 (F := Ideal) q k m (ix2 r c) := by
  unfold k1_pay11
  rw [shapeCast_self, addf_apply, mulf_apply, shapeCast_a_a1_apply]
  exact congrArg (fun z : EReal => k1_pay9 (F := Ideal) q k m m' (ix2 r (0 : Fin 1)) * l (ix2 r (0 : Fin 1)) + z) (rowsum_at (k1_pay10 (F := Ideal) q k m) rfl r)

theorem pay1_at (a : FVec Ideal S1024x1 .f32) (p : FVec Ideal S1024x1024 .f32) (v : Vec Ideal S1x1024x512 .f32) (acc : Vec Ideal S1024x512 .f32)
    (r : Fin 1024) (d : Fin 512) :
    k1_pay1 (F := Ideal) a p v acc (ix2 r d) = a (ix2 r (0 : Fin 1)) * acc (ix2 r d) + ∑ c : Fin 1024, p (ix2 r c) * v (ix3 (0 : Fin 1) c d) := by
  unfold k1_pay1
  rw [shapeCast_self, addf_apply, mulf_apply, broadcastTo_a1_ab_apply]
  refine congrArg (fun z : EReal => a (ix2 r (0 : Fin 1)) * acc (ix2 r d) + z) ?_
  simp only [matmul]
  rw [pv_matmul_at]
  refine Finset.sum_congr rfl fun c _ => ?_
  rw [truncf_apply, truncf_apply, shapeCast_1ab_ab_apply]

theorem pay2_eq (x : FVec Ideal S1024x1 .f32) : k1_pay2 (F := Ideal) x = x := by
  unfold k1_pay2; rw [shapeCast_self]

theorem pay3_at (acc : Vec Ideal S1024x512 .f32) (l : Vec Ideal S1024x1 .f32) (r : Fin 1024) (d : Fin 512) :
    k1_pay3 (F := Ideal) acc l (ix3 (0 : Fin 1) r d) = Ideal.div (acc (ix2 r d)) (l (ix2 r (0 : Fin 1))) := by
  unfold k1_pay3
  rw [shapeCast_ab_1ab_apply, divf_apply, broadcastTo_a1_ab_apply]

/-- The reset values: the row maximum at -∞, the row sum and the accumulator at 0. -/
theorem pay4_at (i : S1024x1.Idx) : k1_pay4 (F := Ideal) i = ⊥ := by
  unfold k1_pay4; rw [shapeCast_self, broadcast_apply]; exact neg_inf_word
theorem pay5_at (i : S1024x1.Idx) : k1_pay5 (F := Ideal) i = 0 := by
  unfold k1_pay5; rw [shapeCast_self, broadcast_apply]; exact zero_word
theorem pay6_at (i : S1024x512.Idx) : k1_pay6 (F := Ideal) i = 0 := by
  unfold k1_pay6; rw [shapeCast_self, broadcast_apply]; exact zero_word

/-! ## One point is one step of the online softmax -/

/-- Row r, column d of what a point leaves in the running buffers is the step, over the row's scores against the key
    block and column d of the value block, of row r, column d of what they held. -/
theorem point_step (q k v : Vec Ideal S1x1024x512 .f32) (m l : Vec Ideal S1024x1 .f32) (acc : Vec Ideal S1024x512 .f32) (r : Fin 1024) (d : Fin 512) :
    (k1_pay2 (F := Ideal) (k1_pay8 q k m) (ix2 r (0 : Fin 1)), k1_pay11 (F := Ideal) q k m m l (ix2 r (0 : Fin 1)),
        k1_pay1 (F := Ideal) (k1_pay9 q k m m) (k1_pay10 q k m) v acc (ix2 r d))
      = OnlineSoftmax.step (fun c : Fin 1024 => score q k r c) (fun c : Fin 1024 => v (ix3 (0 : Fin 1) c d))
          (m (ix2 r (0 : Fin 1)), l (ix2 r (0 : Fin 1)), acc (ix2 r d)) := by
  unfold OnlineSoftmax.step
  dsimp only
  rw [pay2_eq, pay11_at, pay1_at, pay9_at, ← pay8_at]
  refine Prod.ext rfl (Prod.ext ?_ ?_)
  · exact congrArg (fun z : EReal => _ + z) (Finset.sum_congr rfl fun c _ => pay10_at q k m r c)
  · exact congrArg (fun z : EReal => _ + z) (Finset.sum_congr rfl fun c _ => by rw [pay10_at])

/-- So a point that finds the state after j key blocks leaves the state after j + 1, when its score row and value
    column are block j's. -/
theorem point_run (q k v : Vec Ideal S1x1024x512 .f32) (m l : Vec Ideal S1024x1 .f32) (acc : Vec Ideal S1024x512 .f32) (r : Fin 1024) (d : Fin 512)
    (S Vl : ℕ → Fin 1024 → EReal) (j : ℕ)
    (hS : ∀ c' : Fin 1024, score q k r c' = S j c') (hV : ∀ c' : Fin 1024, v (ix3 (0 : Fin 1) c' d) = Vl j c')
    (hprev : (m (ix2 r (0 : Fin 1)), l (ix2 r (0 : Fin 1)), acc (ix2 r d)) = OnlineSoftmax.run S Vl j) :
    (k1_pay2 (F := Ideal) (k1_pay8 q k m) (ix2 r (0 : Fin 1)), k1_pay11 (F := Ideal) q k m m l (ix2 r (0 : Fin 1)),
        k1_pay1 (F := Ideal) (k1_pay9 q k m m) (k1_pay10 q k m) v acc (ix2 r d))
      = OnlineSoftmax.run S Vl (j + 1) := by
  rw [point_step, OnlineSoftmax.run_succ, ← hprev, show (fun c' : Fin 1024 => score q k r c') = S j from funext hS,
    show (fun c' : Fin 1024 => v (ix3 (0 : Fin 1) c' d)) = Vl j from funext hV]

end Cert.KernelIdeal.Attn

end
-- ==== Proof.AttnArr.lean ====
/-
  The attention output as the kernel computes it, stated with no program in sight: for batch `b`, query row `q` and value
  column `j`, the four key blocks of 1024 keys are folded one after the other into the running (row maximum, row sum,
  accumulator), and the result is the accumulator divided by the row sum.  The score of query row `q` against key row `k` is
  the inner product of the two projected rows times a scale.
-/
import Idealize.ShloMosaic.PureOps.Ideal
import Idealize.ShloMosaic.Lib.ValueIdx
import proofs.«131597_j62620623175753_2_alg».proof.Proof.LibOnlineSoftmax

noncomputable section

namespace Cert.AttnArr

open Idealize.ShloMosaic ValueIdx

abbrev QIdx : Type := (⟨3, ![4, 4096, 512]⟩ : Shape).Idx

/-- Row `c` of key block `k`, as a row of the whole sequence. -/
def key (k : ℕ) (c : Fin 1024) : Fin 4096 := ⟨(k % 4) * 1024 + c.val, by omega⟩

/-- The scores of query row `q` against the rows of key block `k`. -/
def sc (scale : EReal) (Q : QIdx → EReal) (b : Fin 4) (q : Fin 4096) : ℕ → Fin 1024 → EReal :=
  fun k c => (∑ d : Fin 512, Q (ix3 b q d) * Q (ix3 b (key k c) d)) * scale

/-- Column `j` of the value rows of key block `k`. -/
def vl (Th : QIdx → EReal) (b : Fin 4) (j : Fin 512) : ℕ → Fin 1024 → EReal :=
  fun k c => Th (ix3 b (key k c) j)

/-- The attention output at (b, q, j): the four key blocks folded, then the quotient. -/
def attnAt (scale : EReal) (Q Th : QIdx → EReal) (b : Fin 4) (q : Fin 4096) (j : Fin 512) : EReal :=
  Ideal.div (OnlineSoftmax.run (sc scale Q b q) (vl Th b j) 4).2.2 (OnlineSoftmax.run (sc scale Q b q) (vl Th b j) 4).2.1

def attnArr (scale : EReal) (Q Th : QIdx → EReal) : QIdx → EReal := fun i => attnAt scale Q Th (i 0) (i 1) (i 2)

theorem attnArr_ix3 (scale : EReal) (Q Th : QIdx → EReal) (b : Fin 4) (q : Fin 4096) (j : Fin 512) :
    attnArr scale Q Th (ix3 b q j) = attnAt scale Q Th b q j := rfl

end Cert.AttnArr

end
-- ==== Proof.Attn.Value.lean ====
/-
  What the attention kernel leaves in its output array, at the ideal values.  Inside one query block the four grid
  points fold the four key blocks, in order, into the running (row maximum, row sum, accumulator): after the point of
  key block j, row r and column d of the three buffers are the online softmax state after j + 1 blocks of the scores of
  that query row and of that value column.  The last point of the query block writes back the accumulator over the row
  sum; the sixteen query blocks tile the array.
-/
import proofs.«131597_j62620623175753_2_alg».proof.Proof.Attn.Pieces
import proofs.«131597_j62620623175753_2_alg».proof.Proof.Attn.Payload
import proofs.«131597_j62620623175753_2_alg».proof.Proof.AttnArr
import Idealize.ShloMosaic.Lib.Pipeline.Value

set_option maxRecDepth 16384

noncomputable section

namespace Cert.KernelIdeal.Attn

open Cert.KernelIdeal Cert.KernelIdeal.Gen Idealize.ShloMosaic Idealize.ShloMosaic.TcCoe Idealize.SL.Sem
open Idealize.ShloMosaic.ValueIdx
open Idealize.ShloMosaic.Pipeline (Dat)
open Cert.AttnArr (key sc vl attnAt attnArr attnArr_ix3 QIdx)
open scoped BigOperators

/-- The printed index maps over the grid of 64 points, point t = 16·batch + 4·query block + key block: the query and
    output windows sit at (batch, query block, 0), the key and value windows at (batch, key block, 0). -/
theorem idx_facts1 : ∀ t : Fin cfg1.N,
    win1_0.index t (0 : Fin 3) = t.val / 16 ∧ win1_0.index t (1 : Fin 3) = t.val / 4 % 4 ∧ win1_0.index t (2 : Fin 3) = 0
    ∧ win1_1.index t (0 : Fin 3) = t.val / 16 ∧ win1_1.index t (1 : Fin 3) = t.val % 4 ∧ win1_1.index t (2 : Fin 3) = 0
    ∧ win1_2.index t (0 : Fin 3) = t.val / 16 ∧ win1_2.index t (1 : Fin 3) = t.val % 4 ∧ win1_2.index t (2 : Fin 3) = 0
    ∧ win1_3.index t (0 : Fin 3) = t.val / 16 ∧ win1_3.index t (1 : Fin 3) = t.val / 4 % 4 ∧ win1_3.index t (2 : Fin 3) = 0 :=
  (by decide +kernel : ∀ t : Fin grid1.N, _)

theorem key_val (j : ℕ) (c' : Fin 1024) : (key j c').val = j % 4 * 1024 + c'.val := rfl

/-! ## Where a block's element sits in its array -/

theorem emb_query (t : Fin cfg1.N) (r : Fin 1024) (e : Fin 512) (b : Fin 4) (qrow : Fin 4096)
    (hb : b.val = t.val / 16) (hq : qrow.val = t.val / 4 % 4 * 1024 + r.val) :
    ((cfg1.win 0).blk t).view.emb (ix3 (0 : Fin 1) r e) = ix3 b qrow e := by
  obtain ⟨e0, e1, e2, -⟩ := idx_facts1 t
  funext a; apply Fin.ext
  match a with
  | ⟨0, _⟩ => show win1_0.index t (0 : Fin 3) * 1 + 1 * 0 = b.val; omega
  | ⟨1, _⟩ => show win1_0.index t (1 : Fin 3) * 1024 + 1 * r.val = qrow.val; omega
  | ⟨2, _⟩ => show win1_0.index t (2 : Fin 3) * 512 + 1 * e.val = e.val; omega

theorem emb_key (t : Fin cfg1.N) (c' : Fin 1024) (e : Fin 512) (b : Fin 4) (hb : b.val = t.val / 16) :
    ((cfg1.win 1).blk t).view.emb (ix3 (0 : Fin 1) c' e) = ix3 b (key (t.val % 4) c') e := by
  obtain ⟨-, -, -, e0, e1, e2, -⟩ := idx_facts1 t
  have hk := key_val (t.val % 4) c'
  funext a; apply Fin.ext
  match a with
  | ⟨0, _⟩ => show win1_1.index t (0 : Fin 3) * 1 + 1 * 0 = b.val; omega
  | ⟨1, _⟩ => show win1_1.index t (1 : Fin 3) * 1024 + 1 * c'.val = (key (t.val % 4) c').val; omega
  | ⟨2, _⟩ => show win1_1.index t (2 : Fin 3) * 512 + 1 * e.val = e.val; omega

theorem emb_value (t : Fin cfg1.N) (c' : Fin 1024) (e : Fin 512) (b : Fin 4) (hb : b.val = t.val / 16) :
    ((cfg1.win 2).blk t).view.emb (ix3 (0 : Fin 1) c' e) = ix3 b (key (t.val % 4) c') e := by
  obtain ⟨-, -, -, -, -, -, e0, e1, e2, -⟩ := idx_facts1 t
  have hk := key_val (t.val % 4) c'
  funext a; apply Fin.ext
  match a with
  | ⟨0, _⟩ => show win1_2.index t (0 : Fin 3) * 1 + 1 * 0 = b.val; omega
  | ⟨1, _⟩ => show win1_2.index t (1 : Fin 3) * 1024 + 1 * c'.val = (key (t.val % 4) c').val; omega
  | ⟨2, _⟩ => show win1_2.index t (2 : Fin 3) * 512 + 1 * e.val = e.val; omega

theorem emb_out (t : Fin cfg1.N) (r : Fin 1024) (e : Fin 512) (b : Fin 4) (qrow : Fin 4096)
    (hb : b.val = t.val / 16) (hq : qrow.val = t.val / 4 % 4 * 1024 + r.val) :
    ((cfg1.win 3).blk t).view.emb (ix3 (0 : Fin 1) r e) = ix3 b qrow e := by
  obtain ⟨-, -, -, -, -, -, -, -, -, e0, e1, e2⟩ := idx_facts1 t
  funext a; apply Fin.ext
  match a with
  | ⟨0, _⟩ => show win1_3.index t (0 : Fin 3) * 1 + 1 * 0 = b.val; omega
  | ⟨1, _⟩ => show win1_3.index t (1 : Fin 3) * 1024 + 1 * r.val = qrow.val; omega
  | ⟨2, _⟩ => show win1_3.index t (2 : Fin 3) * 512 + 1 * e.val = e.val; omega

variable (V : (c : Dev nD) → (b : Ref sig .tc) → Buf (Elt Ideal) ((c : Thread nD τ).loc b))

/-! ## The blocks read off the arrays -/

theorem iblk_query (c : Dev nD) (t : Fin cfg1.N) (r : Fin 1024) (e : Fin 512) (b : Fin 4) (qrow : Fin 4096)
    (hb : b.val = t.val / 16) (hq : qrow.val = t.val / 4 % 4 * 1024 + r.val) :
    (iblk V c 0 t : Vec Ideal S1x1024x512 .f32) (ix3 (0 : Fin 1) r e) = (V c main_v3 : QIdx → EReal) (ix3 b qrow e) := by
  show V c main_v3 (((cfg1.win 0).blk t).view.emb (ix3 (0 : Fin 1) r e)) = _
  rw [emb_query t r e b qrow hb hq]

theorem iblk_key (c : Dev nD) (t : Fin cfg1.N) (c' : Fin 1024) (e : Fin 512) (b : Fin 4) (hb : b.val = t.val / 16) :
    (iblk V c 1 t : Vec Ideal S1x1024x512 .f32) (ix3 (0 : Fin 1) c' e) = (V c main_v3 : QIdx → EReal) (ix3 b (key (t.val % 4) c') e) := by
  show V c main_v3 (((cfg1.win 1).blk t).view.emb (ix3 (0 : Fin 1) c' e)) = _
  rw [emb_key t c' e b hb]

theorem iblk_value (c : Dev nD) (t : Fin cfg1.N) (c' : Fin 1024) (e : Fin 512) (b : Fin 4) (hb : b.val = t.val / 16) :
    (iblk V c 2 t : Vec Ideal S1x1024x512 .f32) (ix3 (0 : Fin 1) c' e) = (V c main_arg0 : QIdx → EReal) (ix3 b (key (t.val % 4) c') e) := by
  show V c main_arg0 (((cfg1.win 2).blk t).view.emb (ix3 (0 : Fin 1) c' e)) = _
  rw [emb_value t c' e b hb]

/-- The point's scores of block row r are the scores of its query row against its key block. -/
theorem score_block (c : Dev nD) (t : Fin cfg1.N) (r c' : Fin 1024) (b : Fin 4) (qrow : Fin 4096)
    (hb : b.val = t.val / 16) (hq : qrow.val = t.val / 4 % 4 * 1024 + r.val) :
    score (iblk V c 0 t) (iblk V c 1 t) r c' = sc scale (V c main_v3) b qrow (t.val % 4) c' := by
  unfold score sc
  exact congrArg (fun z : EReal => z * scale) (Finset.sum_congr rfl fun e _ =>
    congrArg₂ (fun x y : EReal => x * y) (iblk_query V c t r e b qrow hb hq) (iblk_key V c t c' e b hb))

/-! ## The running buffers are the online softmax state -/

theorem state_run (c : Dev nD) : ∀ (n : ℕ) (hn : n < cfg1.N) (r : Fin 1024) (d : Fin 512) (b : Fin 4) (qrow : Fin 4096),
    b.val = n / 16 → qrow.val = n / 4 % 4 * 1024 + r.val →
    ((stateAt V c n hn).2.1 (ix2 r (0 : Fin 1)), (stateAt V c n hn).2.2.1 (ix2 r (0 : Fin 1)), (stateAt V c n hn).2.2.2 (ix2 r d))
      = OnlineSoftmax.run (sc scale (V c main_v3) b qrow) (vl (V c main_arg0) b d) (n % 4 + 1) := by
  intro n
  induction n using Nat.strong_induction_on with
  | _ n ih =>
    intro hn r d b qrow hb hq
    have hS : ∀ c' : Fin 1024, score (iblk V c 0 ⟨n, hn⟩) (iblk V c 1 ⟨n, hn⟩) r c' = sc scale (V c main_v3) b qrow (n % 4) c' :=
      fun c' => score_block V c ⟨n, hn⟩ r c' b qrow hb hq
    have hV : ∀ c' : Fin 1024, (iblk V c 2 ⟨n, hn⟩ : Vec Ideal S1x1024x512 .f32) (ix3 (0 : Fin 1) c' d) = vl (V c main_arg0) b d (n % 4) c' :=
      fun c' => iblk_value V c ⟨n, hn⟩ c' d b hb
    by_cases h0 : n % 4 = 0
    · have h1 : ¬ n % 4 = 3 := by omega
      have hs := stateAt_first V c ⟨n, hn⟩ h0 h1
      dsimp only at hs
      rw [hs, first_max, first_sum, first_acc]
      refine point_run _ _ _ _ _ _ r d _ _ (n % 4) hS hV ?_
      rw [h0, pay4_at, pay5_at, pay6_at]
      rfl
    · have hprev := ih (n - 1) (by omega) (by omega) r d b qrow (by omega) (by omega)
      rw [show (n - 1) % 4 + 1 = n % 4 by omega] at hprev
      by_cases h1 : n % 4 = 3
      · have hs := stateAt_last V c ⟨n, hn⟩ h0 h1
        dsimp only at hs
        rw [hs, last_max, last_sum, last_acc]
        exact point_run _ _ _ _ _ _ r d _ _ (n % 4) hS hV hprev
      · have hs := stateAt_mid V c ⟨n, hn⟩ h0 h1
        dsimp only at hs
        rw [hs, mid_max, mid_sum, mid_acc]
        exact point_run _ _ _ _ _ _ r d _ _ (n % 4) hS hV hprev

/-! ## From the blocks to the array -/

/-- The last point of a query block writes back block t of the attention array. -/
theorem flushed_attn (c : Dev nD) (t : Fin cfg1.N) (hf : (cfg1.win 3).flush t = true) :
    (dat1 V c).flushed 3 t = ((cfg1.win 3).blk t).view.read (Elt Ideal) (attnArr scale (V c main_v3) (V c main_arg0)) := by
  have h1 : t.val % 4 = 3 := (flush1_3 t).mp hf
  have h0 : ¬ t.val % 4 = 0 := by omega
  have hN : t.val < 64 := by have h : t.val < grid1.N := t.isLt; rw [N_1] at h; exact h
  show (cfg1.win 3).cut (grid1.coords t) ((dat1 V c).after 3 t) = _
  rw [after_3]
  have hout : (stateAt V c t.val t.isLt).1 = k1_pay3 (F := Ideal) (stateAt V c t.val t.isLt).2.2.2 (stateAt V c t.val t.isLt).2.2.1 := by
    rw [stateAt_last V c t h0 h1, last_out, last_sum, last_acc]
  funext j
  obtain ⟨u, r, d, rfl⟩ : ∃ (u : Fin 1) (r : Fin 1024) (d : Fin 512), j = ix3 u r d := ⟨j 0, j 1, j 2, eq_ix3 j⟩
  obtain rfl : u = 0 := Subsingleton.elim _ _
  have hrun := state_run V c t.val t.isLt r d ⟨t.val / 16, by omega⟩ ⟨t.val / 4 % 4 * 1024 + r.val, by omega⟩ rfl rfl
  rw [show t.val % 4 + 1 = 4 by omega] at hrun
  have h21 := congrArg (fun p : EReal × EReal × EReal => p.2.1) hrun
  have h22 := congrArg (fun p : EReal × EReal × EReal => p.2.2) hrun
  dsimp only at h21 h22
  show (stateAt V c t.val t.isLt).1 (ix3 (0 : Fin 1) r d)
    = attnArr scale (V c main_v3) (V c main_arg0) (((cfg1.win 3).blk t).view.emb (ix3 (0 : Fin 1) r d))
  rw [hout, pay3_at, emb_out t r d ⟨t.val / 16, by omega⟩ ⟨t.val / 4 % 4 * 1024 + r.val, by omega⟩ rfl rfl, attnArr_ix3, h21, h22]
  rfl

/-- An index of the output array is in point t's block iff each coordinate is in the block's range on its axis. -/
theorem mem_blk_attn (t : Fin cfg1.N) (i : S4x4096x512.Idx) :
    i ∈ ((cfg1.win 3).blk t).view.set ↔ ∀ a : Fin 3, win1_3.index t a * S1x1024x512.size a ≤ (i a).val ∧ (i a).val < win1_3.index t a * S1x1024x512.size a + S1x1024x512.size a := by
  show i ∈ ((View.whole main_v4).slice (win1_3.rect t)).set ↔ _
  rw [View.set_slice_whole, Rect.mem_set_unit]
  exact Iff.rfl

/-- Row q of batch b is in the block of the last point of its query block, 16 b + 4 (q / 1024) + 3. -/
theorem cover_attn (i : S4x4096x512.Idx) : ∃ t : Fin cfg1.N, (cfg1.win 3).flush t = true ∧ i ∈ ((cfg1.win 3).blk t).view.set := by
  have hi0 : (i 0).val < 4 := (i 0).isLt
  have hi1 : (i 1).val < 4096 := (i 1).isLt
  have hi2 : (i 2).val < 512 := (i 2).isLt
  have hlt : 16 * (i 0).val + 4 * ((i 1).val / 1024) + 3 < cfg1.N := by show _ < grid1.N; rw [N_1]; omega
  obtain ⟨-, -, -, -, -, -, -, -, -, e0, e1, e2⟩ := idx_facts1 ⟨16 * (i 0).val + 4 * ((i 1).val / 1024) + 3, hlt⟩
  dsimp only at e0 e1 e2
  refine ⟨⟨16 * (i 0).val + 4 * ((i 1).val / 1024) + 3, hlt⟩, (flush1_3 _).mpr (by dsimp only; omega), ?_⟩
  rw [mem_blk_attn]
  intro a
  match a with
  | ⟨0, _⟩ => show win1_3.index _ (0 : Fin 3) * 1 ≤ (i 0).val ∧ (i 0).val < win1_3.index _ (0 : Fin 3) * 1 + 1; omega
  | ⟨1, _⟩ => show win1_3.index _ (1 : Fin 3) * 1024 ≤ (i 1).val ∧ (i 1).val < win1_3.index _ (1 : Fin 3) * 1024 + 1024; omega
  | ⟨2, _⟩ => show win1_3.index _ (2 : Fin 3) * 512 ≤ (i 2).val ∧ (i 2).val < win1_3.index _ (2 : Fin 3) * 512 + 512; omega

/-- The output array after the last point: the attention of the projected queries and the values the pipeline found. -/
theorem arrAt_attn (c : Dev nD) :
    (dat1 V c).arrAt 3 cfg1.N = attnArr scale (V c main_v3) (V c main_arg0) :=
  (dat1 V c).arrAt_eq_of_cover 3 _ (fun t hf => flushed_attn V c t hf) cover_attn

end Cert.KernelIdeal.Attn

end
-- ==== Proof.Layout.lean ====
/-
  Three re-layouts read at an index: the activations flattened from (batch, position, feature) to (row, feature) with
  row = batch · 4096 + position, the same undone, and a square matrix transposed.
-/
import Idealize.ShloMosaic.Lib.Pipeline.Value
import Idealize.ShloMosaic.Lib.ValueIdx

noncomputable section

namespace Cert.Layout

open Idealize.ShloMosaic ValueIdx

variable {α : Type}

/-- Row `b · 4096 + s` of the flattened activations. -/
def row (b : Fin 4) (s : Fin 4096) : Fin 16384 := ⟨b.val * 4096 + s.val, by omega⟩

theorem flatten_at (x : (⟨3, ![4, 4096, 512]⟩ : Shape).Idx → α) (h : (⟨3, ![4, 4096, 512]⟩ : Shape).ShapeCasts ⟨2, ![16384, 512]⟩)
    (b : Fin 4) (s : Fin 4096) (d : Fin 512) : shapeCast ⟨2, ![16384, 512]⟩ x h (ix2 (row b s) d) = x (ix3 b s d) :=
  shapeCast_apply x h _ _ (by
    rw [Shape.rowMajor_val_three, Shape.rowMajor_val_two]
    show (b.val * 4096 + s.val) * 512 + d.val = (b.val * 4096 + s.val) * 512 + d.val
    rfl)

theorem unflatten_at (y : (⟨2, ![16384, 512]⟩ : Shape).Idx → α) (h : (⟨2, ![16384, 512]⟩ : Shape).ShapeCasts ⟨3, ![4, 4096, 512]⟩)
    (b : Fin 4) (s : Fin 4096) (d : Fin 512) : shapeCast ⟨3, ![4, 4096, 512]⟩ y h (ix3 b s d) = y (ix2 (row b s) d) :=
  shapeCast_apply y h _ _ (by
    rw [Shape.rowMajor_val_three, Shape.rowMajor_val_two]
    show (b.val * 4096 + s.val) * 512 + d.val = (b.val * 4096 + s.val) * 512 + d.val
    rfl)

theorem transpose_at (w : (⟨2, ![512, 512]⟩ : Shape).Idx → α) (h : (⟨2, ![512, 512]⟩ : Shape).Transposes [1, 0] ⟨2, ![512, 512]⟩)
    (k e : Fin 512) : transpose ⟨2, ![512, 512]⟩ [1, 0] w h (ix2 k e) = w (ix2 e k) :=
  transpose_apply [1, 0] w h (ix2 k e) (ix2 e k) (fun b => match b with | ⟨0, _⟩ => rfl | ⟨1, _⟩ => rfl)

end Cert.Layout

end
-- ==== Proof.Spec.lean ====
/-
  The function the reference computes, stated over extended reals with no program in sight: a query
  projection, scaled dot-product self-attention with a softmax over the keys, and the input appended
  on the last axis.
-/
import Idealize.ShloMosaic.PureOps.Ideal
import Idealize.ShloMosaic.Lib.ValueIdx

noncomputable section

namespace Cert.AttnSpec

open Idealize.ShloMosaic Idealize.ShloMosaic.ValueIdx
open scoped BigOperators

/-- The input array's index set: 4 batches, 4096 positions, 512 features. -/
abbrev ThetaIdx : Type := (⟨3, ![4, 4096, 512]⟩ : Shape).Idx
/-- The projection matrix's index set: 512 outputs by 512 inputs. -/
abbrev WIdx : Type := (⟨2, ![512, 512]⟩ : Shape).Idx
/-- The projection bias's index set. -/
abbrev BIdx : Type := (⟨1, ![512]⟩ : Shape).Idx
/-- The result's index set: 4 batches, 4096 positions, 1024 features. -/
abbrev OutIdx : Type := (⟨3, ![4, 4096, 1024]⟩ : Shape).Idx

/-- The scores' divisor, the single-precision value nearest the square root of 512. -/
def D : EReal := Ideal.ofBits .f32 0x41B504F3#32

section
variable (theta : ThetaIdx → EReal) (Wq : WIdx → EReal) (bq : BIdx → EReal)

/-- The projected query: row `s` of batch `b` times the transposed matrix, plus the bias. -/
def Qr (b : Fin 4) (s : Fin 4096) (e : Fin 512) : EReal :=
  (∑ d : Fin 512, theta (ix3 b s d) * Wq (ix2 e d)) + bq (ix1 e)

/-- The score of key `k` for query `q`: their inner product over the divisor. -/
def score (b : Fin 4) (q k : Fin 4096) : EReal :=
  Ideal.div (∑ d : Fin 512, Qr theta Wq bq b q d * Qr theta Wq bq b k d) D

/-- The greatest score of a query's row (joined with the bottom element the reduction starts from). -/
def rowMax (b : Fin 4) (q : Fin 4096) : EReal :=
  max ⊥ (Finset.univ.fold max ⊥ fun k : Fin 4096 => score theta Wq bq b q k)

/-- The softmax weight of key `k` for query `q`. -/
def weight (b : Fin 4) (q k : Fin 4096) : EReal :=
  Ideal.div (Ideal.exp (score theta Wq bq b q k - rowMax theta Wq bq b q))
    (0 + ∑ k' : Fin 4096, Ideal.exp (score theta Wq bq b q k' - rowMax theta Wq bq b q))

/-- The attention output: the weighted sum of the input's rows. -/
def attn (b : Fin 4) (q : Fin 4096) (j : Fin 512) : EReal :=
  ∑ k : Fin 4096, weight theta Wq bq b q k * theta (ix3 b k j)

/-- The whole result at an index: the attention output on the first 512 features, the input itself on the last 512. -/
def refSpec (i : OutIdx) : EReal :=
  if h : (i 2).val < 512 then attn theta Wq bq (i 0) (i 1) ⟨(i 2).val, h⟩
  else theta (ix3 (i 0) (i 1) ⟨(i 2).val - 512, by have := (i 2).isLt; change (i 2).val < 1024 at this; omega⟩)

end

end Cert.AttnSpec

end
-- ==== Proof.LibOnlineSoftmaxFlat.lean ====
/-
  Online softmax over a flat row. When the blocks are runs of `N` consecutive columns of a row of `n * N`
  columns — block `k` holds columns `k * N + c`, `c < N` — the sums and the maximum over the pairs
  (block, column) are the sums and the maximum over the row's columns, and `run_div` reads over the row.
-/
import Mathlib.Logic.Equiv.Fin.Basic
import proofs.«131597_j62620623175753_2_alg».proof.Proof.LibOnlineSoftmax

noncomputable section

namespace OnlineSoftmax

open Idealize.ShloMosaic
open scoped BigOperators

/-- The flat position of column `c` of block `k`. -/
theorem flat_val (n N : ℕ) (k : Fin n) (c : Fin N) :
    ((finProdFinEquiv (k, c) : Fin (n * N)) : ℕ) = k.val * N + c.val := by
  rw [finProdFinEquiv_apply_val, Nat.add_comm, Nat.mul_comm]

/-- A sum over the pairs (block, column) is the sum over the flat positions. -/
theorem sum_prod_eq_sum_flat {M : Type} [AddCommMonoid M] (n N : ℕ) (f : Fin (n * N) → M) :
    ∑ kc : Fin n × Fin N, f (finProdFinEquiv kc) = ∑ j, f j :=
  Equiv.sum_comp finProdFinEquiv f

/-- A fold of `max` over the pairs (block, column) is the fold over the flat positions. -/
theorem fold_max_prod_eq_flat (n N : ℕ) (f : Fin (n * N) → EReal) :
    Finset.univ.fold max ⊥ (fun kc : Fin n × Fin N => f (finProdFinEquiv kc)) = Finset.univ.fold max ⊥ f := by
  rw [fold_max_eq_sup, fold_max_eq_sup, ← Finset.map_univ_equiv (finProdFinEquiv (m := n) (n := N)), Finset.sup_map]
  rfl

/-- **Online softmax over a flat row.** The row has `n * N` real scores `S` and values `V`; the blocks `s k`,
    `v k` (`k < n`) are its runs of `N` consecutive columns. After the `n` blocks the third component of the state
    over the second is the softmax-weighted sum of the values over the row. -/
theorem run_div_flat (n N : ℕ) (hn : 0 < n) (hN : 0 < N) (S V : Fin (n * N) → ℝ) (s v : ℕ → Fin N → EReal)
    (hs : ∀ (k : ℕ) (hk : k < n) (c : Fin N), s k c = (S (finProdFinEquiv (⟨k, hk⟩, c)) : EReal))
    (hv : ∀ (k : ℕ) (hk : k < n) (c : Fin N), v k c = (V (finProdFinEquiv (⟨k, hk⟩, c)) : EReal)) :
    Ideal.div (run s v n).2.2 (run s v n).2.1
      = ∑ j : Fin (n * N),
          Ideal.div (Ideal.exp ((S j : EReal) - max ⊥ (Finset.univ.fold max ⊥ fun j : Fin (n * N) => (S j : EReal))))
            (0 + ∑ j' : Fin (n * N),
              Ideal.exp ((S j' : EReal) - max ⊥ (Finset.univ.fold max ⊥ fun j : Fin (n * N) => (S j : EReal))))
          * (V j : EReal) := by
  haveI : Nonempty (Fin N) := ⟨⟨0, hN⟩⟩
  -- real blocks, extended past the row by zero
  let sR : ℕ → Fin N → ℝ := fun k c => if h : k < n then S (finProdFinEquiv (⟨k, h⟩, c)) else 0
  let vR : ℕ → Fin N → ℝ := fun k c => if h : k < n then V (finProdFinEquiv (⟨k, h⟩, c)) else 0
  have hS : ∀ kc : Fin n × Fin N, sR kc.1 kc.2 = S (finProdFinEquiv kc) := fun kc => by
    show (if h : (kc.1 : ℕ) < n then S (finProdFinEquiv (⟨kc.1, h⟩, kc.2)) else 0) = _
    rw [dif_pos kc.1.isLt]
  have hV : ∀ kc : Fin n × Fin N, vR kc.1 kc.2 = V (finProdFinEquiv kc) := fun kc => by
    show (if h : (kc.1 : ℕ) < n then V (finProdFinEquiv (⟨kc.1, h⟩, kc.2)) else 0) = _
    rw [dif_pos kc.1.isLt]
  have hrun : run s v n = run (fun k c => (sR k c : EReal)) (fun k c => (vR k c : EReal)) n :=
    run_congr (fun k hk => funext fun c => by
        show s k c = ((if h : k < n then S (finProdFinEquiv (⟨k, h⟩, c)) else 0 : ℝ) : EReal)
        rw [dif_pos hk, hs k hk c])
      (fun k hk => funext fun c => by
        show v k c = ((if h : k < n then V (finProdFinEquiv (⟨k, h⟩, c)) else 0 : ℝ) : EReal)
        rw [dif_pos hk, hv k hk c])
  rw [hrun, run_div sR vR n hn]
  simp only [hS, hV]
  rw [fold_max_prod_eq_flat n N (fun j => (S j : EReal))]
  generalize max ⊥ (Finset.univ.fold max ⊥ fun j : Fin (n * N) => (S j : EReal)) = M
  rw [sum_prod_eq_sum_flat n N (fun j => Ideal.exp ((S j : EReal) - M))]
  exact sum_prod_eq_sum_flat n N (fun j => Ideal.div (Ideal.exp ((S j : EReal) - M))
    (0 + ∑ j' : Fin (n * N), Ideal.exp ((S j' : EReal) - M)) * (V j : EReal))

end OnlineSoftmax

end
-- ==== Proof.Bridge.lean ====
/-
  From the blockwise attention array to the specification. For real inputs every projected query is a real, the
  scores' divisor is the real 11863283/524288, so dividing by it is multiplying by 524288/11863283; the four key
  blocks of 1024 rows are the runs of a flat row of 4096 scores, and online softmax over them is the softmax of the
  specification.
-/
import proofs.«131597_j62620623175753_2_alg».proof.Proof.Spec
import proofs.«131597_j62620623175753_2_alg».proof.Proof.LibOnlineSoftmax
import proofs.«131597_j62620623175753_2_alg».proof.Proof.LibOnlineSoftmaxFlat
import proofs.«131597_j62620623175753_2_alg».proof.Proof.AttnArr

noncomputable section

namespace Cert.Bridge

open Idealize.ShloMosaic Idealize.ShloMosaic.ValueIdx Cert.AttnSpec Cert.AttnArr OnlineSoftmax
open scoped BigOperators

/-! ## The divisor -/

/-- The scores' divisor is the real 11863283/524288. -/
theorem D_eq : D = ((11863283 / 524288 : ℝ) : EReal) := by
  unfold D
  simp [Ideal.ofBits, Ideal.ieee, -EReal.coe_mul]; norm_num

/-- Dividing by it is multiplying by 524288/11863283. -/
theorem div_D (x : EReal) : Ideal.div x D = x * ((524288 / 11863283 : ℝ) : EReal) := by
  rw [D_eq, Ideal.div_coe (by norm_num)]
  exact congrArg (fun r : ℝ => x * (r : EReal)) (by norm_num)

/-! ## Real inputs -/

section Real
variable (tR : ThetaIdx → ℝ) (wR : WIdx → ℝ) (bR : BIdx → ℝ)

/-- The projected query of real inputs, as a real. -/
def qR (b : Fin 4) (s : Fin 4096) (e : Fin 512) : ℝ :=
  (∑ d : Fin 512, tR (ix3 b s d) * wR (ix2 e d)) + bR (ix1 e)

/-- The score of real inputs, as a real. -/
def sR (b : Fin 4) (q k : Fin 4096) : ℝ :=
  (∑ d : Fin 512, qR tR wR bR b q d * qR tR wR bR b k d) * (524288 / 11863283 : ℝ)

theorem Qr_coe (b : Fin 4) (s : Fin 4096) (e : Fin 512) :
    Qr (fun i => (tR i : EReal)) (fun i => (wR i : EReal)) (fun i => (bR i : EReal)) b s e = (qR tR wR bR b s e : EReal) := by
  unfold Qr qR
  rw [EReal.coe_add, coe_sum]
  exact congrArg (· + _) (Finset.sum_congr rfl fun d _ => (EReal.coe_mul _ _).symm)

theorem inner_coe (b : Fin 4) (q k : Fin 4096) :
    (∑ d : Fin 512, Qr (fun i => (tR i : EReal)) (fun i => (wR i : EReal)) (fun i => (bR i : EReal)) b q d
        * Qr (fun i => (tR i : EReal)) (fun i => (wR i : EReal)) (fun i => (bR i : EReal)) b k d)
      = ((∑ d : Fin 512, qR tR wR bR b q d * qR tR wR bR b k d : ℝ) : EReal) := by
  rw [coe_sum]
  exact Finset.sum_congr rfl fun d _ => by rw [Qr_coe, Qr_coe, EReal.coe_mul]

theorem score_coe (b : Fin 4) (q k : Fin 4096) :
    score (fun i => (tR i : EReal)) (fun i => (wR i : EReal)) (fun i => (bR i : EReal)) b q k = (sR tR wR bR b q k : EReal) := by
  unfold score sR
  rw [div_D, inner_coe, EReal.coe_mul]

end Real

/-! ## The blocks are the runs of the flat row -/

/-- The key row of column `c` of block `k < 4` is the flat position of (block, column). -/
theorem key_eq_flat (k : ℕ) (hk : k < 4) (c : Fin 1024) :
    key k c = (finProdFinEquiv ((⟨k, hk⟩ : Fin 4), c) : Fin (4 * 1024)) := by
  apply Fin.ext
  rw [flat_val]
  show (k % 4) * 1024 + c.val = k * 1024 + c.val
  rw [Nat.mod_eq_of_lt hk]

section Real
variable (tR : ThetaIdx → ℝ) (wR : WIdx → ℝ) (bR : BIdx → ℝ)

/-- A block's scaled inner products are the real scores against the block's key rows. -/
theorem sc_coe (b : Fin 4) (q : Fin 4096) (k : ℕ) (c : Fin 1024) :
    sc ((524288 / 11863283 : ℝ) : EReal)
        (fun i => Qr (fun i => (tR i : EReal)) (fun i => (wR i : EReal)) (fun i => (bR i : EReal)) (i 0) (i 1) (i 2)) b q k c
      = (sR tR wR bR b q (key k c) : EReal) := by
  show (∑ d : Fin 512, Qr (fun i => (tR i : EReal)) (fun i => (wR i : EReal)) (fun i => (bR i : EReal)) b q d
      * Qr (fun i => (tR i : EReal)) (fun i => (wR i : EReal)) (fun i => (bR i : EReal)) b (key k c) d) * _ = _
  rw [inner_coe, ← EReal.coe_mul]
  rfl

/-- **The bridge, for real inputs.** -/
theorem attn_bridge_real (b : Fin 4) (q : Fin 4096) (j : Fin 512) :
    attnAt ((524288 / 11863283 : ℝ) : EReal)
        (fun i => Qr (fun i => (tR i : EReal)) (fun i => (wR i : EReal)) (fun i => (bR i : EReal)) (i 0) (i 1) (i 2))
        (fun i => (tR i : EReal)) b q j
      = attn (fun i => (tR i : EReal)) (fun i => (wR i : EReal)) (fun i => (bR i : EReal)) b q j := by
  unfold attnAt
  rw [run_div_flat 4 1024 (by norm_num) (by norm_num) (fun j' : Fin 4096 => sR tR wR bR b q j')
    (fun j' : Fin 4096 => tR (ix3 b j' j)) _ _
    (fun k hk c => by rw [sc_coe, key_eq_flat k hk c])
    (fun k hk c => by show ((tR (ix3 b (key k c) j) : ℝ) : EReal) = _; rw [key_eq_flat k hk c])]
  unfold attn weight rowMax
  simp only [score_coe]

end Real

/-- **The bridge.** For inputs all of whose entries are reals, the attention array computed block by block, with the
    scores scaled by 524288/11863283, is the specification's attention output. -/
theorem attn_bridge (theta : ThetaIdx → EReal) (Wq : WIdx → EReal) (bq : BIdx → EReal)
    (hθ : ∀ i, ∃ r : ℝ, theta i = (r : EReal)) (hW : ∀ i, ∃ r : ℝ, Wq i = (r : EReal))
    (hb : ∀ i, ∃ r : ℝ, bq i = (r : EReal)) (b : Fin 4) (q : Fin 4096) (j : Fin 512) :
    attnAt ((524288 / 11863283 : ℝ) : EReal) (fun i => Qr theta Wq bq (i 0) (i 1) (i 2)) theta b q j
      = attn theta Wq bq b q j := by
  choose tR htR using hθ
  choose wR hwR using hW
  choose bR hbR using hb
  obtain rfl : theta = fun i => (tR i : EReal) := funext htR
  obtain rfl : Wq = fun i => (wR i : EReal) := funext hwR
  obtain rfl : bq = fun i => (bR i : EReal) := funext hbR
  exact attn_bridge_real tR wR bR b q j

end Cert.Bridge

end
-- ==== Proof.Glue.lean ====
/-
  The kernel program's result as a function of its three arguments.  Theta is flattened and the weight transposed before
  the projection region, whose output is the projected queries, one row per (batch, position); un-flattened, they are the
  array both attention windows read.  The attention region leaves the softmax-weighted sums of theta's rows, and the last
  host operation appends theta on the feature axis.  With every argument entry a real number the online fold over the four
  key blocks is the whole-row softmax, and the named scale is the reciprocal of the divisor the specification divides by.
-/
import proofs.«131597_j62620623175753_2_alg».proof.Proof.Whole
import proofs.«131597_j62620623175753_2_alg».proof.Proof.Proj.Value
import proofs.«131597_j62620623175753_2_alg».proof.Proof.Attn.Value
import proofs.«131597_j62620623175753_2_alg».proof.Proof.Layout
import proofs.«131597_j62620623175753_2_alg».proof.Proof.AttnArr
import proofs.«131597_j62620623175753_2_alg».proof.Proof.Spec
import proofs.«131597_j62620623175753_2_alg».proof.Proof.Bridge
import Idealize.ShloMosaic.Lib.StableHlo.Run
import Idealize.ShloMosaic.PureOps.IdealRules

set_option maxRecDepth 16384

noncomputable section

namespace Cert.KernelIdeal.Glue

open Idealize.ShloMosaic Idealize.ShloMosaic.TcCoe Idealize.SL.Sem Idealize.ShloMosaic.ValueIdx
open Cert.KernelIdeal Cert.KernelIdeal.Gen Cert.KernelIdeal.Whole Cert.AttnSpec Cert.AttnArr

variable (m : (ℓ : Loc nD τ sig) → Buf (Elt Ideal) ℓ) (c : Dev nD)

/-- The three argument arrays on core `c`. -/
abbrev theta : ThetaIdx → EReal := m ((c.tc : Thread nD τ).loc main_arg0)
abbrev weight : WIdx → EReal := m ((c.tc : Thread nD τ).loc main_arg1)
abbrev bias : BIdx → EReal := m ((c.tc : Thread nD τ).loc main_arg2)

/-- The named scale is the rational the certificate's table gives it. -/
theorem scale_eq : Attn.scale = ((524288 / 11863283 : ℝ) : EReal) :=
  IdealRules.named_const.ideal_named_scalar _ _ _ _ rfl

/-! ## Before the projection -/

theorem flat_theta : (W1 m c (Proc.devRef .tc main_v1) : S16384x512.Idx → EReal)
    = shapeCast S16384x512 (theta m c) shapeCasts_S4x4096x512_S16384x512 := by
  dsimp only [W1, W0, hostOps0]
  after_results
  rfl

theorem weight_t : (W1 m c (Proc.devRef .tc main_v0) : S512x512.Idx → EReal)
    = transpose S512x512 [1, 0] (weight m c) transposes_S512x512_S512x512_1_0 := by
  dsimp only [W1, W0, hostOps0]
  after_results

theorem bias_kept : (W1 m c (Proc.devRef .tc main_arg2) : S512.Idx → EReal) = bias m c :=
  StableHlo.after_of_writes_sub hostOps0 _ hostOps0_writes (by decide)

/-! ## The projected queries -/

theorem proj_out : (W2 m c (Proc.devRef .tc main_v2) : S16384x512.Idx → EReal)
    = Proj.projArr (shapeCast S16384x512 (theta m c) shapeCasts_S4x4096x512_S16384x512)
        (transpose S512x512 [1, 0] (weight m c) transposes_S512x512_S512x512_1_0) (bias m c) := by
  rw [W2_out, Proj.arrAt_proj (V1 m) c]
  show Proj.projArr (W1 m c (Proc.devRef .tc main_v1)) (W1 m c (Proc.devRef .tc main_v0)) (W1 m c (Proc.devRef .tc main_arg2)) = _
  rw [flat_theta m c, weight_t m c, bias_kept m c]

theorem unflat : (W3 m c (Proc.devRef .tc main_v3) : S4x4096x512.Idx → EReal)
    = shapeCast S4x4096x512 (W2 m c (Proc.devRef .tc main_v2)) shapeCasts_S16384x512_S4x4096x512 := by
  dsimp only [W3, hostOps1]
  after_results
  rfl

/-- The array both attention windows read holds the specification's projected queries. -/
theorem queries : (W3 m c (Proc.devRef .tc main_v3) : S4x4096x512.Idx → EReal)
    = fun i => Qr (theta m c) (weight m c) (bias m c) (i 0) (i 1) (i 2) := by
  rw [unflat m c, proj_out m c]
  funext i
  obtain ⟨b, s, e, rfl⟩ : ∃ (b : Fin 4) (s : Fin 4096) (e : Fin 512), i = ix3 b s e := ⟨i 0, i 1, i 2, eq_ix3 i⟩
  rw [Cert.Layout.unflatten_at, Proj.projArr_ix2]
  show _ = Qr (theta m c) (weight m c) (bias m c) b s e
  unfold Qr
  refine congrArg (· + bias m c (ix1 e)) (Finset.sum_congr rfl fun k _ => ?_)
  rw [Cert.Layout.flatten_at, Cert.Layout.transpose_at]

theorem theta_mid : (W3 m c (Proc.devRef .tc main_arg0) : S4x4096x512.Idx → EReal) = theta m c :=
  (StableHlo.after_of_writes_sub hostOps1 _ hostOps1_writes (by decide)).trans <| (W2_of_ne m c main_arg0 (by decide)).trans <|
    (StableHlo.after_of_writes_sub hostOps0 _ hostOps0_writes (by decide)).trans rfl

theorem theta_late : (W4 m c (Proc.devRef .tc main_arg0) : S4x4096x512.Idx → EReal) = theta m c :=
  (W4_of_ne m c main_arg0 (by decide)).trans (theta_mid m c)

/-! ## The attention output and the result -/

section Result
variable (hθ : ∀ i, ∃ r : ℝ, theta m c i = (r : EReal)) (hW : ∀ i, ∃ r : ℝ, weight m c i = (r : EReal)) (hb : ∀ i, ∃ r : ℝ, bias m c i = (r : EReal))

include hθ hW hb in
theorem attn_out : (W4 m c (Proc.devRef .tc main_v4) : S4x4096x512.Idx → EReal)
    = fun i => attn (theta m c) (weight m c) (bias m c) (i 0) (i 1) (i 2) := by
  rw [W4_out, Attn.arrAt_attn (V3 m) c]
  show attnArr _ (W3 m c (Proc.devRef .tc main_v3)) (W3 m c (Proc.devRef .tc main_arg0)) = _
  rw [queries m c, theta_mid m c, scale_eq]
  funext i
  obtain ⟨b, q, j, rfl⟩ : ∃ (b : Fin 4) (q : Fin 4096) (j : Fin 512), i = ix3 b q j := ⟨i 0, i 1, i 2, eq_ix3 i⟩
  rw [attnArr_ix3]
  exact Cert.Bridge.attn_bridge (theta m c) (weight m c) (bias m c) hθ hW hb b q j

theorem out_concat : (W5 m c (Proc.devRef .tc main_v5) : S4x4096x1024.Idx → EReal)
    = concatenate S4x4096x1024 2 [⟨S4x4096x512, W4 m c (Proc.devRef .tc main_v4)⟩, ⟨S4x4096x512, W4 m c (Proc.devRef .tc main_arg0)⟩]
        concatenates_S4x4096x512_S4x4096x512_S4x4096x1024_d2 := by
  dsimp only [W5, hostOps2]
  after_results

include hθ hW hb in
/-- The result buffer the run ends with is the specification's function of the arguments. -/
theorem result_eq : (W5 m c (Proc.devRef .tc main_v5) : OutIdx → EReal) = refSpec (theta m c) (weight m c) (bias m c) := by
  rw [out_concat m c]
  funext i
  unfold refSpec
  by_cases h : (i 2).val < 512
  · rw [dif_pos h]
    refine (concatenate_pair_apply_left (s₁ := S4x4096x512) (s₂ := S4x4096x512) (2 : Fin S4x4096x1024.rank) _ _ _ i rfl
      (ix3 (i 0 : Fin 4) (i 1 : Fin 4096) (⟨(i 2).val, h⟩ : Fin 512))
      (fun b => match b with | ⟨0, _⟩ => rfl | ⟨1, _⟩ => rfl | ⟨2, _⟩ => rfl)).trans ?_
    rw [attn_out m c hθ hW hb]
    rfl
  · rw [dif_neg h]
    have h2 : (i 2).val < 1024 := (i 2).isLt
    refine (concatenate_pair_apply_right (s₁ := S4x4096x512) (s₂ := S4x4096x512) (2 : Fin S4x4096x1024.rank) _ _ _ i rfl rfl
      (ix3 (i 0 : Fin 4) (i 1 : Fin 4096) (⟨(i 2).val - 512, by omega⟩ : Fin 512))
      (fun b hb => match b, hb with
        | ⟨0, _⟩, _ => rfl
        | ⟨1, _⟩, _ => rfl
        | ⟨2, _⟩, hb => absurd rfl hb)
      (by show (i 2).val - 512 + 512 = (i 2).val; omega)).trans ?_
    rw [theta_late m c]

end Result

end Cert.KernelIdeal.Glue

end
-- ==== Proof.RefAt.lean ====
/-
  The reference's result, read at an index: it is the function `Cert.AttnSpec.refSpec` of its three arguments.
  Each stage of the reference is read at an index built from coordinates and named by the corresponding
  function of the specification: the projected query, the scores, the row maximum, the exponentials, the row
  sum, the weights, the weighted sum of the input's rows, and last the concatenation with the input.
-/
import proofs.«131597_j62620623175753_2_alg».proof.Proof.Gen.ReferenceIdeal.Read
import proofs.«131597_j62620623175753_2_alg».proof.Proof.Spec

noncomputable section

namespace Cert.ReferenceIdeal.RefAt

open Cert.ReferenceIdeal Cert.ReferenceIdeal.Gen Cert.ReferenceIdeal.Read Idealize.ShloMosaic Idealize.ShloMosaic.ValueIdx
  Idealize.SL.Sem Idealize.ShloMosaic.StableHlo Cert.AttnSpec Idealize.ShloMosaic.TcCoe
open scoped BigOperators

variable (theta : ThetaIdx → EReal) (Wq : WIdx → EReal) (bq : BIdx → EReal)

/-! ## The projected query -/

theorem lidx_v0 (b : Fin 4) (s : Fin 4096) (e d : Fin 512) : lidx_main_v0 (ix3 b s e) d = ix3 b s d := by
  funext a; match a with | ⟨0, _⟩ => rfl | ⟨1, _⟩ => rfl | ⟨2, _⟩ => rfl

theorem ridx_v0 (b : Fin 4) (s : Fin 4096) (e d : Fin 512) : ridx_main_v0 (ix3 b s e) d = ix2 e d := by
  funext a; match a with | ⟨0, _⟩ => rfl | ⟨1, _⟩ => rfl

theorem idx_v1_v2 (b : Fin 4) (s : Fin 4096) (e : Fin 512) : idx_main_v1 (idx_main_v2 (ix3 b s e)) = ix1 e := by
  funext a; match a with | ⟨0, _⟩ => rfl

/-- The sum of the product with the transposed matrix and the bias is the projected query. -/
theorem v3_at (b : Fin 4) (s : Fin 4096) (e : Fin 512) :
    val_main_v3 (F := Ideal) theta Wq bq (ix3 b s e) = Qr theta Wq bq b s e := by
  rw [val_main_v3_apply, val_main_v0_apply, val_main_v2_apply, val_main_v1_apply, idx_v1_v2]
  unfold Qr
  refine congrArg (· + bq (ix1 e)) (Finset.sum_congr rfl fun d _ => ?_)
  rw [lidx_v0, ridx_v0]

/-! ## The scores -/

theorem lidx_v4 (b : Fin 4) (q k : Fin 4096) (d : Fin 512) : lidx_main_v4 (ix3 b q k) d = ix3 b q d := by
  funext a; match a with | ⟨0, _⟩ => rfl | ⟨1, _⟩ => rfl | ⟨2, _⟩ => rfl

theorem ridx_v4 (b : Fin 4) (q k : Fin 4096) (d : Fin 512) : ridx_main_v4 (ix3 b q k) d = ix3 b k d := by
  funext a; match a with | ⟨0, _⟩ => rfl | ⟨1, _⟩ => rfl | ⟨2, _⟩ => rfl

/-- The quotient of the queries' inner product by the constant is the score. -/
theorem v6_at (b : Fin 4) (q k : Fin 4096) :
    val_main_v6 (F := Ideal) theta Wq bq (ix3 b q k) = score theta Wq bq b q k := by
  rw [val_main_v6_apply, val_main_v4_apply, val_main_v5_apply, val_main_cst_apply]
  unfold score
  refine congrArg (Ideal.div · D) (Finset.sum_congr rfl fun d _ => ?_)
  rw [lidx_v4, ridx_v4, v3_at, v3_at]

/-! ## The row maximum -/

/-- The pattern of negative infinity is the bottom element. -/
theorem neg_inf : Ideal.ofBits .f32 0xFF800000#32 = (⊥ : EReal) := by simp [Ideal.ofBits, Ideal.ieee]

/-- A (batch, query) index with key `k` put back on the reduced axis. -/
theorem lift_v7 (h : S4x4096x4096.Reduces [2] S4x4096) (b : Fin 4) (q : Fin 4096) (k : Fin (S4x4096x4096.size 2)) :
    h.lift (ix2 b q) k = ix3 b q (⟨k.val, k.isLt⟩ : Fin 4096) := by
  funext c; apply Fin.ext
  match c with | ⟨0, _⟩ => rfl | ⟨1, _⟩ => rfl | ⟨2, _⟩ => rfl

/-- The reduction over the keys is a fold over the key coordinate, from the reduction's initial value. -/
theorem v7_fold (h : S4x4096x4096.Reduces [2] S4x4096) (b : Fin 4) (q : Fin 4096) :
    val_main_v7 (F := Ideal) theta Wq bq (ix2 b q)
      = (Finset.univ : Finset (Fin (S4x4096x4096.size 2))).fold (FloatOps.maximumf (F := Ideal) (φ := .f32))
          (val_main_cst_0 (F := Ideal) (Shape.Idx.first h_S_))
          (val_main_v6 (F := Ideal) theta Wq bq ∘ h.lift (ix2 b q)) := by
  unfold val_main_v7
  exact Host.reduce_eq_fold_single (FloatOps.maximumf (F := Ideal) (φ := .f32)) _ _
    reducesTo_S4x4096x4096_S4x4096_d2 h h_S_ (ix2 b q)

/-- The folded function is the row of scores. -/
theorem v6_lift (h : S4x4096x4096.Reduces [2] S4x4096) (b : Fin 4) (q : Fin 4096) :
    (val_main_v6 (F := Ideal) theta Wq bq ∘ h.lift (ix2 b q)) = fun k : Fin 4096 => score theta Wq bq b q k :=
  funext fun k => by rw [Function.comp_apply, lift_v7, v6_at]; rfl

/-- The reduction by maximum over the keys is the fold of `max` over a row of scores. -/
theorem v7_at (b : Fin 4) (q : Fin 4096) :
    val_main_v7 (F := Ideal) theta Wq bq (ix2 b q)
      = Finset.univ.fold max ⊥ fun k : Fin 4096 => score theta Wq bq b q k := by
  have h : S4x4096x4096.Reduces [2] S4x4096 := by decide
  rw [v7_fold theta Wq bq h, v6_lift theta Wq bq h, val_main_cst_0_apply]
  exact congrArg (fun x : EReal => Finset.univ.fold max x fun k : Fin 4096 => score theta Wq bq b q k) neg_inf

/-- Joined with the constant negative infinity it is the row maximum. -/
theorem v9_at (b : Fin 4) (q : Fin 4096) :
    val_main_v9 (F := Ideal) theta Wq bq (ix2 b q) = rowMax theta Wq bq b q := by
  rw [val_main_v9_apply, val_main_v8_apply, val_main_cst_1_apply, v7_at]
  unfold rowMax
  exact congrArg (max · _) neg_inf

/-! ## The exponentials, their sum, the weights -/

theorem idx_v10_v11 (b : Fin 4) (q k : Fin 4096) : idx_main_v10 (idx_main_v11 (ix3 b q k)) = ix2 b q := by
  funext a; match a with | ⟨0, _⟩ => rfl | ⟨1, _⟩ => rfl

theorem v13_at (b : Fin 4) (q k : Fin 4096) :
    val_main_v13 (F := Ideal) theta Wq bq (ix3 b q k)
      = Ideal.exp (score theta Wq bq b q k - rowMax theta Wq bq b q) := by
  rw [val_main_v13_apply, val_main_v12_apply, val_main_v11_apply, val_main_v10_apply, idx_v10_v11, v9_at, v6_at]
  rfl

theorem idx_v14 (b : Fin 4) (q k : Fin 4096) : idx_main_v14 (ix2 b q) k = ix3 b q k := by
  funext a; match a with | ⟨0, _⟩ => rfl | ⟨1, _⟩ => rfl | ⟨2, _⟩ => rfl

theorem idx_v15_v16 (b : Fin 4) (q k : Fin 4096) : idx_main_v15 (idx_main_v16 (ix3 b q k)) = ix2 b q := by
  funext a; match a with | ⟨0, _⟩ => rfl | ⟨1, _⟩ => rfl

theorem v16_at (b : Fin 4) (q k : Fin 4096) :
    val_main_v16 (F := Ideal) theta Wq bq (ix3 b q k)
      = 0 + ∑ k' : Fin 4096, Ideal.exp (score theta Wq bq b q k' - rowMax theta Wq bq b q) := by
  rw [val_main_v16_apply, val_main_v15_apply, idx_v15_v16, val_main_v14_apply, val_main_cst_2_apply]
  refine congrArg₂ (· + ·) Ideal.ofBits_zero_f32 (Finset.sum_congr rfl fun k' _ => ?_)
  rw [idx_v14, v13_at]

theorem v17_at (b : Fin 4) (q k : Fin 4096) :
    val_main_v17 (F := Ideal) theta Wq bq (ix3 b q k) = weight theta Wq bq b q k := by
  rw [val_main_v17_apply, v13_at, v16_at]
  rfl

/-! ## The weighted sum and the concatenation -/

theorem lidx_v18 (b : Fin 4) (q : Fin 4096) (j : Fin 512) (k : Fin 4096) : lidx_main_v18 (ix3 b q j) k = ix3 b q k := by
  funext a; match a with | ⟨0, _⟩ => rfl | ⟨1, _⟩ => rfl | ⟨2, _⟩ => rfl

theorem ridx_v18 (b : Fin 4) (q : Fin 4096) (j : Fin 512) (k : Fin 4096) : ridx_main_v18 (ix3 b q j) k = ix3 b k j := by
  funext a; match a with | ⟨0, _⟩ => rfl | ⟨1, _⟩ => rfl | ⟨2, _⟩ => rfl

theorem v18_at (b : Fin 4) (q : Fin 4096) (j : Fin 512) :
    val_main_v18 (F := Ideal) theta Wq bq (ix3 b q j) = attn theta Wq bq b q j := by
  rw [val_main_v18_apply]
  unfold attn
  refine Finset.sum_congr rfl fun k _ => ?_
  rw [lidx_v18, ridx_v18, v17_at]

/-- **The reference at an index** is the specification's function. -/
theorem v19_at (i : OutIdx) : val_main_v19 (F := Ideal) theta Wq bq i = refSpec theta Wq bq i := by
  unfold val_main_v19 refSpec
  by_cases h : (i 2).val < 512
  · rw [dif_pos h]
    refine (concatenate_pair_apply_left (s₁ := S4x4096x512) (s₂ := S4x4096x512) (2 : Fin S4x4096x1024.rank) _ _ _ i rfl
      (ix3 (i 0 : Fin 4) (i 1 : Fin 4096) (⟨(i 2).val, h⟩ : Fin 512))
      (fun b => match b with | ⟨0, _⟩ => rfl | ⟨1, _⟩ => rfl | ⟨2, _⟩ => rfl)).trans ?_
    exact v18_at theta Wq bq (i 0) (i 1) ⟨(i 2).val, h⟩
  · rw [dif_neg h]
    have h2 : (i 2).val < 1024 := (i 2).isLt
    exact concatenate_pair_apply_right (s₁ := S4x4096x512) (s₂ := S4x4096x512) (2 : Fin S4x4096x1024.rank) _ _ _ i rfl rfl
      (ix3 (i 0 : Fin 4) (i 1 : Fin 4096) (⟨(i 2).val - 512, by omega⟩ : Fin 512))
      (fun b hb => match b, hb with
        | ⟨0, _⟩, _ => rfl
        | ⟨1, _⟩, _ => rfl
        | ⟨2, _⟩, hb => absurd rfl hb)
      (by show (i 2).val - 512 + 512 = (i 2).val; omega)

/-- The result buffer of the reference's run, at an index, is the specification's function of the three argument
    buffers. -/
theorem res_v19_at (m : (ℓ : Loc nD τ sig) → Buf (Elt Ideal) ℓ) (c : Dev nD) (i : OutIdx) :
    Cert.ReferenceIdeal.Value.res_main_v19 m c i
      = refSpec (m ((c.tc : Thread nD τ).loc main_arg0)) (m ((c.tc : Thread nD τ).loc main_arg1))
          (m ((c.tc : Thread nD τ).loc main_arg2)) i := by
  rw [val_main_v19_eq]
  exact v19_at _ _ _ i

end Cert.ReferenceIdeal.RefAt

end
-- ==== Proof.FiniteInputs.lean ====
/-
  Finite inputs are real inputs. The precondition compares the absolute value of every entry of the three argument
  arrays with positive infinity and takes the conjunction of all the comparisons; where it answers one, every entry is
  neither infinity, that is, the coercion of a real.
-/
import proofs.«131597_j62620623175753_2_alg».proof.Defs
import proofs.«131597_j62620623175753_2_alg».proof.Proof.Gen.Pre_finite_inputs
import Idealize.ShloMosaic.Lib.ReduceAll
import Idealize.ShloMosaic.Lib.ValueIdx
import Idealize.ShloMosaic.Lib.Pipeline.Value

noncomputable section

namespace Cert.FiniteInputs

open Idealize.ShloMosaic Idealize.ShloMosaic.ValueIdx Idealize.SL.Sem Idealize.ShloMosaic.TcCoe

/-- The scalar shape has one index. -/
instance : Subsingleton Cert.Pre_finite_inputs.S_.Idx := ⟨fun a b => funext fun d => d.elim0⟩

/-- The pattern of positive infinity is the top element. -/
theorem pos_inf : Ideal.ofBits .f32 0x7F800000#32 = (⊤ : EReal) := by simp [Ideal.ofBits, Ideal.ieee]

/-- An extended real whose absolute value is below positive infinity is a real. -/
theorem real_of_abs_lt (x : EReal)
    (h : Ideal.cmp .olt (max x (-x)) (Ideal.ofBits .f32 0x7F800000#32) = 1#1) : ∃ r : ℝ, x = (r : EReal) := by
  rw [pos_inf] at h
  induction x using EReal.rec with
  | bot => exfalso; revert h; simp [Ideal.cmp]
  | coe r => exact ⟨r, rfl⟩
  | top => exfalso; revert h; simp [Ideal.cmp]

/-- One array: where the conjunction over all entries of "absolute value below positive infinity" is one, every entry
    is a real. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
        (cmpf .olt (Host.absf x) (broadcastInDim s ![] hb (constant Cert.Pre_finite_inputs.S_ .f32 0x7F800000#32)))
        (constantI Cert.Pre_finite_inputs.S_ 1 1#1) hr hu ix0 = 1#1) (i : s.Idx) :
    ∃ r : ℝ, x i = (r : EReal) := by
  have h1 := Host.reduce_andi_all _ _ hr hu ix0 e i
  refine real_of_abs_lt (x i) ?_
  rw [cmpf_apply, broadcastInDim_apply _ hb _ i ix0 (fun a => a.elim0)] at h1
  exact h1

/-- **Finite inputs are real.** Where the printed precondition answers one, every entry of the three arrays is a real. -/
theorem finite_of_fn [Cert.Pre_finite_inputs.Facts] (x0 : FVec Ideal Cert.Pre_finite_inputs.S4x4096x512 .f32)
    (x1 : FVec Ideal Cert.Pre_finite_inputs.S512x512 .f32) (x2 : FVec Ideal Cert.Pre_finite_inputs.S512 .f32)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ix0
  dsimp only [Cert.Pre_finite_inputs.fn] at h0
  obtain ⟨h8, h12⟩ := IntOp.andi_eq_one.1 h0
  obtain ⟨h3, h7⟩ := IntOp.andi_eq_one.1 h8
  exact ⟨fun i => real_of_all x0 _ _ _ h3 i, fun i => real_of_all x1 _ _ _ h7 i, fun i => real_of_all x2 _ _ _ h12 i⟩

/-- The same of the idealized kernel's argument buffers, from its precondition. -/
theorem finite_of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, (m ((c.tc : Thread Cert.KernelIdeal.nD Cert.KernelIdeal.τ).loc Cert.KernelIdeal.main_arg0)) i = (r : EReal))
    ∧ (∀ i, ∃ r : ℝ, (m ((c.tc : Thread Cert.KernelIdeal.nD Cert.KernelIdeal.τ).loc Cert.KernelIdeal.main_arg1)) i = (r : EReal))
    ∧ (∀ i, ∃ r : ℝ, (m ((c.tc : Thread Cert.KernelIdeal.nD Cert.KernelIdeal.τ).loc Cert.KernelIdeal.main_arg2)) i = (r : EReal)) :=
  finite_of_fn _ _ _ (hpre c)

end Cert.FiniteInputs

end
-- ==== Proof.lean ====
/-
  The certificate's five claims.

  Both kernel programs — the word-level one and its idealization — are the same text: a projection region, a reshape, a
  flash-attention region and a concatenation, and one proof, generic in the number format, runs either: every weakly fair
  execution terminates with every unscoped buffer at the fold of the program's items from the launch memory; the frame
  claims read the three arguments off that fold, which no item writes.  The reference is a straight-line host program.

  The idealization names one constant: the scale the kernel multiplies its scores by is read as the reciprocal of the
  divisor the reference divides its scores by.

  At the extended reals, with every argument entry a real number (the precondition), the kernel's result is the
  reference's: the projected queries agree entry by entry; folding the four key blocks one after the other into a running
  maximum, a running sum and a running accumulator, each rescaled by the exponential of the maximum's change, gives the
  same quotient as the whole-row softmax; and the appended copy of theta is the same on both sides.
-/
import proofs.«131597_j62620623175753_2_alg».proof.Defs
import proofs.«131597_j62620623175753_2_alg».proof.Proof.Gen.Kernel
import proofs.«131597_j62620623175753_2_alg».proof.Proof.Gen.KernelIdeal
import proofs.«131597_j62620623175753_2_alg».proof.Proof.Gen.ReferenceIdeal
import proofs.«131597_j62620623175753_2_alg».proof.Proof.Gen.Pre_finite_inputs
import proofs.«131597_j62620623175753_2_alg».proof.Proof.Easy
import proofs.«131597_j62620623175753_2_alg».proof.Proof.Whole
import proofs.«131597_j62620623175753_2_alg».proof.Proof.Word.Whole
import proofs.«131597_j62620623175753_2_alg».proof.Proof.Glue
import proofs.«131597_j62620623175753_2_alg».proof.Proof.RefAt
import proofs.«131597_j62620623175753_2_alg».proof.Proof.FiniteInputs
import Idealize.ShloMosaic.Adequacy
import Idealize.ShloMosaic.Init

noncomputable section

namespace Cert.Proof

open Idealize.ShloMosaic Idealize.ShloMosaic.TcCoe Idealize.SL.Sem

/-- The word-level kernel program runs to the end and leaves its three arguments as launched. -/
theorem frame_k : Cert.frame_Kernel := fun m ρ _ =>
  (θ_run Cert.Kernel.defs _ _).mono (fun _ h c => (h c).2) (Cert.Kernel.Whole.run (F := Bits) m ρ)

/-- So does its idealization. -/
theorem frame_ki : Cert.frame_KernelIdeal := fun m ρ _ =>
  (θ_run Cert.KernelIdeal.defs _ _).mono (fun _ h c => (h c).2) (Cert.KernelIdeal.Whole.run (F := Ideal) m ρ)

/-- From memories that agree on the arguments both idealized programs run, and the reference's result buffer holds what the
    kernel program's does: the specification's function of the arguments. -/
theorem algebraic : Cert.algebraic_KernelIdeal_ReferenceIdeal := by
  intro m ρ m' ρ' hpre hagree
  refine ⟨fun c => Cert.KernelIdeal.Whole.W5 m c (Proc.devRef .tc Cert.KernelIdeal.main_v5), Cert.KernelIdeal.Whole.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨hθ, hW, hb⟩ := Cert.FiniteInputs.finite_of_pre m hpre c
  funext i
  rw [Cert.ReferenceIdeal.RefAt.res_v19_at m' c i, (hagree c).1, (hagree c).2.1, (hagree c).2.2]
  exact (congrFun (Cert.KernelIdeal.Glue.result_eq m c hθ hW hb) i).symm

theorem claim : Cert.Claim :=
  ⟨Cert.Kernel.Gen.facts, Cert.KernelIdeal.Gen.facts, Cert.ReferenceIdeal.Gen.facts, Cert.Pre_finite_inputs.Gen.facts,
    frame_k, frame_ki, Cert.Proof.Easy.frame_ri, Cert.Proof.Easy.preserves, algebraic⟩

end Cert.Proof

end
